-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S1x64 : Shape := ⟨2, ![1, 64]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg0 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : IVec S16384 32) (main_arg1 : FVec F S1000000x64 .f32) (main_arg2 : FVec F S1x64 .f32) (main_arg3 : FVec F S1 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 1#32
  let main_v14 : IVec S16384 32 := broadcastInDim S16384 ![] bcast_S_S16384 main_c_4
  let main_v15 : IVec S16384 1 := cmpi .sge main_arg0 main_v14
  let main_c_5 : IVec S_ 32 := constantI S_ 32 1000000#32
  fn_part1 (F := F) main_arg0 main_v13 main_v15 main_c_5
-- ==== Kernel.lean ====
abbrev S16384 : Shape := ⟨1, ![16384]⟩
abbrev S1000000x64 : Shape := ⟨2, ![1000000, 64]⟩
abbrev S1x64 : Shape := ⟨2, ![1, 64]⟩
abbrev S1 : Shape := ⟨1, ![1]⟩
abbrev S_ : Shape := ⟨0, ![]⟩
abbrev S64x1000000 : Shape := ⟨2, ![64, 1000000]⟩
abbrev S64x1 : Shape := ⟨2, ![64, 1]⟩
abbrev S1000000 : Shape := ⟨1, ![1000000]⟩
abbrev S64x40960 : Shape := ⟨2, ![64, 40960]⟩
abbrev S40960 : Shape := ⟨1, ![40960]⟩
abbrev S512 : Shape := ⟨1, ![512]⟩
abbrev S16 : Shape := ⟨1, ![16]⟩

abbrev nBuf : Table → Nat
  | .hbm => 11
  | .local .tc .vmem => 5
  | .local .tc .smem => 1
  | .local .scVector .vmem => 2
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S1x64, .f32⟩
  | .hbm, ⟨3, _⟩ => ⟨S1, .f32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S64x1000000, .f32⟩
  | .hbm, ⟨8, _⟩ => ⟨S64x1, .f32⟩
  | .hbm, ⟨9, _⟩ => ⟨S1000000, .f32⟩
  | .hbm, ⟨10, _⟩ => ⟨S16384, .f32⟩
  | .local .tc .vmem, ⟨0, _⟩ => ⟨S64x40960, .f32⟩
  | .local .tc .vmem, ⟨1, _⟩ => ⟨S64x40960, .f32⟩
  | .local .tc .vmem, ⟨2, _⟩ => ⟨S64x1, .f32⟩
  | .local .tc .vmem, ⟨3, _⟩ => ⟨S40960, .f32⟩
  | .local .tc .vmem, ⟨4, _⟩ => ⟨S40960, .f32⟩
  | .local .tc .smem, ⟨0, _⟩ => ⟨S1, .f32⟩
  | .local .scVector .vmem, ⟨0, _⟩ => ⟨S512, .i32⟩
  | .local .scVector .vmem, ⟨1, _⟩ => ⟨S512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v1_scv : Ref sig .scVector := ⟨.hbm, 6, rfl⟩
abbrev main_v4_scv : Ref sig .scVector := ⟨.hbm, 9, rfl⟩
abbrev main_v5_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S64x40960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S40960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S16384 : S_.BroadcastsInDim S16384 (![] : Fin 0 → Fin S16384.rank)
  transposes_S1000000x64_S64x1000000_1_0 : S1000000x64.Transposes [1, 0] S64x1000000
  shapeCasts_S1x64_S64x1 : S1x64.ShapeCasts S64x1
  inb_S64x40960_S64x40960_0_0 : ∀ a, (![0, 0] : Fin 2 → Nat) a + S64x40960.size a ≤ S64x40960.size a
  h_S64x40960 : 0 < S64x40960.numel
  shapeCasts_S64x40960_S64x40960 : S64x40960.ShapeCasts S64x40960
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x40960 : S64x1.Broadcasts S64x40960
  reduces_S64x40960_S40960 : S64x40960.Reduces [0] S40960
  inb_S1_S1_0 : ∀ a, (![0] : Fin 1 → Nat) a + S1.size a ≤ S1.size a
  numel1_S1 : S1.numel = 1
  inb_S40960_S40960_0 : ∀ a, (![0] : Fin 1 → Nat) a + S40960.size a ≤ S40960.size a
  h_S40960 : 0 < S40960.numel
  inb_S1000000_S1000000_0 : ∀ a, (![0] : Fin 1 → Nat) a + S1000000.size a ≤ S1000000.size a
  gathers_S1000000_S512 : S1000000.Gathers 0 S512
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  hcc1_scratch2 : 6 + S_.numel ≤ 9
  hcc1_scoped0 : 7 + S_.numel ≤ 9
  hcc1_scoped1 : 8 + S_.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x40960.size a < S64x1000000.size a
  hwx0_0 : ∀ i : grid0.Coords, EltTy.bits .f32 = 32 ∨ (Rect.unit (s := S64x1000000) (fun a => cc0_transform_0 i a * S64x40960.size a) (fun a => (Pipeline.Clip.of (cc0_transform_0 i a) (S64x40960.size a) (S64x1000000.size a)).extent (S64x40960.size a)) fun a => Pipeline.Clip.inb (Pipeline.Clip.ok_of (hstart0_0 i a))).WholeWords (EltTy.packing .f32)
  hwxs0_0 : ∀ i : grid0.Coords, EltTy.bits .f32 = 32 ∨ (Rect.unit (s := S64x40960) (fun _ => 0) (fun a => (Pipeline.Clip.of (cc0_transform_0 i a) (S64x40960.size a) (S64x1000000.size a)).extent (S64x40960.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S40960.size a < S1000000.size a
  hwx0_3 : ∀ i : grid0.Coords, EltTy.bits .f32 = 32 ∨ (Rect.unit (s := S1000000) (fun a => cc0_transform_3 i a * S40960.size a) (fun a => (Pipeline.Clip.of (cc0_transform_3 i a) (S40960.size a) (S1000000.size a)).extent (S40960.size a)) fun a => Pipeline.Clip.inb (Pipeline.Clip.ok_of (hstart0_3 i a))).WholeWords (EltTy.packing .f32)
  hwxs0_3 : ∀ i : grid0.Coords, EltTy.bits .f32 = 32 ∨ (Rect.unit (s := S40960) (fun _ => 0) (fun a => (Pipeline.Clip.of (cc0_transform_3 i a) (S40960.size a) (S1000000.size a)).extent (S40960.size a)) fun a => (Nat.zero_add _).trans_le (Pipeline.Clip.extent_le (Pipeline.Clip.ok_of (hstart0_3 i a)))).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a

variable [Facts₀]

abbrev cc1_scratch2 : DmaSems sig S_ := SemArray.consecutive 6 S_ hcc1_scratch2
abbrev cc1_scoped0 : DmaSems sig S_ := SemArray.consecutive 7 S_ hcc1_scoped0
abbrev cc1_scoped1 : DmaSems sig S_ := SemArray.consecutive 8 S_ hcc1_scoped1

abbrev win0_0 : Pipeline.Window sig grid0 :=
  Pipeline.Window.ofSpecClip (Memref.whole main_v2) S64x40960.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v4) S40960.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S1000000x64 : Shape := ⟨2, ![1000000, 64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S64x1 : Shape := ⟨2, ![64, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S1x64, .f32⟩
  | .hbm, ⟨3, _⟩ => ⟨S1, .f32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S1, .i32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S1x1, .i32⟩
  | .hbm, ⟨20, _⟩ => ⟨S16384x1, .i32⟩
  | .hbm, ⟨21, _⟩ => ⟨S16384x1, .i1⟩
  | .hbm, ⟨22, _⟩ => ⟨S16384x1, .i1⟩
  | .hbm, ⟨23, _⟩ => ⟨S_, .i1⟩
  | .hbm, ⟨24, _⟩ => ⟨S16384, .i1⟩
  | .hbm, ⟨25, _⟩ => ⟨S16384x64, .f32⟩
  | .hbm, ⟨26, _⟩ => ⟨S16384x64, .i1⟩
  | .hbm, ⟨27, _⟩ => ⟨S_, .f32⟩
  | .hbm, ⟨28, _⟩ => ⟨S16384x64, .f32⟩
  | .hbm, ⟨29, _⟩ => ⟨S16384x64, .f32⟩
  | .hbm, ⟨30, _⟩ => ⟨S64x1, .f32⟩
  | .hbm, ⟨31, _⟩ => ⟨S16384x1, .f32⟩
  | .hbm, ⟨32, _⟩ => ⟨S1x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  transposes_S1x64_S64x1_1_0 : S1x64.Transposes [1, 0] S64x1
  shapeCasts_S16384x1_S16384 : S16384x1.ShapeCasts S16384
  gather_S1000000x64_S16384x1_S16384x64_1_0_n_n_0_1_164_wf : GatherDims.WF S1000000x64 S16384x1 S16384x64 [1] [0] [] [0] [] 1 ![1, 64]
  dot_S16384x64_S64x1_S16384x1_1_0_0_1_n_n_wf : DotDims.WF S16384x64 S64x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.RefRun.lean ====
/-
  The reference program's straight line. Its @main subtracts one from the item numbers, calls the outlined
  row lookup (a wrap of negative numbers, the gather of the rows, a mask of the numbers in range selecting the
  rows or a not-a-number fill), multiplies the rows by the transposed weight row, adds the bias, and applies
  1 / (1 + exp (-x)). Here the forty operations are listed in order, the program is shown to be their sequence,
  and every weakly fair execution ends with the result at the operations' composed term of the arguments,
  the arguments unchanged.
-/
import proofs.«202434_g11450382811589_week1_w4_549_31_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The item numbers less one. -/
def idx0 (a0 : IVec S16384 32) : IVec S16384 32 :=
  subi a0 (broadcastInDim S16384 ![] bcast_S_S16384 (constantI S_ 32 1#32))

/-- A negative number wrapped by the table's length. -/
def wrapped (i : IVec S16384 32) : IVec S16384 32 :=
  select (cmpi .slt i (broadcastInDim S16384 ![] bcast_S_S16384 (constantI S_ 32 0#32)))
    (addi i (broadcastInDim S16384 ![] bcast_S_S16384 (constantI S_ 32 1000000#32))) i

/-- The numbers as a column of one-entry index vectors. -/
def idxCol (i : IVec S16384 32) : IVec S16384x1 32 :=
  broadcastInDim S16384x1 ![0] bcast_S16384_S16384x1_0 (wrapped i)

/-- Which numbers name a row of the table: between 0 and 999999. -/
def inRange (i : IVec S16384 32) : IVec S16384 1 :=
  Host.reduce IntOp.andi
    (andi (cmpi .sge (idxCol i) (broadcastInDim S16384x1 ![] bcast_S_S16384x1 (constantI S_ 32 0#32)))
      (cmpi .sle (idxCol i) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The looked-up rows: the gathered row where the number is in range, the fill elsewhere. -/
def rows (a1 : FVec F S1000000x64 .f32) (i : IVec S16384 32) : FVec F S16384x64 .f32 :=
  select (broadcastInDim S16384x64 ![0] bcast_S16384_S16384x64_0 (inRange i))
    (Host.gather gather_S1000000x64_S16384x1_S16384x64_1_0_n_n_0_1_164 a1 (idxCol i))
    (broadcastInDim S16384x64 ![] bcast_S_S16384x64 (constant S_ .f32 0x7FC00000#32))

/-- The rows times the weights plus the bias, a column. -/
def logits (a1 : FVec F S1000000x64 .f32) (a2 : FVec F S1x64 .f32) (a3 : FVec F S1 .f32) (i : IVec S16384 32) : FVec F S16384x1 .f32 :=
  addf (Host.dotGeneral dot_S16384x64_S64x1_S16384x1_1_0_0_1_n_n none (rows a1 i) (transpose S64x1 [1, 0] a2 transposes_S1x64_S64x1_1_0))
    (broadcastInDim S16384x1 ![0, 1] bcast_S1x1_S16384x1_0_1 (broadcastInDim S1x1 ![1] bcast_S1_S1x1_1 a3))

/-- 1 / (1 + exp (-x)) entry by entry, then the column read as a vector. -/
def squash (x : FVec F S16384x1 .f32) : FVec F S16384 .f32 :=
  shapeCast S16384 (Host.divf (broadcastInDim S16384x1 ![] bcast_S_S16384x1 (constant S_ .f32 0x3F800000#32))
    (addf (broadcastInDim S16384x1 ![] bcast_S_S16384x1 (constant S_ .f32 0x3F800000#32)) (Host.exp (Host.negf x)))) shapeCasts_S16384x1_S16384

/-- The reference's result as one term of its four arguments. -/
def out (a0 : IVec S16384 32) (a1 : FVec F S1000000x64 .f32) (a2 : FVec F S1x64 .f32) (a3 : FVec F S1 .f32) : FVec F S16384 .f32 :=
  squash (logits a1 a2 a3 (idx0 a0))

/-- @main's forty operations, in order, the outlined lookup's listed where it is called. -/
abbrev ops : List (HloOp τ sig (Elt F)) :=
  [ nullary main_c (constantI S_ 32 1#32),
    unary main_c main_v0 (broadcastInDim S16384 ![] bcast_S_S16384 : (⟨S_, .i32⟩ : BufTy).Contents (Elt F) → (⟨S16384, .i32⟩ : BufTy).Contents (Elt F)),
    binary main_arg0 main_v0 main_v1 (subi : (⟨S16384, .i32⟩ : BufTy).Contents (Elt F) → (⟨S16384, .i32⟩ : BufTy).Contents (Elt F) → (⟨S16384, .i32⟩ : BufTy).Contents (Elt F)),
    TRef.nullary main_call0.c (constantI S_ 32 0#32),
    TRef.unary main_call0.c main_call0.v0 (broadcastInDim S16384 ![] bcast_S_S16384),
    TRef.binary (.of main_v1) main_call0.v0 main_call0.v1 (cmpi .slt),
    TRef.nullary main_call0.c_0 (constantI S_ 32 1000000#32),
    TRef.unary main_call0.c_0 main_call0.v2 (broadcastInDim S16384 ![] bcast_S_S16384),
    TRef.binary (.of main_v1) main_call0.v2 main_call0.v3 addi,
    TRef.ternary main_call0.v1 main_call0.v3 (.of main_v1) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    unary main_arg2 main_v3 ((transpose S64x1 [1, 0] · transposes_S1x64_S64x1_1_0) : (⟨S1x64, .f32⟩ : BufTy).Contents (Elt F) → (⟨S64x1, .f32⟩ : BufTy).Contents (Elt F)),
    binary main_v2 main_v3 main_v4 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg3 main_v5 (broadcastInDim S1x1 ![1] bcast_S1_S1x1_1 : (⟨S1, .f32⟩ : BufTy).Contents (Elt F) → (⟨S1x1, .f32⟩ : BufTy).Contents (Elt F)),
    unary main_v5 main_v6 (broadcastInDim S16384x1 ![0, 1] bcast_S1x1_S16384x1_0_1 : (⟨S1x1, .f32⟩ : BufTy).Contents (Elt F) → (⟨S16384x1, .f32⟩ : BufTy).Contents (Elt F)),
    binary main_v4 main_v6 main_v7 (addf : (⟨S16384x1, .f32⟩ : BufTy).Contents (Elt F) → (⟨S16384x1, .f32⟩ : BufTy).Contents (Elt F) → (⟨S16384x1, .f32⟩ : BufTy).Contents (Elt F)),
    unary main_v7 main_v8 (Host.negf : (⟨S16384x1, .f32⟩ : BufTy).Contents (Elt F) → (⟨S16384x1, .f32⟩ : BufTy).Contents (Elt F)),
    unary main_v8 main_v9 (Host.exp : (⟨S16384x1, .f32⟩ : BufTy).Contents (Elt F) → (⟨S16384x1, .f32⟩ : BufTy).Contents (Elt F)),
    nullary main_cst (constant S_ .f32 0x3F800000#32),
    unary main_cst main_v10 (broadcastInDim S16384x1 ![] bcast_S_S16384x1 : (⟨S_, .f32⟩ : BufTy).Contents (Elt F) → (⟨S16384x1, .f32⟩ : BufTy).Contents (Elt F)),
    binary main_v10 main_v9 main_v11 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v12 (broadcastInDim S16384x1 ![] bcast_S_S16384x1 : (⟨S_, .f32⟩ : BufTy).Contents (Elt F) → (⟨S16384x1, .f32⟩ : BufTy).Contents (Elt F)),
    binary main_v12 main_v11 main_v13 (Host.divf : (⟨S16384x1, .f32⟩ : BufTy).Contents (Elt F) → (⟨S16384x1, .f32⟩ : BufTy).Contents (Elt F) → (⟨S16384x1, .f32⟩ : BufTy).Contents (Elt F)),
    reshape main_v13 main_v14 rfl shapeCasts_S16384x1_S16384 ]

set_option maxRecDepth 1024 in
/-- @main is that straight line: the two outlined functions unfolded where they are called, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., reshape_bufs_sub ..⟩

/-- The fold of the forty operations at a buffer, over any starting contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 65536 in
set_option maxHeartbeats 1600000 in
/-- The fold at the result buffer is the composed term. -/
theorem out_eq (V : Valuation τ sig (Elt F)) :
    after ops V (main_v14 : DevRef τ sig)
      = out (F := F) (V (main_arg0 : DevRef τ sig)) (V (main_arg1 : DevRef τ sig)) (V (main_arg2 : DevRef τ sig)) (V (main_arg3 : DevRef τ sig)) := by
  after_results_simp
  unfold out squash logits rows inRange idxCol wrapped idx0
  rfl

set_option maxHeartbeats 1600000 in
theorem arg0_eq (V : Valuation τ sig (Elt F)) : after ops V (main_arg0 : DevRef τ sig) = V (main_arg0 : DevRef τ sig) := by
  after_results_simp
set_option maxHeartbeats 1600000 in
theorem arg1_eq (V : Valuation τ sig (Elt F)) : after ops V (main_arg1 : DevRef τ sig) = V (main_arg1 : DevRef τ sig) := by
  after_results_simp
set_option maxHeartbeats 1600000 in
theorem arg2_eq (V : Valuation τ sig (Elt F)) : after ops V (main_arg2 : DevRef τ sig) = V (main_arg2 : DevRef τ sig) := by
  after_results_simp
set_option maxHeartbeats 1600000 in
theorem arg3_eq (V : Valuation τ sig (Elt F)) : after ops V (main_arg3 : DevRef τ sig) = V (main_arg3 : DevRef τ sig) := by
  after_results_simp

/-- Every weakly fair execution of the reference terminates with the result at `out` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = out (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v14).trans (out_eq _), (h c main_arg0).trans (arg0_eq _),
      (h c main_arg1).trans (arg1_eq _), (h c main_arg2).trans (arg2_eq _), (h c main_arg3).trans (arg3_eq _)⟩)
    (run_all m ρ)

end Cert.ReferenceIdeal.RefRun

end
-- ==== Proof.KI.Setup.lean ====
/-
  The lookup kernel's program as the SparseCore launch sees it, and what the launch's handshakes carry.

  The device's TensorCore computes the score of every table row (a pipeline of 25 blocks), then starts the two
  SparseCores; each of their sixteen vector subcores takes block w = 2 * subcore + core of 512 item positions: it reads
  those 512 row numbers, gathers the scores at them, and writes 512 ratings. So a task is handed its 512 row numbers, a
  read share of the score array and its 512 entries of the result, and hands back the row numbers and the result entries.
-/
import proofs.«202434_g11450382811589_week1_w4_549_31_alg».proof.Defs
import proofs.«202434_g11450382811589_week1_w4_549_31_alg».proof.Proof.Gen.KernelIdeal
import proofs.«202434_g11450382811589_week1_w4_549_31_alg».proof.Proof.Gen.KernelIdeal.Skeleton
import proofs.«202434_g11450382811589_week1_w4_549_31_alg».proof.Proof.Gen.KernelIdeal.Launch
import proofs.«202434_g11450382811589_week1_w4_549_31_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP; infer_instance

/-! ## The launch memory, the buffers, the tasks' blocks -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev iLoc (d : Dev nD) : Loc nD τ sig := (SparseCore.T d).loc main_v1
abbrev xLoc (d : Dev nD) : Loc nD τ sig := (SparseCore.T d).loc main_v4
abbrev oLoc (d : Dev nD) : Loc nD τ sig := (SparseCore.T d).loc main_v5

abbrev iV : Memref sig .scVector .hbm S16384 .i32 := Memref.whole main_v1_scv
abbrev xV : Memref sig .scVector .hbm S1000000 .f32 := Memref.whole main_v4_scv
abbrev oV : Memref sig .scVector .hbm S16384 .f32 := Memref.whole main_v5_scv
abbrev sV : Memref sig .scVector .vmem S512 .i32 := Memref.whole cc1_scratch0
abbrev rV : Memref sig .scVector .vmem S512 .f32 := Memref.whole cc1_scratch1

/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem div32 : 32 ∣ S16384.size 0 := ⟨512, rfl⟩
/-- Block `w` of 512 consecutive positions, of 32. -/
abbrev rowsOf (w : Fin 32) : Rect S16384 := Rect.part (s := S16384) (a₀ := 0) div32 w
abbrev iRowSet (w : Fin 32) : Finset S16384.Idx := ((iV).view.slice (rowsOf w)).set
abbrev oRowSet (w : Fin 32) : Finset S16384.Idx := ((oV).view.slice (rowsOf w)).set
/-- The block a task works on: two per subcore, the SparseCore the low bit. -/
def wid (c : Fin 2) (i : Fin 16) : Fin 32 := ⟨2 * i.val + c.val, by omega⟩

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩
/-- Task `w`'s read share of the score array: a thirty-second. -/
abbrev xq (w : Fin 32) : PosShare TreeShare := leaf 5 fullShare w

variable [FloatOps F]
variable (m : (ℓ : Loc nD τ sig) → Buf (Elt F) ℓ)

/-- The row numbers the SparseCores read: the item numbers less one, as @main computes them. -/
def idxV (d : Dev nD) : Buf (Elt F) (iLoc d) :=
  (subi (m (a0Loc d)) (broadcastInDim S16384 ![] Facts₀.bcast_S_S16384 (constantI S_ 32 1#32)) : IVec S16384 32)

/-- The sixteen-lane rating 1 / (1 + exp (0 - v)) as the kernel spells it. -/
def sigv (v : FVec F S16 .f32) : FVec F S16 .f32 :=
  divf (broadcast S16 (Scalar.ofBits .f32 0x3F800000#32)) (addf (broadcast S16 (Scalar.ofBits .f32 0x3F800000#32))
    (exp (subf (broadcast S16 (Scalar.ofBits .f32 0x00000000#32)) v)))

/-- What the score array may hold when the SparseCores start, entry by entry of the table's rows: the score block
    `k0_pay1` of SOME staged block of the transposed table that agrees with it on the columns inside the array (the last
    block's columns past the array's end are whatever the fetch left), the reshaped weights and the bias. -/
def ScoreOK (d : Dev nD) (f4 : Buf (Elt F) (xLoc d)) : Prop :=
  ∀ (t : Fin 25) (y : Fin 40960) (hj : t.val * 40960 + y.val < 1000000),
    ∃ blk : FVec F S64x40960 .f32,
      (∀ (k : Fin 64) (y' : Fin 40960) (hj' : t.val * 40960 + y'.val < 1000000),
        blk (ValueIdx.ix2 k y') = (m (a1Loc d) : FVec F S1000000x64 .f32) (ValueIdx.ix2 ⟨t.val * 40960 + y'.val, hj'⟩ k))
      ∧ (f4 : FVec F S1000000 .f32) (ValueIdx.ix1 ⟨t.val * 40960 + y.val, hj⟩)
          = k0_pay1 blk (shapeCast S64x1 (m (a2Loc d) : FVec F S1x64 .f32) Facts₀.shapeCasts_S1x64_S64x1)
              ((m (a3Loc d) : FVec F S1 .f32) (ValueIdx.ix1 0)) (ValueIdx.ix1 y)

/-- What a task leaves in its 512 result entries: group by group of sixteen, the rating of the scores gathered at the
    task's row numbers, for SOME admissible contents of the score array. -/
def TileOK (d : Dev nD) (w : Fin 32) (f5 : Buf (Elt F) (oLoc d)) : Prop :=
  ∃ f4 : Buf (Elt F) (xLoc d), ScoreOK m d f4 ∧
    ∀ (g : Fin 32) (l : Fin 16),
      (f5 : FVec F S16384 .f32) (ValueIdx.ix1 ⟨w.val * 512 + g.val * 16 + l.val, by omega⟩)
        = sigv (fun l' : S16.Idx => (f4 : FVec F S1000000 .f32)
            (ValueIdx.ix1 ⟨min ((idxV m d : IVec S16384 32) (ValueIdx.ix1 ⟨w.val * 512 + g.val * 16 + (l' 0).val, by have h : (l' 0).val < 16 := (l' 0).isLt; omega⟩)).toNat 999999, by omega⟩))
            (ValueIdx.ix1 l)

/-! ## What the handshakes carry -/

abbrev iPts (d : Dev nD) : sProp 𝕄 := iLoc d ↦{fullShare} idxV m d
abbrev oPts (d : Dev nD) (f : Buf (Elt F) (oLoc d)) : sProp 𝕄 := oLoc d ↦{fullShare} f
abbrev iRowPts (d : Dev nD) (w : Fin 32) : sProp 𝕄 := iLoc d ↦[iRowSet w]{fullShare} idxV m d
abbrev xShPts (d : Dev nD) (w : Fin 32) (f4 : Buf (Elt F) (xLoc d)) : sProp 𝕄 := xLoc d ↦{xq w} f4
abbrev oRowPts (d : Dev nD) (w : Fin 32) (f : Buf (Elt F) (oLoc d)) : sProp 𝕄 := oLoc d ↦[oRowSet w]{fullShare} f

/-- What one task is handed, `goOf`, and hands back, `tdOf`. `f5` is what the result array held before the call. -/
def goOf (d : Dev nD) (f5 : Buf (Elt F) (oLoc d)) (w : Fin 32) : sProp 𝕄 :=
  iprop(iRowPts m d w ∗ (∃ f4, xShPts d w f4 ∗ ⌜ScoreOK m d f4⌝) ∗ oRowPts d w f5)
def tdOf (d : Dev nD) (w : Fin 32) : sProp 𝕄 :=
  iprop(iRowPts m d w ∗ ∃ f, oRowPts d w f ∗ ⌜TileOK m d w f⌝)

/-- The one call: each SparseCore takes and brings back its sixteen tasks' parts. The result array's contents before
    the call are the launch memory's (nothing writes it earlier). -/
def P : (K (F := F)).Pay (nD := nD) (Val := Elt F) (Name := ℕ) (U := UU) where
  st := fun q d c => match q with | 0 => bigSep Finset.univ fun i : Fin 16 => goOf m d (m (oLoc d)) (wid (Fin.cast nCore_zero c) i)
  dn := fun q d c => match q with | 0 => bigSep Finset.univ fun i : Fin 16 => tdOf m d (wid (Fin.cast nCore_zero c) i)
  go := fun q d c i => match q with | 0 => goOf m d (m (oLoc d)) (wid (Fin.cast nCore_zero c) (Fin.cast nSub_zero i))
  td := fun q d c i => match q with | 0 => tdOf m d (wid (Fin.cast nCore_zero c) (Fin.cast nSub_zero i))
  x := fun _ _ => iprop(emp)

/-- What the proof asks of the launch memory: every item number is between 1 and 1000000 (the certificate's
    precondition says so), so every row number the SparseCores read names a row of the score array. -/
def PreOK : Prop := ∀ (d : Dev nD) (j : S16384.Idx), 1 ≤ ((m (a0Loc d) : IVec S16384 32) j).toNat ∧ ((m (a0Loc d) : IVec S16384 32) j).toNat ≤ 1000000

end Cert.KernelIdeal.Hand

end
-- ==== Proof.LibTakeSegment.lean ====
/-
  GATHER OF ROWS AND SEGMENT SUM, READ AT AN INDEX.

  Taking the rows of an array at integer positions, `x[idx]`, is a `stablehlo.gather` whose start indices form an
  `[M, 1]` array: result row `e` is the operand's row at the start index `idx[e, 0]`, read as a signed integer and
  clamped into `[0, N − 1]`. Summing rows by segment is a `stablehlo.scatter` with an addition body over the same
  `[M, 1]` array of indices: operand row `i` receives the sum of the update rows `e` whose index `idx[e, 0]`, read
  signed and NOT clamped, equals `i`; an update whose index falls outside `[0, N)` lands nowhere.

  This file states both for a rank-1 operand (a vector of `N` entries) and for a rank-2 operand (`N` rows of `D`
  entries), for every `N`, `M`, `D` and every index width. The dimension numbers are records built from a proof of
  their side conditions, so that a program's literal record is definitionally the record here at that program's proof.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.TakeSegment

open Idealize.ShloMosaic
open Idealize.ShloMosaic.ValueIdx

/-! ## `stablehlo.gather` at an `[M, 1]` array of start indices -/

section Gather
variable {α : Type}

/-- The dimension numbers of `x[idx]` for a vector `x : [N]` and start indices `[M, 1]`: the one operand axis is
    collapsed and indexed by the start index, the result `[M]` has no offset axis. -/
abbrev vecTakeDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at `e`: the operand at the start index `idx[e, 0]`, read signed and clamped into
    `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecTakeDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecTakeDims N M wf).start (ix1 e) idx 0 + (vecTakeDims N M wf).batchCoord (ix1 e) 0
      + (vecTakeDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N M wf).startIndexMap from List.mem_singleton.mpr rfl)]
  have hsi : (vecTakeDims N M wf).siIdx (ix1 e) ⟨List.idxOf (0 : Fin 1) (vecTakeDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix `x : [N, D]` and start indices `[M, 1]`: the row axis is collapsed
    and indexed by the start index, the column axis is the result's one offset axis, taken whole. -/
abbrev rowTakeDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The gather of rows read at `(e, q)`: entry `q` of the operand's row at the start index `idx[e, 0]`, read signed
    and clamped into `[0, N − 1]`. -/
theorem gather_rows_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowTakeDims N M D wf) x idx (ix2 e q)
      = x (ix2 ⟨min (idx (ix2 e (0 : Fin 1))).toInt.toNat (N - 1), by omega⟩ q) := by
  unfold Host.gather
  congr 1
  funext a
  refine Fin.ext ?_
  show (rowTakeDims N M D wf).start (ix2 e q) idx a + (rowTakeDims N M D wf).batchCoord (ix2 e q) a
      + (rowTakeDims N M D wf).offCoord (ix2 e q) a = _
  rw [GatherDims.batchCoord_eq_zero _ _ _ List.not_mem_nil]
  match a with
  | ⟨0, _⟩ =>
    show (rowTakeDims N M D wf).start (ix2 e q) idx (0 : Fin 2) + 0
      + (rowTakeDims N M D wf).offCoord (ix2 e q) (0 : Fin 2) = _
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowTakeDims N M D wf).startIndexMap from List.mem_singleton.mpr rfl)]
    have hsi : (rowTakeDims N M D wf).siIdx (ix2 e q) ⟨List.idxOf (0 : Fin 2) (rowTakeDims N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hs : (rowTakeDims N M D wf).start (ix2 e q) idx (1 : Fin 2) = 0 := by
      unfold GatherDims.start
      rw [dif_neg (show (1 : Fin 2) ∉ (rowTakeDims N M D wf).startIndexMap from
        fun h => absurd (List.mem_singleton.mp h) (show (1 : Fin 2) ≠ 0 by decide))]
    show (rowTakeDims N M D wf).start (ix2 e q) idx (1 : Fin 2) + 0
      + (rowTakeDims N M D wf).offCoord (ix2 e q) (1 : Fin 2) = _
    rw [hs]
    simp only [Nat.add_zero, Nat.zero_add]
    rfl

end Gather

/-! ## The operand index an update of a scatter lands on -/

section ResultIdx

/-- An update lands on operand index `i` exactly when, on every operand axis, its start index plus its window
    coordinate is `i`'s coordinate: the sum is then in range on every axis, and is `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      subst hf
      exact (Int.toNat_of_nonneg (h a).1).symm
    · intro hall
      funext a
      refine Fin.ext ?_
      show (d.start j idx a + (d.window j a : Int)).toNat = (i a).val
      rw [hall a]
      exact Int.toNat_natCast _
  · rename_i h
    constructor
    · intro hf
      exact absurd hf (by simp)
    · intro hall
      exfalso
      apply h
      intro a
      rw [hall a]
      exact ⟨Int.natCast_nonneg _, by exact_mod_cast (i a).isLt⟩

/-- An operand axis keeps a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {A : Type*} [AddCommMonoid A] {n : Nat} (f : (⟨1, ![n]⟩ : Shape).Idx → A) :
    ∑ j, f j = ∑ a : Fin n, f (ix1 a) := by
  rw [← Equiv.sum_comp (idxEquiv1 (n := n)).symm f]
  rfl

end ResultIdx

/-! ## `stablehlo.scatter` with an addition body at an `[M, 1]` array of indices: a vector operand -/

section VecSeg

/-- The dimension numbers of a segment sum into a vector `[N]` from updates `[M]` at indices `[M, 1]`: the one
    operand axis is inserted and indexed by the scatter index, the updates have no window axis. -/
abbrev vecSegDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section
variable {N M w : Nat} (wf : ScatterDims.WF ⟨1, ![N]⟩ ⟨2, ![M, 1]⟩ ⟨1, ![M]⟩ [] [0] [0] 1)
  (idx : IVec ⟨2, ![M, 1]⟩ w)

/-- Update `e` starts at its index `idx[e, 0]`, read signed. -/
theorem vecSeg_start (e : Fin M) :
    (vecSegDims N M wf).start (ix1 e) idx (0 : Fin 1) = (idx (ix2 e (0 : Fin 1))).toInt := by
  unfold ScatterDims.start
  rw [dif_pos (show (0 : Fin 1) ∈ (vecSegDims N M wf).scatterDimsToOperandDims from List.mem_singleton.mpr rfl)]
  have hsi : (vecSegDims N M wf).siIdx (ix1 e) ⟨List.idxOf (0 : Fin 1) (vecSegDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- It has no window coordinate: the one operand axis is inserted. -/
theorem vecSeg_window (e : Fin M) : (vecSegDims N M wf).window (ix1 e) (0 : Fin 1) = 0 := by
  unfold ScatterDims.window
  rw [dif_neg (fun h => ((mem_sKept _ _).mp h) (List.mem_singleton.mpr rfl))]

/-- Update `e` lands on operand entry `i` exactly when its index `idx[e, 0]`, read signed, is `i`. -/
theorem vecSeg_resultIdx?_iff (e : Fin M) (i : Fin N) :
    (vecSegDims N M wf).resultIdx? (ix1 e) idx = some (ix1 i)
      ↔ (idx (ix2 e (0 : Fin 1))).toInt = (i.val : Int) := by
  rw [resultIdx?_eq_some_iff]
  constructor
  · intro h
    have h0 := h (0 : Fin 1)
    rw [vecSeg_start, vecSeg_window] at h0
    simpa using h0
  · intro h a
    obtain rfl : a = 0 := Subsingleton.elim _ _
    rw [vecSeg_start, vecSeg_window]
    simp only [Nat.cast_zero, add_zero]
    exact h

end

/-- The segment sum into a vector read at `i`: the operand's entry plus the sum of the updates whose index
    `idx[e, 0]`, read signed, is `i`. An update whose index is negative or at least `N` is in no such sum. -/
theorem scatterAdd_vec_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (vecSegDims N M wf) x idx upd (ix1 i)
      = x (ix1 i) + ∑ e ∈ Finset.univ.filter (fun e : Fin M => (idx (ix2 e (0 : Fin 1))).toInt = (i.val : Int)),
          upd (ix1 e) := by
  unfold Ideal.hostScatterAdd
  congr 1
  rw [Finset.sum_filter, Finset.sum_filter, sum_idx1]
  refine Finset.sum_congr rfl fun e _ => ?_
  exact if_congr (vecSeg_resultIdx?_iff wf idx e i) rfl rfl

end VecSeg

/-! ## The same scatter with a matrix operand: rows of `D` entries -/

section RowSeg

/-- The dimension numbers of a segment sum into a matrix `[N, D]` from updates `[M, D]` at indices `[M, 1]`: the
    row axis is inserted and indexed by the scatter index, the updates' column axis is their one window axis and goes
    to the operand's column axis. -/
abbrev rowSegDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section
variable {N M D w : Nat} (wf : ScatterDims.WF ⟨2, ![N, D]⟩ ⟨2, ![M, 1]⟩ ⟨2, ![M, D]⟩ [1] [0] [0] 1)
  (idx : IVec ⟨2, ![M, 1]⟩ w)

/-- On the row axis update `(e, p)` starts at its index `idx[e, 0]`, read signed … -/
theorem rowSeg_start0 (e : Fin M) (p : Fin D) :
    (rowSegDims N M D wf).start (ix2 e p) idx (0 : Fin 2) = (idx (ix2 e (0 : Fin 1))).toInt := by
  unfold ScatterDims.start
  rw [dif_pos (show (0 : Fin 2) ∈ (rowSegDims N M D wf).scatterDimsToOperandDims from List.mem_singleton.mpr rfl)]
  have hsi : (rowSegDims N M D wf).siIdx (ix2 e p) ⟨List.idxOf (0 : Fin 2) (rowSegDims N M D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at `0`: the scatter index does not name that axis. -/
theorem rowSeg_start1 (e : Fin M) (p : Fin D) : (rowSegDims N M D wf).start (ix2 e p) idx (1 : Fin 2) = 0 := by
  unfold ScatterDims.start
  rw [dif_neg (fun h => absurd (List.mem_singleton.mp h) (show (1 : Fin 2) ≠ 0 by decide))]

/-- It has no window coordinate on the row axis, which is inserted … -/
theorem rowSeg_window0 (e : Fin M) (p : Fin D) : (rowSegDims N M D wf).window (ix2 e p) (0 : Fin 2) = 0 := by
  unfold ScatterDims.window
  rw [dif_neg (fun h => ((mem_sKept _ _).mp h) (List.mem_singleton.mpr rfl))]

/-- … and its own column `p` on the column axis. -/
theorem rowSeg_window1 (e : Fin M) (p : Fin D) : (rowSegDims N M D wf).window (ix2 e p) (1 : Fin 2) = p.val := by
  unfold ScatterDims.window
  rw [dif_pos ((mem_sKept _ _).mpr
    (fun h => absurd (List.mem_singleton.mp h) (show (1 : Fin 2) ≠ 0 by decide)))]
  rfl

/-- Update `(e, p)` lands on operand entry `(i, q)` exactly when its index `idx[e, 0]`, read signed, is `i` and its
    column is `q`. -/
theorem rowSeg_resultIdx?_iff (e : Fin M) (p : Fin D) (i : Fin N) (q : Fin D) :
    (rowSegDims N M D wf).resultIdx? (ix2 e p) idx = some (ix2 i q)
      ↔ (idx (ix2 e (0 : Fin 1))).toInt = (i.val : Int) ∧ p = q := by
  rw [resultIdx?_eq_some_iff]
  constructor
  · intro h
    have h0 : (rowSegDims N M D wf).start (ix2 e p) idx (0 : Fin 2)
        + (((rowSegDims N M D wf).window (ix2 e p) (0 : Fin 2) : Nat) : Int) = (i.val : Int) := h (0 : Fin 2)
    have h1 : (rowSegDims N M D wf).start (ix2 e p) idx (1 : Fin 2)
        + (((rowSegDims N M D wf).window (ix2 e p) (1 : Fin 2) : Nat) : Int) = (q.val : Int) := h (1 : Fin 2)
    rw [rowSeg_start0, rowSeg_window0] at h0
    rw [rowSeg_start1, rowSeg_window1] at h1
    simp only [Nat.cast_zero, add_zero] at h0
    simp only [zero_add] at h1
    exact ⟨h0, Fin.ext (by exact_mod_cast h1)⟩
  · rintro ⟨h0, rfl⟩ a
    match a with
    | ⟨0, _⟩ =>
      show (rowSegDims N M D wf).start (ix2 e p) idx (0 : Fin 2)
        + (((rowSegDims N M D wf).window (ix2 e p) (0 : Fin 2) : Nat) : Int) = (i.val : Int)
      rw [rowSeg_start0, rowSeg_window0]
      simp only [Nat.cast_zero, add_zero]
      exact h0
    | ⟨1, _⟩ =>
      show (rowSegDims N M D wf).start (ix2 e p) idx (1 : Fin 2)
        + (((rowSegDims N M D wf).window (ix2 e p) (1 : Fin 2) : Nat) : Int) = (p.val : Int)
      rw [rowSeg_start1, rowSeg_window1]
      simp only [zero_add]

end

/-- The segment sum into a matrix read at `(i, q)`: the operand's entry plus the sum, over the update rows `e` whose
    index `idx[e, 0]`, read signed, is `i`, of their entry `q`. A row whose index is negative or at least `N` is in
    no such sum. -/
theorem scatterAdd_rows_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : Fin N) (q : Fin D) :
    Ideal.hostScatterAdd (rowSegDims N M D wf) x idx upd (ix2 i q)
      = x (ix2 i q) + ∑ e ∈ Finset.univ.filter (fun e : Fin M => (idx (ix2 e (0 : Fin 1))).toInt = (i.val : Int)),
          upd (ix2 e q) := by
  unfold Ideal.hostScatterAdd
  congr 1
  rw [Finset.sum_filter, Finset.sum_filter, sum_idx2]
  refine Finset.sum_congr rfl fun e _ => ?_
  refine (Finset.sum_congr rfl fun b _ => if_congr (rowSeg_resultIdx?_iff wf idx e b i q) rfl rfl).trans ?_
  by_cases hP : (idx (ix2 e (0 : Fin 1))).toInt = (i.val : Int)
  · simp [hP]
  · simp [hP]

end RowSeg

/-! ## The records fit a program's printed ones

A program prints its dimension numbers as a record of literal lists over literal shapes whose last field is the proof
of the side conditions; each record above, at those sizes and that proof, is that record by definition. -/

section Fit

example (wf : GatherDims.WF ⟨1, ![100000]⟩ ⟨2, ![1700000, 1]⟩ ⟨1, ![1700000]⟩ [] [0] [] [0] [] 1 ![1]) :
    ({ offsetDims := [], collapsedSliceDims := [0], operandBatchingDims := [], startIndicesBatchingDims := [],
       startIndexMap := [0], indexVectorDim := 1, sliceSizes := ![1], wf := wf } :
      GatherDims ⟨1, ![100000]⟩ ⟨2, ![1700000, 1]⟩ ⟨1, ![1700000]⟩) = vecTakeDims 100000 1700000 wf := rfl

example (wf : GatherDims.WF ⟨2, ![100000, 128]⟩ ⟨2, ![1700000, 1]⟩ ⟨2, ![1700000, 128]⟩ [1] [0] [] [0] [] 1 ![1, 128]) :
    ({ offsetDims := [1], collapsedSliceDims := [0], operandBatchingDims := [], startIndicesBatchingDims := [],
       startIndexMap := [0], indexVectorDim := 1, sliceSizes := ![1, 128], wf := wf } :
      GatherDims ⟨2, ![100000, 128]⟩ ⟨2, ![1700000, 1]⟩ ⟨2, ![1700000, 128]⟩) = rowTakeDims 100000 1700000 128 wf := rfl

example (wf : ScatterDims.WF ⟨1, ![100000]⟩ ⟨2, ![1700000, 1]⟩ ⟨1, ![1700000]⟩ [] [0] [0] 1) :
    ({ updateWindowDims := [], insertedWindowDims := [0], scatterDimsToOperandDims := [0], indexVectorDim := 1,
       wf := wf } : ScatterDims ⟨1, ![100000]⟩ ⟨2, ![1700000, 1]⟩ ⟨1, ![1700000]⟩) = vecSegDims 100000 1700000 wf := rfl

example (wf : ScatterDims.WF ⟨2, ![100000, 128]⟩ ⟨2, ![1600000, 1]⟩ ⟨2, ![1600000, 128]⟩ [1] [0] [0] 1) :
    ({ updateWindowDims := [1], insertedWindowDims := [0], scatterDimsToOperandDims := [0], indexVectorDim := 1,
       wf := wf } : ScatterDims ⟨2, ![100000, 128]⟩ ⟨2, ![1600000, 1]⟩ ⟨2, ![1600000, 128]⟩)
      = rowSegDims 100000 1600000 128 wf := rfl

example (wf) : (vecTakeDims 100000 1700000 wf).startIndexMap = [0] := rfl
example (wf) : (vecTakeDims 100000 1700000 wf).sliceSizes = ![1] := rfl
example (wf) : (rowTakeDims 100000 1700000 128 wf).offsetDims = [1] := rfl
example (wf) : (rowTakeDims 100000 1700000 128 wf).sliceSizes = ![1, 128] := rfl
example (wf) : (vecSegDims 100000 1600000 wf).insertedWindowDims = [0] := rfl
example (wf) : (rowSegDims 100000 1600000 128 wf).updateWindowDims = [1] := rfl

end Fit

end Idealize.ShloMosaic.TakeSegment

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«202434_g11450382811589_week1_w4_549_31_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.Val.lean ====
/-
  The values. With every item number n between 1 and 1000000, the kernel and the reference both give, at each
  position, 1 / (1 + exp (-(Σ_{k<64} table(n-1, k) · w(0, k) + b(0)))) on the extended reals.

  Kernel side: an entry of the score array is the lane sum, over the 64 sublanes, of a staged block of the transposed
  table times the broadcast weights, plus the bias; at the ideal values a lane sum at a column reads only that column,
  so the entry is the row's score. A task's result entry is the rating of the score gathered at the item number less
  one; the clamp by 999999 is the identity in range.
  Reference side: the item number less one is nonnegative and below 1000000, so the wrap of negative numbers is the
  identity, the in-range mask is all ones and the select takes the gathered row; the product with the transposed
  weight row is the same sum; the bias is broadcast twice; negation is 0 - x.
-/
import proofs.«202434_g11450382811589_week1_w4_549_31_alg».proof.Proof.KI.Setup
import proofs.«202434_g11450382811589_week1_w4_549_31_alg».proof.Proof.RefRun
import proofs.«202434_g11450382811589_week1_w4_549_31_alg».proof.Proof.Gen.Pre_input_domain
import proofs.«202434_g11450382811589_week1_w4_549_31_alg».proof.Proof.LibTakeSegment
import proofs.«202434_g11450382811589_week1_w4_549_31_alg».proof.Proof.LibRowsCols
import Idealize.ShloMosaic.Lib.ValueLayout
import Idealize.ShloMosaic.Lib.Pipeline.Value
import Idealize.ShloMosaic.PureOps.Ideal.Laws

noncomputable section

open scoped BigOperators

namespace Cert.Proof.Val

open Cert.KernelIdeal Cert.KernelIdeal.Gen Cert.KernelIdeal.Hand
open Idealize.ShloMosaic Idealize.ShloMosaic.ValueIdx

/-! ## The two formulas -/

/-- The score of table row `n`: the row times the weight row, plus the bias. -/
def score (a1 : FVec Ideal S1000000x64 .f32) (a2 : FVec Ideal S1x64 .f32) (a3 : FVec Ideal S1 .f32) (n : Fin 1000000) : EReal :=
  (∑ k : Fin 64, a1 (ix2 n k) * a2 (ix2 (0 : Fin 1) k)) + a3 (ix1 (0 : Fin 1))

/-- The rating 1 / (1 + exp (-x)), the two ones as the programs spell them. -/
def rating (x : EReal) : EReal :=
  Ideal.div (Ideal.ofBits .f32 0x3F800000#32) (Ideal.ofBits .f32 0x3F800000#32 + Ideal.exp (-x))

/-! ## Words: an item number between 1 and 1000000, less one -/

theorem sub_one_toNat (v : BitVec 32) (h1 : 1 ≤ v.toNat) : (IntOp.subi v 1#32).toNat = v.toNat - 1 := by
  have := v.isLt
  simp only [IntOp.subi, BitVec.toNat_sub, BitVec.toNat_ofNat, Nat.reducePow, Nat.reduceMod]
  omega

/-- A word below 1000000 read signed is its unsigned value. -/
theorem toInt_of_small (u : BitVec 32) (h : u.toNat ≤ 999999) : u.toInt = (u.toNat : Int) := by
  rw [BitVec.toInt_eq_toNat_cond]
  simp only [Nat.reducePow]
  rw [if_pos (by omega)]

theorem slt_zero_of_small (u : BitVec 32) (h : u.toNat ≤ 999999) : IntOp.cmpi .slt u 0#32 = 0#1 := by
  have ht := toInt_of_small u h
  simp only [IntOp.cmpi, BitVec.slt_eq_decide, ht, BitVec.toInt_zero]
  have : ¬ ((u.toNat : Int) < 0) := by omega
  simp [this]

theorem sge_zero_of_small (u : BitVec 32) (h : u.toNat ≤ 999999) : IntOp.cmpi .sge u 0#32 = 1#1 := by
  have ht := toInt_of_small u h
  simp only [IntOp.cmpi, BitVec.sle_eq_decide, ht, BitVec.toInt_zero]
  have : (0 : Int) ≤ (u.toNat : Int) := by omega
  simp [this]

theorem sle_max_of_small (u : BitVec 32) (h : u.toNat ≤ 999999) : IntOp.cmpi .sle u 999999#32 = 1#1 := by
  have ht := toInt_of_small u h
  have h9 : (999999#32 : BitVec 32).toInt = 999999 := by decide
  simp only [IntOp.cmpi, BitVec.sle_eq_decide, ht, h9]
  have : (u.toNat : Int) ≤ 999999 := by omega
  simp [this]

/-- A fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-! ## The kernel's side -/

/-- The source index of the lane sum at column `y`, sublane `k`. -/
theorem lift_col (h : S64x40960.Reduces [0] S40960) (y : Fin 40960) (k : Fin 64) : h.lift (ix1 y) k = ix2 k y := by
  funext c
  refine Fin.ext ?_
  match c with
  | ⟨0, _⟩ => rfl
  | ⟨1, _⟩ => rfl

/-- The weights' column, a reshape of the weight row, read at sublane `k`. -/
theorem wcol_at (a2 : FVec Ideal S1x64 .f32) (h : S1x64.ShapeCasts S64x1) (k : Fin 64) :
    shapeCast S64x1 a2 h (ix2 k (0 : Fin 1)) = a2 (ix2 (0 : Fin 1) k) :=
  shapeCast_apply a2 h _ _ (by
    rw [Shape.rowMajor_val_two, Shape.rowMajor_val_two]
    show 0 * 64 + k.val = k.val * 1 + 0
    omega)

/-- The score block at column `y`: the sum over the sublanes of the staged block times the weights' column, plus the bias. -/
theorem k0_pay1_at (blk : FVec Ideal S64x40960 .f32) (w3 : FVec Ideal S64x1 .f32) (b0 : Ideal .f32) (y : Fin 40960) :
    k0_pay1 (F := Ideal) blk w3 b0 (ix1 y) = (∑ k : Fin 64, blk (ix2 k y) * w3 (ix2 k (0 : Fin 1))) + b0 := by
  unfold k0_pay1
  dsimp only
  refine congrArg (· + b0) ((Ideal.multiReduction_add_single _ _ _ _ _ (ix1 y)).trans ?_)
  refine Finset.sum_congr rfl fun (k : Fin 64) _ => ?_
  refine (congrArg (mulf _ _) (lift_col _ y k)).trans ?_
  rw [mulf_apply, shapeCast_self, shapeCast_self]
  refine congrArg (blk (ix2 k y) * ·) ?_
  refine broadcastTo_apply w3 _ (ix2 k y) (ix2 k (0 : Fin 1)) fun a => ?_
  match a with
  | ⟨0, _⟩ => rfl
  | ⟨1, _⟩ => rfl

/-- An entry of an admissible score array is its row's score. -/
theorem score_at (m : (ℓ : Loc nD τ sig) → Buf (Elt Ideal) ℓ) (d : Dev nD) (f4 : Buf (Elt Ideal) (xLoc d))
    (hs : ScoreOK m d f4) (n : Fin 1000000) :
    (f4 : FVec Ideal S1000000 .f32) (ix1 n) = score (m (a1Loc d)) (m (a2Loc d)) (m (a3Loc d)) n := by
  have hn := n.isLt
  have ht : n.val / 40960 < 25 := by omega
  have hy : n.val % 40960 < 40960 := Nat.mod_lt _ (by decide)
  have hj : (⟨n.val / 40960, ht⟩ : Fin 25).val * 40960 + (⟨n.val % 40960, hy⟩ : Fin 40960).val < 1000000 := by
    show n.val / 40960 * 40960 + n.val % 40960 < 1000000
    omega
  obtain ⟨blk, hblk, hf⟩ := hs ⟨n.val / 40960, ht⟩ ⟨n.val % 40960, hy⟩ hj
  have hix : (⟨(⟨n.val / 40960, ht⟩ : Fin 25).val * 40960 + (⟨n.val % 40960, hy⟩ : Fin 40960).val, hj⟩ : Fin 1000000) = n :=
    Fin.ext (by show n.val / 40960 * 40960 + n.val % 40960 = n.val; omega)
  rw [hix] at hf
  rw [hf, k0_pay1_at]
  unfold score
  refine congrArg (· + _) (Finset.sum_congr rfl fun k _ => ?_)
  rw [wcol_at]
  refine congrArg (· * _) ?_
  rw [hblk k ⟨n.val % 40960, hy⟩ hj]
  exact congrArg (fun i : Fin 1000000 => (m (a1Loc d) : FVec Ideal S1000000x64 .f32) (ix2 i k)) hix

/-- The sixteen-lane rating read at a lane. -/
theorem sigv_at (v : FVec Ideal S16 .f32) (l : Fin 16) : sigv (F := Ideal) v (ix1 l) = rating (v (ix1 l)) := by
  unfold sigv rating
  show Ideal.div _ (_ + Ideal.exp (Ideal.ofBits .f32 0x00000000#32 - v (ix1 l))) = _
  rw [Ideal.ofBits_zero_f32, sub_eq_add_neg, zero_add]
  rfl

/-- A task's result entry: the rating of the score of the row the item number names. -/
theorem tile_at (m : (ℓ : Loc nD τ sig) → Buf (Elt Ideal) ℓ) (hpre : PreOK m) (d : Dev nD) (w : Fin 32)
    (f5 : Buf (Elt Ideal) (oLoc d)) (h : TileOK m d w f5) (g : Fin 32) (l : Fin 16) (n : Fin 1000000)
    (hn : ((m (a0Loc d) : IVec S16384 32) (ix1 ⟨w.val * 512 + g.val * 16 + l.val, by omega⟩)).toNat - 1 = n.val) :
    (f5 : FVec Ideal S16384 .f32) (ix1 ⟨w.val * 512 + g.val * 16 + l.val, by omega⟩)
      = rating (score (m (a1Loc d)) (m (a2Loc d)) (m (a3Loc d)) n) := by
  obtain ⟨f4, hs, hv⟩ := h
  have hj := hpre d (ix1 ⟨w.val * 512 + g.val * 16 + l.val, by omega⟩)
  rw [hv g l, sigv_at]
  refine congrArg rating (Eq.trans ?_ (score_at m d f4 hs n))
  refine congrArg (fun r : Fin 1000000 => (f4 : FVec Ideal S1000000 .f32) (ix1 r)) (Fin.ext ?_)
  show min (IntOp.subi ((m (a0Loc d) : IVec S16384 32) (ix1 ⟨w.val * 512 + g.val * 16 + l.val, by omega⟩)) 1#32).toNat 999999 = n.val
  rw [sub_one_toNat _ hj.1]
  have := hj.2
  omega

/-! ## The reference's side -/

section Reference

open Cert.ReferenceIdeal.RefRun

/-- A number between 0 and 999999 is not wrapped. -/
theorem wrapped_at (i : IVec Cert.ReferenceIdeal.S16384 32) (hi : ∀ j, (i j).toNat ≤ 999999) (j : Cert.ReferenceIdeal.S16384.Idx) :
    wrapped i j = i j := by
  show Scalar.select (IntOp.cmpi .slt (i j) 0#32) (IntOp.addi (i j) 1000000#32) (i j) = i j
  rw [slt_zero_of_small _ (hi j)]
  exact select_zero _ _

/-- The column of index vectors at `(e, z)` is the number at `e`. -/
theorem idxCol_at (i : IVec Cert.ReferenceIdeal.S16384 32) (hi : ∀ j, (i j).toNat ≤ 999999) (e : Fin 16384) (z : Fin 1) :
    idxCol i (ix2 e z) = i (ix1 e) := by
  unfold idxCol
  refine (broadcastInDim_apply _ _ (wrapped i) (ix2 e z) (ix1 e) fun a => ?_).trans (wrapped_at i hi _)
  match a with
  | ⟨0, _⟩ => rfl

/-- Every number is in range: the mask is all ones. -/
theorem inRange_at (i : IVec Cert.ReferenceIdeal.S16384 32) (hi : ∀ j, (i j).toNat ≤ 999999) (j : Cert.ReferenceIdeal.S16384.Idx) :
    inRange i j = 1#1 := by
  unfold inRange
  refine (Host.reduce_eq_foldl _ _ _ _ _ _).trans ?_
  refine foldl_andi_one _ (fun j' => ?_) _
  obtain ⟨e, z, rfl⟩ : ∃ (e : Fin 16384) (z : Fin 1), j' = ix2 e z := ⟨j' 0, j' 1, eq_ix2 j'⟩
  show IntOp.andi (IntOp.cmpi .sge (idxCol i (ix2 e z)) 0#32) (IntOp.cmpi .sle (idxCol i (ix2 e z)) 999999#32) = 1#1
  rw [idxCol_at i hi e z, sge_zero_of_small _ (hi _), sle_max_of_small _ (hi _)]
  decide

/-- The looked-up row at `(e, k)` is the table's row the number names. -/
theorem rows_at (a1 : FVec Ideal Cert.ReferenceIdeal.S1000000x64 .f32) (i : IVec Cert.ReferenceIdeal.S16384 32)
    (hi : ∀ j, (i j).toNat ≤ 999999) (e : Fin 16384) (k : Fin 64) (n : Fin 1000000) (hn : (i (ix1 e)).toNat = n.val) :
    rows (F := Ideal) a1 i (ix2 e k) = a1 (ix2 n k) := by
  unfold rows
  rw [select_apply]
  have hc : broadcastInDim Cert.ReferenceIdeal.S16384x64 ![0] Cert.ReferenceIdeal.Facts₀.bcast_S16384_S16384x64_0 (inRange i) (ix2 e k) = 1#1 :=
    (broadcastInDim_apply _ _ (inRange i) (ix2 e k) (ix1 e) fun a => match a with | ⟨0, _⟩ => rfl).trans (inRange_at i hi _)
  rw [hc, select_one]
  refine (TakeSegment.gather_rows_apply (N := 1000000) (M := 16384) (D := 64) (by decide) _ a1 (idxCol i) e k).trans ?_
  refine congrArg (fun r : Fin 1000000 => a1 (ix2 r k)) (Fin.ext ?_)
  show min (idxCol i (ix2 e (0 : Fin 1))).toInt.toNat (1000000 - 1) = n.val
  rw [idxCol_at i hi e 0, toInt_of_small _ (hi _), Int.toNat_natCast, hn]
  have := n.isLt
  omega

/-- The rows times the weights plus the bias, at `(e, 0)`: the score of the row the number names. -/
theorem logits_at (a1 : FVec Ideal Cert.ReferenceIdeal.S1000000x64 .f32) (a2 : FVec Ideal Cert.ReferenceIdeal.S1x64 .f32)
    (a3 : FVec Ideal Cert.ReferenceIdeal.S1 .f32) (i : IVec Cert.ReferenceIdeal.S16384 32)
    (hi : ∀ j, (i j).toNat ≤ 999999) (e : Fin 16384) (n : Fin 1000000) (hn : (i (ix1 e)).toNat = n.val) :
    logits (F := Ideal) a1 a2 a3 i (ix2 e (0 : Fin 1)) = score a1 a2 a3 n := by
  unfold logits score
  rw [addf_apply]
  refine congrArg₂ (· + ·) ?_ ?_
  · refine (RowsCols.dotGeneral_apply (M := 16384) (K := 64) (N := 1) Cert.ReferenceIdeal.dot_S16384x64_S64x1_S16384x1_1_0_0_1_n_n
      rfl rfl rfl rfl (fun _ _ => rfl) (fun _ _ => rfl) none .single _ _ e 0).trans ?_
    refine Finset.sum_congr rfl fun k _ => ?_
    rw [rows_at a1 i hi e k n hn, transpose_ix2_apply]
  · refine (broadcastInDim_apply _ _ _ (ix2 e (0 : Fin 1)) (ix2 (0 : Fin 1) (0 : Fin 1)) fun a =>
      match a with | ⟨0, _⟩ => rfl | ⟨1, _⟩ => rfl).trans ?_
    exact broadcastInDim_apply _ _ a3 _ (ix1 (0 : Fin 1)) fun a => match a with | ⟨0, _⟩ => rfl

/-- One over one plus the exponential of the negation, entry by entry. -/
theorem squash_core (c x : FVec Ideal Cert.ReferenceIdeal.S16384x1 .f32) (j : Cert.ReferenceIdeal.S16384x1.Idx) :
    Host.divf c (addf c (Host.exp (Host.negf x))) j = Ideal.div (c j) (c j + Ideal.exp (-(x j))) := rfl

/-- The reference's result at position `e`. -/
theorem out_at (a0 : IVec Cert.ReferenceIdeal.S16384 32) (a1 : FVec Ideal Cert.ReferenceIdeal.S1000000x64 .f32)
    (a2 : FVec Ideal Cert.ReferenceIdeal.S1x64 .f32) (a3 : FVec Ideal Cert.ReferenceIdeal.S1 .f32)
    (ha : ∀ j, 1 ≤ (a0 j).toNat ∧ (a0 j).toNat ≤ 1000000) (e : Fin 16384) (n : Fin 1000000)
    (hn : (a0 (ix1 e)).toNat - 1 = n.val) :
    out (F := Ideal) a0 a1 a2 a3 (ix1 e) = rating (score a1 a2 a3 n) := by
  have hi : ∀ j, (idx0 a0 j).toNat ≤ 999999 := fun j => by
    show (IntOp.subi (a0 j) 1#32).toNat ≤ 999999
    rw [sub_one_toNat _ (ha j).1]
    have := (ha j).2
    omega
  have hn' : (idx0 a0 (ix1 e)).toNat = n.val := by
    show (IntOp.subi (a0 (ix1 e)) 1#32).toNat = n.val
    rw [sub_one_toNat _ (ha _).1]
    exact hn
  unfold out squash
  refine (shapeCast_apply _ _ (ix1 e) (ix2 e (0 : Fin 1)) (by
    rw [Shape.rowMajor_val_two, Shape.rowMajor_val_one]
    show e.val * 1 + 0 = e.val
    omega)).trans ?_
  refine (squash_core _ _ _).trans ?_
  rw [logits_at a1 a2 a3 _ hi e n hn']
  rfl

end Reference

/-! ## The two results are equal -/

/-- What the thirty-two tasks leave in the result array is the reference's result. -/
theorem result_eq (m : (ℓ : Loc Cert.KernelIdeal.nD Cert.KernelIdeal.τ Cert.KernelIdeal.sig) → Buf (Elt Ideal) ℓ)
    (hpre : Cert.KernelIdeal.Hand.PreOK m) (d : Dev Cert.KernelIdeal.nD) (f5 : Buf (Elt Ideal) (Cert.KernelIdeal.Hand.oLoc d))
    (h : ∀ w : Fin 32, Cert.KernelIdeal.Hand.TileOK m d w f5) :
    f5 = Cert.ReferenceIdeal.RefRun.out (F := Ideal) (m (a0Loc d)) (m (a1Loc d)) (m (a2Loc d)) (m (a3Loc d)) := by
  funext j
  obtain ⟨e, rfl⟩ : ∃ e : Fin 16384, j = ix1 e := ⟨j 0, eq_ix1 j⟩
  have he := e.isLt
  have hw : e.val / 512 < 32 := by omega
  have hg : e.val % 512 / 16 < 32 := by omega
  have hl : e.val % 16 < 16 := by omega
  have hpos : (⟨(⟨e.val / 512, hw⟩ : Fin 32).val * 512 + (⟨e.val % 512 / 16, hg⟩ : Fin 32).val * 16 + (⟨e.val % 16, hl⟩ : Fin 16).val,
      by show e.val / 512 * 512 + e.val % 512 / 16 * 16 + e.val % 16 < 16384; omega⟩ : Fin 16384) = e :=
    Fin.ext (by show e.val / 512 * 512 + e.val % 512 / 16 * 16 + e.val % 16 = e.val; omega)
  have ha := hpre d (ix1 e)
  have key := tile_at m hpre d ⟨e.val / 512, hw⟩ f5 (h _) ⟨e.val % 512 / 16, hg⟩ ⟨e.val % 16, hl⟩
    ⟨((m (a0Loc d) : IVec S16384 32) (ix1 e)).toNat - 1, by omega⟩ (by rw [hpos])
  rw [hpos] at key
  exact key.trans (out_at _ _ _ _ (hpre d) e _ rfl).symm

end Cert.Proof.Val

end
-- ==== Proof.KI.Host.lean ====
/-
  @main on the TensorCore, first stretch: the five host operations before the kernels — the constant one, its
  spread over the 16384 positions, the item numbers less one, the table transposed, the weight row as a column —
  as steps over the eleven arrays of the device held whole, and what each array holds after them.
-/
import proofs.«202434_g11450382811589_week1_w4_549_31_alg».proof.Proof.KI.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within after after_cons after_nil)

variable {F : FTy → Type}

local notation "𝕄" => MT nD τ sig (HIx 1) (Elt F) ℕ UU ℕ

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev c' : DevRef τ sig := Proc.devRef .tc (main_c : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

variable [FloatOps F]

abbrev opC : HloOp τ sig (Elt F) := StableHlo.nullary main_c (constantI S_ 32 1#32)
abbrev opB : HloOp τ sig (Elt F) := StableHlo.unary main_c main_v0 (broadcastInDim S16384 ![] Facts₀.bcast_S_S16384 : (⟨S_, .i32⟩ : BufTy).Contents (Elt F) → (⟨S16384, .i32⟩ : BufTy).Contents (Elt F))
abbrev opS : HloOp τ sig (Elt F) := StableHlo.binary main_arg0 main_v0 main_v1 (subi : (⟨S16384, .i32⟩ : BufTy).Contents (Elt F) → (⟨S16384, .i32⟩ : BufTy).Contents (Elt F) → (⟨S16384, .i32⟩ : BufTy).Contents (Elt F))
abbrev opT : HloOp τ sig (Elt F) := StableHlo.unary main_arg1 main_v2 ((transpose S64x1000000 [1, 0] · Facts₀.transposes_S1000000x64_S64x1000000_1_0) : (⟨S1000000x64, .f32⟩ : BufTy).Contents (Elt F) → (⟨S64x1000000, .f32⟩ : BufTy).Contents (Elt F))
abbrev opR : HloOp τ sig (Elt F) := StableHlo.reshape main_arg2 main_v3 rfl Facts₀.shapeCasts_S1x64_S64x1

/-- The device's eleven arrays, all unscoped. -/
abbrev S11 : Finset (DevRef τ sig) := {a0', a1', a2', a3', c', v0', v1', v2', v3', v4', v5'}

omit [FloatOps F] in
theorem held_S11 (d : Dev nD) (W : Valuation τ sig (Elt F)) :
    (held (T d) S11 W : sProp 𝕄)
      = iprop((a0Loc d ↦{fullShare} W a0') ∗ (a1Loc d ↦{fullShare} W a1') ∗ (a2Loc d ↦{fullShare} W a2') ∗ (a3Loc d ↦{fullShare} W a3')
          ∗ ((SparseCore.T d).loc main_c ↦{fullShare} W c') ∗ ((SparseCore.T d).loc main_v0 ↦{fullShare} W v0')
          ∗ (iLoc d ↦{fullShare} W v1') ∗ ((SparseCore.T d).loc main_v2 ↦{fullShare} W v2') ∗ ((SparseCore.T d).loc main_v3 ↦{fullShare} W v3')
          ∗ (xLoc d ↦{fullShare} W v4') ∗ (oLoc d ↦{fullShare} W v5')) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ (a3Loc d ↦{fullShare} W main_arg3)
          ∗ ((SparseCore.T d).loc main_c ↦{fullShare} W main_c) ∗ ((SparseCore.T d).loc main_v0 ↦{fullShare} W main_v0)
          ∗ (iLoc d ↦{fullShare} W main_v1) ∗ ((SparseCore.T d).loc main_v2 ↦{fullShare} W main_v2) ∗ ((SparseCore.T d).loc main_v3 ↦{fullShare} W main_v3)
          ∗ (xLoc d ↦{fullShare} W main_v4) ∗ (oLoc d ↦{fullShare} W main_v5)) := by
  unfold unscopedBufs
  rw [show (Finset.univ.filter fun b : Ref sig .tc => ¬ b.isScoped) = {main_arg0, main_arg1, main_arg2, main_arg3, main_c, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (m : (ℓ : Loc nD τ sig) → Buf (Elt F) ℓ)

/-- The launch valuation, and the valuation after the five operations. -/
def V0 (d : Dev nD) : Valuation τ sig (Elt F) := fun b => m (d, b)
def Vh (d : Dev nD) : Valuation τ sig (Elt F) :=
  (opR (F := F)).result ((opT (F := F)).result ((opS (F := F)).result ((opB (F := F)).result ((opC (F := F)).result (V0 m d)))))

theorem unscoped_held (d : Dev nD) : (unscopedBufs d (fun b => m ((SparseCore.T d).loc b)) : sProp 𝕄) = held (T d) S11 (V0 m d) := by
  rw [unscopedBufs_eq, held_S11]; rfl

theorem Vh_after (d : Dev nD) : Vh m d = after [opC (F := F), opB, opS, opT, opR] (V0 m d) := by
  simp only [after_cons, after_nil]; rfl

theorem Vh_a0 (d : Dev nD) : Vh m d a0' = m (a0Loc d) := by rw [Vh_after]; after_results; rfl
theorem Vh_a1 (d : Dev nD) : Vh m d a1' = m (a1Loc d) := by rw [Vh_after]; after_results; rfl
theorem Vh_a2 (d : Dev nD) : Vh m d a2' = m (a2Loc d) := by rw [Vh_after]; after_results; rfl
theorem Vh_a3 (d : Dev nD) : Vh m d a3' = m (a3Loc d) := by rw [Vh_after]; after_results; rfl
theorem Vh_v4 (d : Dev nD) : Vh m d v4' = m (xLoc d) := by rw [Vh_after]; after_results; rfl
theorem Vh_v5 (d : Dev nD) : Vh m d v5' = m (oLoc d) := by rw [Vh_after]; after_results; rfl
theorem Vh_v1 (d : Dev nD) : Vh m d v1' = idxV m d := by rw [Vh_after]; after_results; rfl
theorem Vh_v2 (d : Dev nD) :
    Vh m d v2' = (transpose S64x1000000 [1, 0] (m (a1Loc d) : FVec F S1000000x64 .f32) Facts₀.transposes_S1000000x64_S64x1000000_1_0 : FVec F S64x1000000 .f32) := by
  rw [Vh_after]; after_results; rfl
theorem Vh_v3 (d : Dev nD) :
    Vh m d v3' = (shapeCast S64x1 (m (a2Loc d) : FVec F S1x64 .f32) Facts₀.shapeCasts_S1x64_S64x1 : FVec F S64x1 .f32) := by
  rw [Vh_after]; after_results; rfl

theorem hC : (opC (F := F)).bufs ⊆ S11 := show ({c'} : Finset (DevRef τ sig)) ⊆ S11 by decide
theorem hB : (opB (F := F)).bufs ⊆ S11 := show ({c', v0'} : Finset (DevRef τ sig)) ⊆ S11 by decide
theorem hS : (opS (F := F)).bufs ⊆ S11 := show ({a0', v0', v1'} : Finset (DevRef τ sig)) ⊆ S11 by decide
theorem hT : (opT (F := F)).bufs ⊆ S11 := show ({a1', v2'} : Finset (DevRef τ sig)) ⊆ S11 by decide
theorem hR : (opR (F := F)).bufs ⊆ S11 := show ({a2', v3'} : Finset (DevRef τ sig)) ⊆ S11 by decide

end Cert.KernelIdeal.Hand

end
-- ==== Proof.KI.Iface.lean ====
/-
  The TensorCore pipeline's step inside @main, as the rest of the proof sees it: what the step is entered with and
  what it leaves — the transposed table, the weight column and the bias untouched, the score array at SOME contents
  admissible for the launch memory (`ScoreOK`), and what the TensorCore owes unchanged, its waits in between recorded
  at the kernels' own index.
-/
import proofs.«202434_g11450382811589_week1_w4_549_31_alg».proof.Proof.KI.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

abbrev tLoc (d : Dev nD) : Loc nD τ sig := (SparseCore.T d).loc main_v2
abbrev wLoc (d : Dev nD) : Loc nD τ sig := (SparseCore.T d).loc main_v3

/-- The table transposed and the weight row as a column, as @main's host operations leave them. -/
def tblT (d : Dev nD) : Buf (Elt F) (tLoc d) :=
  (transpose S64x1000000 [1, 0] (m (a1Loc d) : FVec F S1000000x64 .f32) Facts₀.transposes_S1000000x64_S64x1000000_1_0 : FVec F S64x1000000 .f32)
def wCol (d : Dev nD) : Buf (Elt F) (wLoc d) :=
  (shapeCast S64x1 (m (a2Loc d) : FVec F S1x64 .f32) Facts₀.shapeCasts_S1x64_S64x1 : FVec F S64x1 .f32)

/-- What the pipeline's step is entered with: its four arrays whole, and what the TensorCore owes. -/
def regionPre (d : Dev nD) (O : CellTallies nD τ sig (HIx 1)) (W : Waits sig (HIx 1)) : sProp 𝕄 :=
  iprop((tLoc d ↦{fullShare} tblT m d) ∗ (wLoc d ↦{fullShare} wCol m d) ∗ (a3Loc d ↦{fullShare} m (a3Loc d))
    ∗ (xLoc d ↦{fullShare} m (xLoc d)) ∗ owes (T d) O W)

/-- What it leaves: the three inputs as they were, the score array at admissible contents, the same tallies owed. -/
def regionPost (d : Dev nD) (O : CellTallies nD τ sig (HIx 1)) (W : Waits sig (HIx 1)) : sProp 𝕄 :=
  iprop((tLoc d ↦{fullShare} tblT m d) ∗ (wLoc d ↦{fullShare} wCol m d) ∗ (a3Loc d ↦{fullShare} m (a3Loc d))
    ∗ (∃ f4 : Buf (Elt F) (xLoc d), (xLoc d ↦{fullShare} f4) ∗ ⌜ScoreOK m d f4⌝)
    ∗ ∃ W' : Waits sig (HIx 1), ⌜∀ p ∈ W', p ∈ W ∨ p.2 = none⌝ ∗ owes (T d) O W')

end Cert.KernelIdeal.Hand

end
-- ==== Proof.KI.Main.lean ====
/-
  @main on the TensorCore: the five host operations, the pipeline's step (taken from its rule, a hypothesis here), the one
  SparseCore call, and what @main leaves the claim: the four arguments as launched and the result array at contents each
  of whose thirty-two blocks is what a task leaves (`TileOK`).
-/
import proofs.«202434_g11450382811589_week1_w4_549_31_alg».proof.Proof.KI.Host
import proofs.«202434_g11450382811589_week1_w4_549_31_alg».proof.Proof.KI.Iface

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- What @main leaves the claim. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ ∃ f5 : Buf (Elt F) (oLoc d), oPts d f5 ∗ ⌜∀ w : Fin 32, TileOK m d w f5⌝)

/-- The pipeline's step as a rule inside @main, over what it is entered with and leaves. -/
def RegionRule (GG : Dev nD → sProp 𝕄) : Prop :=
  ∀ (d : Dev nD) (O : CellTallies nD τ sig (HIx 1)) (_ : ∀ g, O g none = 0) (W : Waits sig (HIx 1)) (Q : PUnit → sProp 𝕄),
    iprop((iprop(boundary (T d) ∗ regionPost m d O W) -∗ wp frame (wpE (D (F := F)) 𝒱 (T d) none) Set.univ (.ret ⟨⟩) Q)
        ∗ boundary (T d) ∗ regionPre m d O W ∗ levAts (K (F := F)).L (K (F := F)).lev ∗ GG d)
      ⊢ wp frame (wpE (D (F := F)) 𝒱 (T d) none) Set.univ (.op (.customCall (Pipeline.entry 0) ()) fun _ => .ret ⟨⟩) Q

/-- The call's operands dealt to the two SparseCores, and their results gathered. -/
def StIntro : Prop := ∀ (d : Dev nD) (f4 : Buf (Elt F) (xLoc d)), ScoreOK m d f4 →
  iprop(iPts m d ∗ (xLoc d ↦{fullShare} f4) ∗ oPts d (m (oLoc d))) ⊢ (bigSep Finset.univ fun c : Fin ((K (F := F)).nCore 0) => (P m).st 0 d c : sProp 𝕄)
def DnElim : Prop := ∀ (d : Dev nD),
  (bigSep Finset.univ fun c : Fin ((K (F := F)).nCore 0) => (P m).dn 0 d c : sProp 𝕄) ⊢ iprop(iPts m d ∗ ∃ f5, oPts d f5 ∗ ⌜∀ w : Fin 32, TileOK m d w f5⌝)

omit [FloatOps F] in
/-- Before the call the TensorCore owes nothing at the kernels' own index. -/
theorem Otc_none (d : Dev nD) (g : GSem nD τ sig) : (K (F := F)).Otc d 0 g none = 0 := by
  unfold SparseCore.Cfg.Otc
  simp [tallyAt, Finset.sum_apply]
  constructor <;>
  · by_contra hne
    exact Option.some_ne_none _ (Pipeline.tallyAt_pos (Nat.pos_of_ne_zero hne)).2.symm

/-- The arrays after the five host operations, one by one. -/
theorem held_Vh (d : Dev nD) :
    (held (T d) S11 ((opR (F := F)).result ((opT (F := F)).result ((opS (F := F)).result ((opB (F := F)).result ((opC (F := F)).result (V0 m d)))))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_c ↦{fullShare} Vh m d c') ∗ ((SparseCore.T d).loc main_v0 ↦{fullShare} Vh m d v0')
          ∗ (iPts m d) ∗ (tLoc d ↦{fullShare} tblT m d) ∗ (wLoc d ↦{fullShare} wCol m d)
          ∗ (xLoc d ↦{fullShare} m (xLoc d)) ∗ (oPts d (m (oLoc d)))) := by
  show held (SparseCore.T d) S11 (Vh m d) = _
  rw [held_S11, Vh_a0, Vh_a1, Vh_a2, Vh_a3, Vh_v1, Vh_v2, Vh_v3, Vh_v4, Vh_v5]
  rfl

/-- The TensorCore's state before call `n`, its tallies and recorded waits apart from the rest. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_open (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

theorem hmain (GG : Dev nD → sProp 𝕄) (hreg : RegionRule m GG) (hst : StIntro m) (hdn : DnElim m) (κ : GSem nD τ sig → ℕ) (d : Dev nD) :
    iprop((K (F := F)).ctx EH (P m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hgg⟩
  iapply (wp_hlo_within 𝒱 (SparseCore.T d) none Set.univ (op := opC) (S := S11) hC (V := V0 m d)) $$ [Hb Hheld]
  · isplitl [Hb] <;> iassumption
  iintro ⟨Hb, Hheld⟩
  rw [wp_ret]; imodintro
  iapply (wp_hlo_within 𝒱 (SparseCore.T d) none Set.univ (op := opB) (S := S11) hB (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opS) (S := S11) hS (V := (opB (F := F)).result ((opC (F := F)).result (V0 m d)))) $$ [Hb Hheld]
  · isplitl [Hb] <;> iassumption
  iintro ⟨Hb, Hheld⟩
  rw [wp_ret]; imodintro
  iapply (wp_hlo_within 𝒱 (SparseCore.T d) none Set.univ (op := opT) (S := S11) hT (V := (opS (F := F)).result ((opB (F := F)).result ((opC (F := F)).result (V0 m d))))) $$ [Hb Hheld]
  · isplitl [Hb] <;> iassumption
  iintro ⟨Hb, Hheld⟩
  rw [wp_ret]; imodintro
  iapply (wp_hlo_within 𝒱 (SparseCore.T d) none Set.univ (op := opR) (S := S11) hR (V := (opT (F := F)).result ((opS (F := F)).result ((opB (F := F)).result ((opC (F := F)).result (V0 m d)))))) $$ [Hb Hheld]
  · isplitl [Hb] <;> iassumption
  iintro ⟨Hb, Hheld⟩
  rw [wp_ret]; imodintro
  ihave Hh := (Entails.of_eq (held_Vh (F := F) m d)) $$ Hheld
  icases Hh with ⟨Ha0, Ha1, Ha2, Ha3, Hc, Hv0, Hi, Ht, Hw, Hx, Ho⟩
  -- what the TensorCore owes, out of its state
  ihave Hst' := (Entails.of_eq (tcSt_open (F := F) d 0)) $$ Hst
  icases Hst' with ⟨⟨%W, %hW, HO⟩, Hrest⟩
  ihave Hlev := (SparseCore.Cfg.ctx_levAts κ) $$ Hctx
  -- the pipeline's step, a program of the kernels' own table
  rw [show (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) from rfl]
  iapply ((K (F := F)).wp_liftProg (D (F := F)) 𝒱 (SparseCore.T d) Set.univ none _ _)
  iapply (hreg d ((K (F := F)).Otc d 0) (Otc_none d) W _)
  isplitr [Hb Ht Hw Ha3 Hx HO Hlev Hgg]
  swap
  · isplitl [Hb]; · iexact Hb
    isplitl [Ht Hw Ha3 Hx HO]
    · unfold regionPre
      isplitl [Ht]; · iexact Ht
      isplitl [Hw]; · iexact Hw
      isplitl [Ha3]; · iexact Ha3
      isplitl [Hx]; · iexact Hx
      iexact HO
    isplitl [Hlev]; · iexact Hlev
    iexact Hgg
  iintro ⟨Hb, Hpost⟩
  rw [wp_ret]; imodintro
  unfold regionPost
  icases Hpost with ⟨Ht, Hw, Ha3, ⟨%f4, Hx, %h4⟩, ⟨%W', %hW', HO⟩⟩
  -- the call: the row numbers, the score array and the result array to the two SparseCores and back
  iapply ((K (F := F)).wp_run (D (F := F)) 𝒱 (EH := EH) (P := P m) κ d 0) $$ [HO Hrest Hi Hx Ho Ha0 Ha1 Ha2 Ha3]
  isplitr; · iexact Hctx
  isplitl [HO Hrest]
  · iapply (Entails.of_eq (tcSt_open (F := F) d 0).symm)
    isplitl [HO]
    · iexists W'; isplitr
      · ipureintro
        intro p hp
        rcases hW' p hp with h | h
        · exact hW p h
        · rw [h]; exact Nat.zero_le _
      · iexact HO
    · iexact Hrest
  isplitl [Hi Hx Ho]
  · iapply (hst d f4 h4)
    isplitl [Hi]; · iexact Hi
    isplitl [Hx]; · iexact Hx
    iexact Ho
  iintro ⟨Hst, Hdn⟩
  ihave Hd := (hdn d) $$ Hdn
  icases Hd with ⟨Hi, %f5, Ho, %h5⟩
  imodintro
  isplitl [Hst]; · iexact Hst
  isplitl [Ha0]; · iexact Ha0
  isplitl [Ha1]; · iexact Ha1
  isplitl [Ha2]; · iexact Ha2
  isplitl [Ha3]; · iexact Ha3
  iexists f5
  isplitl [Ho]; · iexact Ho
  ipureintro; exact h5

end Cert.KernelIdeal.Hand

end
-- ==== Proof.KI.Run.lean ====
/-
  The kernel program's run: from any launch memory whose item numbers are in range and with every semaphore at zero,
  every weakly fair execution of the TensorCore, the two sequencers and the thirty-two vector subcores terminates,
  the four arguments end as launched, and every block of the result array ends at what its task leaves. The launch
  theorem's hypotheses that are proved elsewhere — the pipeline's step, the task, the split of the call's operands, the
  launch element — are taken as hypotheses here.
-/
import proofs.«202434_g11450382811589_week1_w4_549_31_alg».proof.Proof.KI.Main

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

instance goOf_storable (d : Dev nD) (f5 : Buf (Elt F) (oLoc d)) (w : Fin 32) : BI.Storable (upEmb : UEmb _ 𝕄) (goOf m d f5 w) := by
  unfold goOf; infer_instance
instance tdOf_storable (d : Dev nD) (w : Fin 32) : BI.Storable (upEmb : UEmb _ 𝕄) (tdOf m d w) := by
  unfold tdOf; infer_instance

instance P_storable : (P (F := F) m).IsStorable where
  st q d c := match q with
    | 0 => (inferInstance : BI.Storable (upEmb : UEmb _ 𝕄) (bigSep Finset.univ fun i : Fin 16 => goOf m d (m (oLoc d)) (wid (Fin.cast nCore_zero c) i)))
  dn q d c := match q with
    | 0 => (inferInstance : BI.Storable (upEmb : UEmb _ 𝕄) (bigSep Finset.univ fun i : Fin 16 => tdOf m d (wid (Fin.cast nCore_zero c) i)))
  go q d c i := match q with
    | 0 => (inferInstance : BI.Storable (upEmb : UEmb _ 𝕄) (goOf m d (m (oLoc d)) (wid (Fin.cast nCore_zero c) (Fin.cast nSub_zero i))))
  td q d c i := match q with
    | 0 => (inferInstance : BI.Storable (upEmb : UEmb _ 𝕄) (tdOf m d (wid (Fin.cast nCore_zero c) (Fin.cast nSub_zero i))))

/-- What the final memory is asked: the arguments as launched, every block of the result what its task leaves. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (a3Loc d) = m (a3Loc d) ∧ ∀ w : Fin 32, TileOK m d w (s'.mem.mem (oLoc d))

set_option maxRecDepth 16384 in
theorem hfin (d : Dev nD) (s' : Phys nD τ sig (Elt F)) : iprop(FIN m d ∗ SI s') ⊢ (⌜fq m d s'⌝ : sProp 𝕄) := by
  iintro ⟨⟨Ha0, Ha1, Ha2, Ha3, %f5, Ho, %h5⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (SI_pointsTo_agree (st := s') (ℓ := oLoc d) (I := Finset.univ) (q := fullShare) (f := f5)) $$ [HSI Ho]
  · isplitl [HSI] <;> iassumption
  icases H with %ho
  ipureintro
  have e5 : s'.mem.mem (oLoc d) = f5 := funext fun i => ho i (Finset.mem_univ i)
  exact ⟨funext fun i => h0 i (Finset.mem_univ i), funext fun i => h1 i (Finset.mem_univ i), funext fun i => h2 i (Finset.mem_univ i),
    funext fun i => h3 i (Finset.mem_univ i), e5 ▸ h5⟩

/-- The run's post. -/
def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c)
    ∧ r.2.mem (a3Loc c) = m (a3Loc c) ∧ ∀ w : Fin 32, TileOK m c w (r.2.mem (oLoc c))

theorem run_main [∀ e, Nonempty (Elt F e)] (GG : Dev nD → sProp 𝕄) (u₀ : UU)
    (hreg : RegionRule m GG) (hst : StIntro m) (hdn : DnElim m)
    (htile : (K (F := F)).TileObl (D (F := F)) 𝒱 (P m) v₀ 0) (hvec : (K (F := F)).VecSplit' (P m) 0)
    (hu : iprop(ownU u₀ ∗ (P m).oxCred ∗ (K (F := F)).freeSems0)
      ⊢ |={Set.univ}=> iprop(BI.own (EH (initOf (K (F := F)).hsCells (K (F := F)).hsToks)) ∗ (bigSep Finset.univ fun d : Dev nD => GG d)
          ∗ bigSep Finset.univ fun thr : Thread nD τ => bigSep Finset.univ fun q : Fin 1 => (P m).x q thr)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main GG (FIN m) u₀ hu (hmain m ρ GG hreg hst hdn) (fq m) (hfin m) (QC m) (fun _ h => h)

end Cert.KernelIdeal.Hand

end
-- ==== Proof.KI.RegionAux.lean ====
/-
  The TensorCore pipeline's windows read at an index: what a fetched block of the transposed table holds at a column
  inside the table, and that the weight column's and the bias's blocks are those arrays whole.
-/
import proofs.«202434_g11450382811589_week1_w4_549_31_alg».proof.Proof.KI.Iface
import Idealize.ShloMosaic.Lib.Pipeline.Value
import Idealize.ShloMosaic.Lib.ValueLayout

noncomputable section

namespace Cert.KernelIdeal.Hand

open Cert.KernelIdeal Cert.KernelIdeal.Gen

open Idealize.ShloMosaic

variable {F : FTy → Type} [FloatOps F]

/-! ## The table's blocks -/

/-- The table's block at point `t` starts at row 0, column `t * 40960`; -/
theorem index0 : ∀ t : Fin cfg0.N, win0_0.index t (0 : Fin 2) = 0 ∧ win0_0.index t (1 : Fin 2) = t.val :=
  (by decide +kernel : ∀ t : Fin grid0.N, _)
/-- it has all 64 rows and the 40960 columns from there, or as many as the table has left. -/
theorem xsize0 : ∀ t : Fin cfg0.N, win0_0.xsize (grid0.coords t) (0 : Fin 2) = 64
    ∧ win0_0.xsize (grid0.coords t) (1 : Fin 2) = min 40960 (1000000 - t.val * 40960) :=
  (by decide +kernel : ∀ t : Fin grid0.N, _)

/-- A staging buffer that has fetched the table's block at point `t` holds, at row `k` and a column `y'` whose
    table column `t * 40960 + y'` exists, the table's entry there (whatever it held before, `d0`, stays only past the
    table's end). -/
theorem fill0_apply (t : Fin cfg0.N) (f : FVec F S64x1000000 .f32) (d0 : S64x40960.Idx → Elt F .f32) (k : Fin 64) (y' : Fin 40960)
    (hj' : t.val * 40960 + y'.val < 1000000) :
    win0_0.fill (grid0.coords t) d0 ((win0_0.blk t).view.read (Elt F) f) (ValueIdx.ix2 k y')
      = f (ValueIdx.ix2 k ⟨t.val * 40960 + y'.val, hj'⟩) := by
  have hm : win0_0.moved (grid0.coords t) (ValueIdx.ix2 k y') = true := by
    rw [Pipeline.Window.moved_iff]
    intro a
    match a with
    | ⟨0, _⟩ =>
      show k.val < win0_0.xsize (grid0.coords t) (0 : Fin 2)
      rw [(xsize0 t).1]; exact k.isLt
    | ⟨1, _⟩ =>
      show y'.val < win0_0.xsize (grid0.coords t) (1 : Fin 2)
      rw [(xsize0 t).2]; exact Nat.lt_min.mpr ⟨y'.isLt, by omega⟩
  unfold Pipeline.Window.fill
  rw [dif_pos hm, View.read_apply]
  show f ((win0_0.blk t).view.emb _) = f _
  refine congrArg f (funext fun a => Fin.ext ?_)
  match a with
  | ⟨0, _⟩ =>
    show win0_0.index t (0 : Fin 2) * 64 + 1 * k.val = k.val
    rw [(index0 t).1]; omega
  | ⟨1, _⟩ =>
    show win0_0.index t (1 : Fin 2) * 40960 + 1 * y'.val = t.val * 40960 + y'.val
    rw [(index0 t).2]; omega

/-- The same of the transposed table: the table's row `t * 40960 + y'`, column `k`. -/
theorem fill0_transpose_apply (t : Fin cfg0.N) (x : FVec F S1000000x64 .f32) (d0 : S64x40960.Idx → Elt F .f32) (k : Fin 64) (y' : Fin 40960)
    (hj' : t.val * 40960 + y'.val < 1000000) :
    win0_0.fill (grid0.coords t) d0 ((win0_0.blk t).view.read (Elt F)
        (transpose S64x1000000 [1, 0] x Facts₀.transposes_S1000000x64_S64x1000000_1_0 : FVec F S64x1000000 .f32)) (ValueIdx.ix2 k y')
      = x (ValueIdx.ix2 ⟨t.val * 40960 + y'.val, hj'⟩ k) :=
  (fill0_apply t _ d0 k y' hj').trans (ValueIdx.transpose_ix2_apply x _ k ⟨t.val * 40960 + y'.val, hj'⟩)

/-! ## The weight column and the bias: one block, the whole array -/

theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 1) = 0 :=
  (by decide +kernel : ∀ t : Fin grid0.N, _)

theorem fill1_eq (t : Fin cfg0.N) (f : FVec F S64x1 .f32) (d1 : S64x1.Idx → Elt F .f32) :
    win0_1.fill (grid0.coords t) d1 ((win0_1.blk t).view.read (Elt F) f) = f := by
  funext j
  have hm : win0_1.moved (grid0.coords t) j = true := rfl
  unfold Pipeline.Window.fill
  rw [dif_pos hm, View.read_apply]
  show f ((win0_1.blk t).view.emb _) = f j
  refine congrArg f (funext fun a => Fin.ext ?_)
  match a with
  | ⟨0, _⟩ =>
    show win0_1.index t (0 : Fin 2) * 64 + 1 * (j (0 : Fin 2)).val = (j (0 : Fin 2)).val
    rw [(index1 t).1]; omega
  | ⟨1, _⟩ =>
    show win0_1.index t (1 : Fin 2) * 1 + 1 * (j (1 : Fin 2)).val = (j (1 : Fin 2)).val
    rw [(index1 t).2]; omega

theorem fill2_eq (t : Fin cfg0.N) (f : FVec F S1 .f32) (d2 : S1.Idx → Elt F .f32) :
    win0_2.fill (grid0.coords t) d2 ((win0_2.blk t).view.read (Elt F) f) = f := by
  funext j
  have hm : win0_2.moved (grid0.coords t) j = true := rfl
  unfold Pipeline.Window.fill
  rw [dif_pos hm, View.read_apply]
  show f ((win0_2.blk t).view.emb _) = f j
  refine congrArg f (funext fun a => Fin.ext ?_)
  match a with
  | ⟨0, _⟩ =>
    show win0_2.index t (0 : Fin 1) * 1 + 1 * (j (0 : Fin 1)).val = (j (0 : Fin 1)).val
    rw [index2 t]; omega

/-! ## What a staged table block and its score block are, at the launch memory -/

variable (m : (ℓ : Loc nD τ sig) → Buf (Elt F) ℓ)

/-- A staged table block agrees with the table on the columns of block `t` that lie inside the table. -/
def BlkOK (d : Dev nD) (t : ℕ) (blk : FVec F S64x40960 .f32) : Prop :=
  ∀ (k : Fin 64) (y' : Fin 40960) (hj' : t * 40960 + y'.val < 1000000),
    blk (ValueIdx.ix2 k y') = (m (a1Loc d) : FVec F S1000000x64 .f32) (ValueIdx.ix2 ⟨t * 40960 + y'.val, hj'⟩ k)
/-- The score block a staged table block gives, at the launch's weights and bias. -/
abbrev scoreOf (d : Dev nD) (blk : FVec F S64x40960 .f32) : FVec F S40960 .f32 :=
  k0_pay1 blk (shapeCast S64x1 (m (a2Loc d) : FVec F S1x64 .f32) Facts₀.shapeCasts_S1x64_S64x1)
    ((m (a3Loc d) : FVec F S1 .f32) (ValueIdx.ix1 0))

end Cert.KernelIdeal.Hand

end
-- ==== Proof.KI.RegionAux2.lean ====
/-
  The score array's write-back, read at an index. The pipeline's fourth window cuts the score array, of 1000000
  entries, into 25 blocks of 40960, block u at point u, the last cut to the 16960 entries inside the array. Writing
  a block's payload back through the window puts entry y of the payload at array index u * 40960 + y when that index
  is inside the array, and leaves every array entry outside the block's range as it was.
-/
import proofs.«202434_g11450382811589_week1_w4_549_31_alg».proof.Proof.KI.Setup
import proofs.«202434_g11450382811589_week1_w4_549_31_alg».proof.Proof.KI.Iface
import Idealize.ShloMosaic.Lib.Pipeline.Value

noncomputable section

namespace Cert.KernelIdeal.Hand

open Cert.KernelIdeal Cert.KernelIdeal.Gen Idealize.ShloMosaic

variable {F : FTy → Type} [FloatOps F]

/-- Window 3's block index at point `t` is `t`, and the block there is cut to what is left of the array. -/
theorem win3_closed : ∀ t : Fin cfg0.N, win0_3.index t 0 = t.val
    ∧ win0_3.xsize (grid0.coords t) 0 = min 40960 (1000000 - t.val * 40960) := by
  decide +kernel

/-- The array index of entry `x` of the block at point `u`: the block's start plus the entry's coordinate. -/
theorem blk3_emb_val (u : Fin cfg0.N) (x : (win0_3.xblock (grid0.coords u)).Idx) :
    (((win0_3.blk u).view.emb x : S1000000.Idx) 0).val = u.val * 40960 + (x 0).val := by
  have h := Pipeline.Window.rect_emb_val win0_3 u x 0
  rw [(win3_closed u).1] at h
  exact h

/-- Written back through the window, entry `y` of the payload lands at array index `u * 40960 + y`, when that is
    inside the array. -/
theorem write3_apply_in (u : Fin cfg0.N) (G : FVec F S1000000 .f32) (X : S40960.Idx → Elt F .f32) (y : Fin 40960)
    (hj : u.val * 40960 + y.val < 1000000) :
    ((win0_3.blk u).view.write (Elt F) G (win0_3.cut (grid0.coords u) X) Finset.univ : FVec F S1000000 .f32)
        (ValueIdx.ix1 ⟨u.val * 40960 + y.val, hj⟩) = X (ValueIdx.ix1 y) := by
  have hy : y.val < win0_3.xsize (grid0.coords u) 0 := by
    rw [(win3_closed u).2]
    have := y.isLt
    omega
  let x : (win0_3.xblock (grid0.coords u)).Idx := fun (a : Fin 1) => match a with | ⟨0, _⟩ => ⟨y.val, hy⟩
  have hemb : (win0_3.blk u).view.emb x = ValueIdx.ix1 ⟨u.val * 40960 + y.val, hj⟩ := by
    funext a
    refine Fin.ext ?_
    match a with
    | ⟨0, _⟩ => exact blk3_emb_val u x
  refine (congrArg _ hemb.symm).trans ?_
  refine (View.write_emb_of_mem _ _ (Finset.mem_univ x)).trans ?_
  refine (cast_eq _ _).trans ?_
  refine congrArg X ?_
  funext a
  refine Fin.ext ?_
  match a with
  | ⟨0, _⟩ => rfl

/-- An array entry outside the range of the block at point `u` is left as it was. -/
theorem write3_apply_out (u : Fin cfg0.N) (G : FVec F S1000000 .f32) (X : S40960.Idx → Elt F .f32) (j : Fin 1000000)
    (hj : j.val < u.val * 40960 ∨ (u.val + 1) * 40960 ≤ j.val) :
    ((win0_3.blk u).view.write (Elt F) G (win0_3.cut (grid0.coords u) X) Finset.univ : FVec F S1000000 .f32)
        (ValueIdx.ix1 j) = G (ValueIdx.ix1 j) := by
  refine View.write_of_not_mem _ _ _ ?_
  rw [View.setOn_univ]
  intro hmem
  obtain ⟨x, -, hx⟩ := Finset.mem_map.1 hmem
  have hv := blk3_emb_val u x
  have hxlt : (x 0).val < win0_3.xsize (grid0.coords u) 0 := (x 0).isLt
  rw [(win3_closed u).2] at hxlt
  have he : (((win0_3.blk u).view.emb x : S1000000.Idx) 0).val = j.val := by
    have := congrArg (fun i : S1000000.Idx => (i 0).val) hx
    exact this
  omega

end Cert.KernelIdeal.Hand

end
-- ==== Proof.KI.RegionAux3.lean ====
/-
  From the pipeline's twenty-five write-backs to the score array: block by block, each write-back puts a score block
  over its own range of the array and leaves the earlier blocks' ranges as they were, so in the end every entry of the
  array is the block computation's entry for some staged table block that agrees with the table inside it.
-/
import proofs.«202434_g11450382811589_week1_w4_549_31_alg».proof.Proof.KI.RegionAux
import proofs.«202434_g11450382811589_week1_w4_549_31_alg».proof.Proof.KI.RegionAux2
import Idealize.ShloMosaic.Lib.Pipeline.Cells

noncomputable section

namespace Cert.KernelIdeal.Hand

open Cert.KernelIdeal Cert.KernelIdeal.Gen

open Idealize.ShloMosaic
open Idealize.ShloMosaic.TcCoe

variable {F : FTy → Type} [FloatOps F]
variable (m : (ℓ : Loc nD τ sig) → Buf (Elt F) ℓ)

/-! ## From the twenty-five write-backs to the score array -/

/-- After the write-backs of the points below `n`, every score of their blocks is the block computation's entry for
    some staged block that agrees with the table inside it. -/
def ScoreInv (d : Dev nD) (n : ℕ) (G : FVec F S1000000 .f32) : Prop :=
  ∀ (t : Fin 25) (y : Fin 40960) (hj : t.val * 40960 + y.val < 1000000), t.val < n →
    ∃ blk, BlkOK m d t.val blk ∧ G (ValueIdx.ix1 ⟨t.val * 40960 + y.val, hj⟩) = scoreOf m d blk (ValueIdx.ix1 y)

theorem scoreInv_of_arrAt (d : Dev nD) (r : Pipeline.RDat τ (Elt F) (SparseCore.Cfg.HIx 1) ℕ UU ℕ cfg0 d)
    (hafter : ∀ (t : Fin cfg0.N) Y X, r.after 3 t Y X → ∃ blk, BlkOK m d t.val blk ∧ X = scoreOf m d blk)
    (hin : ∀ (u : Fin cfg0.N) (G : FVec F S1000000 .f32) (X : S40960.Idx → Elt F .f32) (y : Fin 40960) (hj : u.val * 40960 + y.val < 1000000),
      ((win0_3.blk u).view.write (Elt F) G (win0_3.cut (grid0.coords u) X) Finset.univ : FVec F S1000000 .f32) (ValueIdx.ix1 ⟨u.val * 40960 + y.val, hj⟩) = X (ValueIdx.ix1 y))
    (hout : ∀ (u : Fin cfg0.N) (G : FVec F S1000000 .f32) (X : S40960.Idx → Elt F .f32) (j : Fin 1000000) (hj : j.val < u.val * 40960 ∨ (u.val + 1) * 40960 ≤ j.val),
      ((win0_3.blk u).view.write (Elt F) G (win0_3.cut (grid0.coords u) X) Finset.univ : FVec F S1000000 .f32) (ValueIdx.ix1 j) = G (ValueIdx.ix1 j)) :
    ∀ n, n ≤ 25 → ∀ G, r.ArrAt 3 n G → ScoreInv m d n G := by
  intro n
  induction n with
  | zero => intro _ G _ t y hj ht; omega
  | succ n ih =>
    intro hn G h
    have hN : n < cfg0.N := by have e : cfg0.N = 25 := Gen.N_0; omega
    have h' : r.ArrAt 3 ((⟨n, hN⟩ : Fin cfg0.N).val + 1) G := h
    rw [r.ArrAt_succ 3 ⟨n, hN⟩, if_pos (Gen.flush0_3 ⟨n, hN⟩)] at h'
    obtain ⟨G₀, X, hG₀, ⟨Y, _, hYX⟩, rfl⟩ := h'
    obtain ⟨blk, hblk, rfl⟩ := hafter ⟨n, hN⟩ Y X hYX
    intro t y hj ht
    by_cases e : t.val = n
    · obtain ⟨tv, htv⟩ := t
      subst e
      exact ⟨blk, hblk, hin ⟨tv, hN⟩ G₀ _ y hj⟩
    · obtain ⟨blk', hb', hv'⟩ := ih (by omega) G₀ hG₀ t y hj (by omega)
      refine ⟨blk', hb', ?_⟩
      rw [← hv']
      exact hout ⟨n, hN⟩ G₀ _ ⟨t.val * 40960 + y.val, hj⟩ (Or.inl (by have := y.isLt; show t.val * 40960 + y.val < n * 40960; omega))

/-- What the score array may hold after all twenty-five write-backs is admissible for the launch memory, whenever the
    pipeline's relation for the score window gives, at every point, the score block of a staged table block that
    agrees with the table inside it. -/
theorem scoreOK_of_arrAt (d : Dev nD) (r : Pipeline.RDat τ (Elt F) (SparseCore.Cfg.HIx 1) ℕ UU ℕ cfg0 d)
    (hafter : ∀ (t : Fin cfg0.N) Y X, r.after 3 t Y X → ∃ blk, BlkOK m d t.val blk ∧ X = scoreOf m d blk)
    (F4 : Buf (Elt F) (xLoc d)) (h : r.ArrAt 3 cfg0.N F4) : ScoreOK m d F4 := by
  have e : cfg0.N = 25 := Gen.N_0
  have hinv := scoreInv_of_arrAt m d r hafter (fun u G X y hj => write3_apply_in u G X y hj)
    (fun u G X j hj => write3_apply_out u G X j hj) cfg0.N (Nat.le_of_eq e) F4 h
  intro t y hj
  obtain ⟨blk, hb, hv⟩ := hinv t y hj (by rw [e]; exact t.isLt)
  exact ⟨blk, hb, hv⟩

end Cert.KernelIdeal.Hand

end
-- ==== Proof.KI.Region.lean ====
/-
  The score pipeline inside the lookup kernel's launch: the TensorCore's pipeline, run as one step of @main while the
  thread still owes its later start signals.

  The pipeline walks the transposed table in 25 blocks of 40960 columns (the last one reaching past the table's
  1000000 columns), multiplies each of the 64 rows by its weight, sums over the rows and adds the bias: one score per
  table row. What the last block's staging buffer holds past the table's end is whatever the fetch left, so the result
  is stated as a relation: every score is the block computation's entry at its column for SOME staged block that agrees
  with the table on the columns inside it.
-/
import proofs.«202434_g11450382811589_week1_w4_549_31_alg».proof.Proof.KI.Iface
import proofs.«202434_g11450382811589_week1_w4_549_31_alg».proof.Proof.KI.RegionAux
import proofs.«202434_g11450382811589_week1_w4_549_31_alg».proof.Proof.KI.RegionAux2
import proofs.«202434_g11450382811589_week1_w4_549_31_alg».proof.Proof.KI.RegionAux3
import Idealize.ShloMosaic.Lib.Pipeline.FrameBody
import Idealize.ShloMosaic.Lib.ValueLayout

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## The region's vocabulary -/

/-- The pipeline has no prefetched table. -/
abbrev adm : (p : Fin 1) → (pcfgs (F := F) p).Adm := fun p => (cfgs p).toPCfg_adm

/-- The rounds ghost state of the pipeline's staging cells and its transfers' duty tokens, as the launch deals them. -/
def GG (d : Dev nD) : sProp 𝕄 :=
  iprop(Pipeline.cellsGhost (Pipeline.pin (pcfgs (F := F)) adm) EP (0 : Fin 1) d
    ∗ Pipeline.toksInit (Pipeline.pin (pcfgs (F := F)) adm) EP (0 : Fin 1) d)

/-! ## The kernel body -/

omit [FloatOps F] in
/-- A whole buffer held through its memref. -/
theorem pts_whole (c : Thread nD τ) (b : Ref sig c.2.kind) (q : PosShare TreeShare) (f : Buf (Elt F) (c.loc b)) :
    ((c.loc b) ↦{q} f : sProp 𝕄) = ((Memref.whole b).view.loc c ↦{q} f) := rfl

/-- The body on whichever staging buffers the pipeline hands it: the table block, the weights and the bias are read
    and left as they are; the score block of what they hold is stored whole into the result's buffer. -/
theorem sound_body (c : Dev nD) (E : Set ℕ) (i : grid0.Coords) (s0 : Fin 2) (s1 : Fin 1) (s2 : Fin 1) (s3 : Fin 2)
    (X0 : S64x40960.Idx → Elt F .f32) (X1 : S64x1.Idx → Elt F .f32) (X2 : S1.Idx → Elt F .f32) (X3 : S40960.Idx → Elt F .f32)
    (Kp : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 (X2 (ValueIdx.ix1 0)))) -∗ Kp ⟨⟩))
      ⊢ wp frame (wpE (defs₀ (F := F)) 𝒱₀ (c : Thread nD τ) none) E
          (cc0__mv_body i (stage0_0 s0) (hstage0_0 s0) (stage0_1 s1) (hstage0_1 s1) (stage0_2 s2) (hstage0_2 s2)
            (stage0_3 s3) (hstage0_3 s3)) Kp := by
  -- every access is at offset zero and the buffer's own size: a load reads the contents, the unmasked store writes the
  -- payload, at whichever of its window's buffers each memref is
  have hz2 : (![0, 0] : Fin 2 → ℕ) = fun _ => 0 := funext fun a => by fin_cases a <;> rfl
  have hz1 : (![0] : Fin 1 → ℕ) = fun _ => 0 := funext fun a => by fin_cases a <;> rfl
  fin_cases s0 <;> fin_cases s1 <;> fin_cases s2 <;> fin_cases s3
  · -- the table block in `cc0_stg0_0`, the weights in `cc0_stg1_0`, the bias in `cc0_stg2_0`, the result's buffer `cc0_stg3_0`
    have hr0 : (Memref.whole cc0_stg0_0 : Memref sig .tc _ _ _).view.readAt (Elt F) (Rect.unit (s := S64x40960) ![0, 0] S64x40960.size
        inb_S64x40960_S64x40960_0_0).toLoadRect = id := funext (Memref.readAt_unit_zero (Elt F) cc0_stg0_0 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S40960) ![0] S40960.size inb_S40960_S40960_0)) :
        View sig .tc _ _ _).write (Elt F) f w Finset.univ = w := Memref.write_access_unit_zero_univ (Elt F) cc0_stg3_0 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)
  · -- the table block in `cc0_stg0_0`, the weights in `cc0_stg1_0`, the bias in `cc0_stg2_0`, the result's buffer `cc0_stg3_1`
    have hr0 : (Memref.whole cc0_stg0_0 : Memref sig .tc _ _ _).view.readAt (Elt F) (Rect.unit (s := S64x40960) ![0, 0] S64x40960.size
        inb_S64x40960_S64x40960_0_0).toLoadRect = id := funext (Memref.readAt_unit_zero (Elt F) cc0_stg0_0 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S40960) ![0] S40960.size inb_S40960_S40960_0)) :
        View sig .tc _ _ _).write (Elt F) f w Finset.univ = w := Memref.write_access_unit_zero_univ (Elt F) cc0_stg3_1 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)
  · -- the table block in `cc0_stg0_1`, the weights in `cc0_stg1_0`, the bias in `cc0_stg2_0`, the result's buffer `cc0_stg3_0`
    have hr0 : (Memref.whole cc0_stg0_1 : Memref sig .tc _ _ _).view.readAt (Elt F) (Rect.unit (s := S64x40960) ![0, 0] S64x40960.size
        inb_S64x40960_S64x40960_0_0).toLoadRect = id := funext (Memref.readAt_unit_zero (Elt F) cc0_stg0_1 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S40960) ![0] S40960.size inb_S40960_S40960_0)) :
        View sig .tc _ _ _).write (Elt F) f w Finset.univ = w := Memref.write_access_unit_zero_univ (Elt F) cc0_stg3_0 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)
  · -- the table block in `cc0_stg0_1`, the weights in `cc0_stg1_0`, the bias in `cc0_stg2_0`, the result's buffer `cc0_stg3_1`
    have hr0 : (Memref.whole cc0_stg0_1 : Memref sig .tc _ _ _).view.readAt (Elt F) (Rect.unit (s := S64x40960) ![0, 0] S64x40960.size
        inb_S64x40960_S64x40960_0_0).toLoadRect = id := funext (Memref.readAt_unit_zero (Elt F) cc0_stg0_1 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S40960) ![0] S40960.size inb_S40960_S40960_0)) :
        View sig .tc _ _ _).write (Elt F) f w Finset.univ = w := Memref.write_access_unit_zero_univ (Elt F) cc0_stg3_1 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)

/-! ## The proof data -/

/-- The pipeline's proof data on device `d`, for a thread that owes `O` throughout and has recorded the waits `W`:
    the arrays as the host operations left them; the three inputs' buffers left as found; the result's buffer left at
    the score block of SOME table block that agrees with the table inside it; no invariant; the waits recorded
    meanwhile are the staging cells', at the kernels' own index. -/
def rd (d : Dev nD) (O : CellTallies nD τ sig (HIx 1)) (W : Waits sig (HIx 1)) :
    Pipeline.RDat τ (Elt F) (HIx 1) ℕ UU ℕ cfg0 d where
  A w := match w with
    | ⟨0, _⟩ => tblT m d
    | ⟨1, _⟩ => wCol m d
    | ⟨2, _⟩ => m (a3Loc d)
    | ⟨3, _⟩ => m (xLoc d)
  after w t Y X := match w with
    | ⟨0, _⟩ => X = Y
    | ⟨1, _⟩ => X = Y
    | ⟨2, _⟩ => X = Y
    | ⟨3, _⟩ => ∃ blk : FVec F S64x40960 .f32, BlkOK m d t.val blk ∧ X = scoreOf m d blk
  Φ _ := iprop(emp)
  q _ := fullShare
  owed _ := O
  recorded _ := {p | p ∈ W ∨ p.2 = none}

variable (d : Dev nD) (O : CellTallies nD τ sig (HIx 1)) (W : Waits sig (HIx 1))

/-- A window's cuts are a function of its block index. -/
theorem hclip0 (t t' : Fin cfg0.N) (h : (cfg0.win 0).index t = (cfg0.win 0).index t') :
    (cfg0.win 0).clip (grid0.coords t) = (cfg0.win 0).clip (grid0.coords t') := by
  funext a
  show Pipeline.Clip.of (win0_0.index t a) _ _ = Pipeline.Clip.of (win0_0.index t' a) _ _
  rw [show win0_0.index t = win0_0.index t' from h]

/-- What the body finds in the inputs' buffers: the table's block filled out with anything past the table's end, -/
theorem finds0 (t : Fin cfg0.N) (Y) (h : (rd m d O W).Finds 0 t Y) : ∃ d0, Y = (rd m d O W).fetched 0 t d0 :=
  Pipeline.RDat.finds_in_eq_fetched (rd m d O W) 0 rfl (hclip0) (fun _ _ _ h => h) t Y h
/-- the weights, -/
theorem finds1 (t : Fin cfg0.N) (Y) (h : (rd m d O W).Finds 1 t Y) : ∃ d0, Y = (rd m d O W).fetched 1 t d0 :=
  Pipeline.RDat.finds_in_eq_fetched (rd m d O W) 1 rfl (fun _ _ _ => rfl) (fun _ _ _ h => h) t Y h
/-- the bias. -/
theorem finds2 (t : Fin cfg0.N) (Y) (h : (rd m d O W).Finds 2 t Y) : ∃ d0, Y = (rd m d O W).fetched 2 t d0 :=
  Pipeline.RDat.finds_in_eq_fetched (rd m d O W) 2 rfl (fun _ _ _ => rfl) (fun _ _ _ h => h) t Y h

theorem fetched0_ok (t : Fin cfg0.N) (d0) : BlkOK m d t.val ((rd m d O W).fetched 0 t d0) := by
  intro k y' hj'
  exact fill0_transpose_apply t (m (a1Loc d)) d0 k y' hj'
theorem fetched1_eq (t : Fin cfg0.N) (d0) : (rd m d O W).fetched 1 t d0
    = (shapeCast S64x1 (m (a2Loc d) : FVec F S1x64 .f32) Facts₀.shapeCasts_S1x64_S64x1 : FVec F S64x1 .f32) :=
  fill1_eq t (wCol m d) d0
theorem fetched2_eq (t : Fin cfg0.N) (d0) : (rd m d O W).fetched 2 t d0 = (m (a3Loc d) : FVec F S1 .f32) :=
  fill2_eq t (m (a3Loc d)) d0

/-! ## The body obligation -/

/-- At every point: the body is handed the table's block (anything past the table's end), the weights and the bias,
    leaves them as found and leaves the result's buffer at their score block. It owes and records nothing itself. -/
theorem body_obligation : (rd m d O W).BodyObligation (defs₀ (F := F)) 𝒱₀ (none : HIx 1) Set.univ := fun t Y hY => by
  rw [bigSep_W0, bigSep_W0]
  obtain ⟨d0, h0⟩ := finds0 m d O W t (Y 0) (hY 0)
  obtain ⟨d1, h1⟩ := finds1 m d O W t (Y 1) (hY 1)
  obtain ⟨d2, h2⟩ := finds2 m d O W t (Y 2) (hY 2)
  rw [fetched1_eq] at h1; rw [fetched2_eq] at h2
  rw [show (rd m d O W).Φ t.succ = (rd m d O W).Φ t.castSucc from rfl,
    show (rd m d O W).owesAt (none : HIx 1) t.succ = (rd m d O W).owesAt (none : HIx 1) t.castSucc from rfl]
  iintro ⟨HΦ, Ho, H0, H1, H2, H3⟩
  iapply (sound_body (F := F) d Set.univ (grid0.coords t) (cfg0.slots t 0) (cfg0.slots t 1) (cfg0.slots t 2) (cfg0.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists _; isplitr; swap; · iexact H3
  ipureintro
  refine ⟨Y 0, ?_, ?_⟩
  · rw [h0]; exact fetched0_ok m d O W t d0
  · rw [h1, h2]

/-! ## The region -/

/-- The thread may wait on the staging cells while it owes `O`: their waits are at the kernels' own index, below every
    call's. -/
theorem hwaits_reg (hO : ∀ g, O g none = 0) (c : Dev nD) :
    (levAts (K (F := F)).L (K (F := F)).lev : sProp 𝕄)
      ⊢ Pipeline.RDat.cellsWaits (Pipeline.pin (pcfgs (F := F)) adm) (fun _ c => rd m c O W) (none : HIx 1) 0 c :=
  Pipeline.RDat.cellsWaits_intro (Pipeline.pin (pcfgs (F := F)) adm) (fun _ c => rd m c O W) (none : HIx 1) 0 c fun w s t =>
    (K (F := F)).mayWait_none (thr := (c.tc : Thread nD τ)) _ hO

/-- The arrays are held whole at the full share. -/
theorem share_rd (w : Fin cfg0.W) : (rd m d O W).share w = fullShare := by
  unfold Pipeline.RDat.share; split <;> rfl
theorem pts_arr (w : Fin cfg0.W) (G : Buf (Elt F) ((cfg0.win w).arr.view.loc (d.tc : Thread nD τ))) :
    ((cfg0.win w).arr.view.loc (d.tc : Thread nD τ) ↦[(cfg0.win w).arr.view.set]{(rd m d O W).share w} G : sProp 𝕄)
      = ((d.tc : Thread nD τ).loc (Pipeline.arrRef spec0 w) ↦{fullShare} G) := by
  rw [(launch0.arr_whole w).set_eq_univ, share_rd]

/-- The four arrays at the proof data's entry contents are the four buffers the region is entered with. -/
theorem arrays_A : (rd m d O W).arrays (rd m d O W).A
    = iprop((tLoc d ↦{fullShare} tblT m d) ∗ (wLoc d ↦{fullShare} wCol m d) ∗ (a3Loc d ↦{fullShare} m (a3Loc d))
        ∗ (xLoc d ↦{fullShare} m (xLoc d))) := by
  unfold Pipeline.RDat.arrays
  rw [bigSep_W0, pts_arr, pts_arr, pts_arr, pts_arr]
  rfl

/-- Each window's array, held through the window, is the buffer behind it held whole. -/
theorem arr0_eq : ((cfg0.win 0).arr.view.loc (d.tc : Thread nD τ) ↦[(cfg0.win 0).arr.view.set]{(rd m d O W).share 0} (rd m d O W).A 0 : sProp 𝕄)
    = (tLoc d ↦{fullShare} tblT m d) := by
  rw [pts_arr]; rfl
theorem arr1_eq : ((cfg0.win 1).arr.view.loc (d.tc : Thread nD τ) ↦[(cfg0.win 1).arr.view.set]{(rd m d O W).share 1} (rd m d O W).A 1 : sProp 𝕄)
    = (wLoc d ↦{fullShare} wCol m d) := by
  rw [pts_arr]; rfl
theorem arr2_eq : ((cfg0.win 2).arr.view.loc (d.tc : Thread nD τ) ↦[(cfg0.win 2).arr.view.set]{(rd m d O W).share 2} (rd m d O W).A 2 : sProp 𝕄)
    = (a3Loc d ↦{fullShare} m (a3Loc d)) := by
  rw [pts_arr]; rfl
theorem arr3_eq (G : Buf (Elt F) ((cfg0.win 3).arr.view.loc (d.tc : Thread nD τ))) :
    ((cfg0.win 3).arr.view.loc (d.tc : Thread nD τ) ↦[(cfg0.win 3).arr.view.set]{(rd m d O W).share 3} G : sProp 𝕄)
      = (xLoc d ↦{fullShare} G) := by
  rw [pts_arr]

/-- An input's array is never written: after any number of write-backs it holds what it held. -/
theorem arrAt_in0 (n : ℕ) :
    iprop(∃ F, ⌜(rd m d O W).ArrAt 0 n F⌝
        ∗ ((cfg0.win 0).arr.view.loc (d.tc : Thread nD τ) ↦[(cfg0.win 0).arr.view.set]{(rd m d O W).share 0} F))
      ⊢ (tLoc d ↦{fullShare} tblT m d : sProp 𝕄) := by
  rw [Pipeline.RDat.ArrAt_in (rd m d O W) 0 rfl]
  iintro ⟨%F0, %h0, H0⟩
  subst h0
  iapply (Entails.of_eq (arr0_eq m d O W))
  iexact H0
theorem arrAt_in1 (n : ℕ) :
    iprop(∃ F, ⌜(rd m d O W).ArrAt 1 n F⌝
        ∗ ((cfg0.win 1).arr.view.loc (d.tc : Thread nD τ) ↦[(cfg0.win 1).arr.view.set]{(rd m d O W).share 1} F))
      ⊢ (wLoc d ↦{fullShare} wCol m d : sProp 𝕄) := by
  rw [Pipeline.RDat.ArrAt_in (rd m d O W) 1 rfl]
  iintro ⟨%F0, %h0, H0⟩
  subst h0
  iapply (Entails.of_eq (arr1_eq m d O W))
  iexact H0
theorem arrAt_in2 (n : ℕ) :
    iprop(∃ F, ⌜(rd m d O W).ArrAt 2 n F⌝
        ∗ ((cfg0.win 2).arr.view.loc (d.tc : Thread nD τ) ↦[(cfg0.win 2).arr.view.set]{(rd m d O W).share 2} F))
      ⊢ (a3Loc d ↦{fullShare} m (a3Loc d) : sProp 𝕄) := by
  rw [Pipeline.RDat.ArrAt_in (rd m d O W) 2 rfl]
  iintro ⟨%F0, %h0, H0⟩
  subst h0
  iapply (Entails.of_eq (arr2_eq m d O W))
  iexact H0
/-- The result's array: at something the write-backs may leave. -/
theorem arrAt_out3 (n : ℕ) :
    iprop(∃ F, ⌜(rd m d O W).ArrAt 3 n F⌝
        ∗ ((cfg0.win 3).arr.view.loc (d.tc : Thread nD τ) ↦[(cfg0.win 3).arr.view.set]{(rd m d O W).share 3} F))
      ⊢ iprop(∃ F4 : Buf (Elt F) (xLoc d), ⌜(rd m d O W).ArrAt 3 n F4⌝ ∗ (xLoc d ↦{fullShare} F4) : sProp 𝕄) := by
  iintro ⟨%F3, %h3, H3⟩
  iexists F3; isplitr; · ipureintro; exact h3
  iapply (Entails.of_eq (arr3_eq m d O W F3))
  iexact H3

/-- After the last write-back: the three inputs as at entry, the score array at something the write-backs may leave. -/
theorem arraysAt_N : (rd m d O W).arraysAt cfg0.N
    ⊢ iprop((tLoc d ↦{fullShare} tblT m d) ∗ (wLoc d ↦{fullShare} wCol m d) ∗ (a3Loc d ↦{fullShare} m (a3Loc d))
        ∗ ∃ F4 : Buf (Elt F) (xLoc d), ⌜(rd m d O W).ArrAt 3 cfg0.N F4⌝ ∗ (xLoc d ↦{fullShare} F4)) := by
  unfold Pipeline.RDat.arraysAt
  rw [bigSep_W0]
  exact BI.sep_mono (arrAt_in0 m d O W _) (BI.sep_mono (arrAt_in1 m d O W _) (BI.sep_mono (arrAt_in2 m d O W _) (arrAt_out3 m d O W _)))

/-- The region's record: the launch's layout, no semaphore of the kernel's own, the body obligation and the wait
    evidence; entered from the four arrays and the debts, left with the score array at admissible contents. -/
def reg (hO : ∀ g, O g none = 0) :
    Pipeline.RDat.RegionSeg (pcfgs (F := F)) adm (fun _ c => rd m c O W) (none : HIx 1) defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := body_obligation m c O W
  hwaits c := hwaits_reg m O W hO c
  pre c := regionPre m c O W
  post c := regionPost m c O W
  X _ := iprop(emp)
  Y _ := iprop(emp)
  Z _ := iprop(emp)
  hentry c := by
    rw [arrays_A]; unfold regionPre
    iintro ⟨⟨Ht, Hw, Hb, Hx, HO⟩, -, -⟩
    imodintro
    isplitl [Ht Hw Hb Hx]
    · isplitl [Ht]; · iexact Ht
      isplitl [Hw]; · iexact Hw
      isplitl [Hb]; · iexact Hb
      iexact Hx
    isplitr
    · unfold Pipeline.prefHeld; rw [show (Finset.univ : Finset (Fin 0)) = ∅ from rfl, BI.bigSep_empty]; iempintro
    isplitl [HO]
    · iexists W; isplitr; · ipureintro; exact fun p hp => Or.inl (Or.inl hp)
      iexact HO
    isplitr <;> iempintro
  hin c := by
    show _ ⊢ (BI.emp : sProp 𝕄)
    iintro -; iempintro
  hout c := by
    rw [scopedRest0_eq, Pipeline.ownSems0_none]
    iintro -
    isplitr; · iempintro
    isplitr <;> iempintro
  hexit c := by
    iintro ⟨Ha, HO, -, -⟩
    ihave Ha' := (arraysAt_N m c O W) $$ Ha
    icases Ha' with ⟨Ht, Hw, Hb, ⟨%F4, %hF4, Hx⟩⟩
    icases HO with ⟨%W', %hW', HO⟩
    imodintro; unfold regionPost
    isplitl [Ht]; · iexact Ht
    isplitl [Hw]; · iexact Hw
    isplitl [Hb]; · iexact Hb
    isplitl [Hx]
    · iexists F4; isplitl [Hx]; · iexact Hx
      ipureintro; exact scoreOK_of_arrAt m c (rd m c O W) (fun _ _ _ h => h) F4 hF4
    iexists W'; isplitr
    · ipureintro; intro p hp
      rcases hW' (Finset.mem_coe.mpr hp) with h | ⟨w, s, rfl⟩
      · exact h
      · exact Or.inr rfl
    iexact HO

/-! ## The region's step inside @main -/

/-- From the region boundary, the four arrays, the debts `O` (none at the kernels' own index), the level facts and the
    pipeline's launch ghost state, the pipeline's call runs to the boundary and `regionPost` for any continuation. -/
theorem region_wp (d : Dev nD) (O : CellTallies nD τ sig (HIx 1)) (hO : ∀ g, O g none = 0) (W : Waits sig (HIx 1)) {α : Type}
    (k : PUnit → Prog (TpuEff nD τ sig (Elt F) (ΛP (F := F)) .tc) α) (Q : α → sProp 𝕄) :
    iprop((iprop(boundary (SparseCore.T d) ∗ regionPost m d O W) -∗ wp frame (wpE (D (F := F)) 𝒱 (SparseCore.T d) none) Set.univ (k ⟨⟩) Q)
        ∗ boundary (SparseCore.T d) ∗ regionPre m d O W ∗ levAts (K (F := F)).L (K (F := F)).lev ∗ GG d)
      ⊢ wp frame (wpE (D (F := F)) 𝒱 (SparseCore.T d) none) Set.univ (.op (.customCall (Pipeline.entry 0) ()) k) Q := by
  unfold GG
  exact Pipeline.RDat.RegionSeg.wp (pcfgs (F := F)) adm (fun _ c => rd m c O W) (none : HIx 1) cellOf_inj EP defs₀ 𝒱₀
    (K (F := F)).L (K (F := F)).lev (reg m O W hO) d none (fun u hu => by cases hu) k Q

end Cert.KernelIdeal.Hand

end
-- ==== Proof.KI.Tile.lean ====
/-
  One vector subcore's task of the lookup kernel, from what the launch hands it to what it hands back.

  The task of SparseCore `c`, vector subcore `s` works on block `w = 2 * s + c` of 512 item positions. It copies its 512
  row numbers into its index scratch, gathers the scores at those rows into its row scratch (entry `k` of the scratch is
  the score array at the row that entry `k` of the list names; every row number is in range because every item number is
  between 1 and 1000000), replaces each of the thirty-two groups of sixteen lanes by its rating `1 / (1 + exp (0 - v))`,
  and copies the row scratch out to its block of the result.

  The value: the thirty-two stores tile the row scratch, and each stores the rating of the sixteen gathered lanes under it
  (the printed payloads are that rating up to casts to the same shape), so the scratch ends as `rate` of the gathered
  scores; read through the arrays' own indices, entry `g * 16 + l` of the task's block of the result is the rating of the
  scores at the task's row numbers `w * 512 + g * 16 + ·`, lane `l`.
-/
import proofs.«202434_g11450382811589_week1_w4_549_31_alg».proof.Proof.KI.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One task's views of the three arrays and of its scratch -/

section Tile

variable (d : Dev nD) (L : grid1.Coords)

abbrev cV (L : grid1.Coords) : Fin τ.nSC := (L 0).castLE hcore1
abbrev jV (L : grid1.Coords) : Fin τ.nSub := (L 1).castLE hsub1

/-- The 512 positions the task at `L` addresses, as the program slices them. -/
abbrev rowK (L : grid1.Coords) : Rect S16384 := Rect.unit (s := S16384) (k1_off1 L) S512.size (k1_off1_inb L)
abbrev iRowK (L : grid1.Coords) : Memref sig .scVector .hbm S512 .i32 := (iV).slice (rowK L) (fun _ => rfl)
abbrev oRowK (L : grid1.Coords) : Memref sig .scVector .hbm S512 .f32 := (oV).slice (rowK L) (fun _ => rfl)
abbrev xAllK : Memref sig .scVector .hbm S1000000 .f32 :=
  (xV).slice (Rect.unit (s := S1000000) ![0] S1000000.size inb_S1000000_S1000000_0) (fun _ => rfl)

/-- The program's slice at `L` is block `2 * subcore + core` of the cut into thirty-two. -/
theorem rowK_eq (w : Fin 32) (hw : w.val = 2 * (L 1).val + (L 0).val) : rowK L = rowsOf w := by
  unfold rowK rowsOf Rect.part Rect.block
  congr 1 <;> funext a
  · rw [k1_off1_eq]
    match a with
    | 0 => simp [Shape.partIx, Shape.partSize, hw]; omega
  · match a with
    | 0 => simp [Shape.partSize]

theorem set_iRowK (w : Fin 32) (hw : w.val = 2 * (L 1).val + (L 0).val) : (iRowK L).view.set = iRowSet w := by
  show ((iV).view.slice (rowK L)).set = ((iV).view.slice (rowsOf w)).set
  rw [rowK_eq L w hw]
theorem set_oRowK (w : Fin 32) (hw : w.val = 2 * (L 1).val + (L 0).val) : (oRowK L).view.set = oRowSet w := by
  show ((oV).view.slice (rowK L)).set = ((oV).view.slice (rowsOf w)).set
  rw [rowK_eq L w hw]

theorem pts_iRowK (w : Fin 32) (hw : w.val = 2 * (L 1).val + (L 0).val) (f : Buf (Elt F) (iLoc d)) :
    ((iRowK L).view.loc (V d (cV L) (jV L)) ↦[(iRowK L).view.set]{fullShare} f : sProp 𝕄) = iLoc d ↦[iRowSet w]{fullShare} f := by
  rw [set_iRowK L w hw]
theorem pts_oRowK (w : Fin 32) (hw : w.val = 2 * (L 1).val + (L 0).val) (f : Buf (Elt F) (oLoc d)) :
    ((oRowK L).view.loc (V d (cV L) (jV L)) ↦[(oRowK L).view.set]{fullShare} f : sProp 𝕄) = oLoc d ↦[oRowSet w]{fullShare} f := by
  rw [set_oRowK L w hw]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- The three cells the task's transfers land on: the row numbers' fetch, the gather, the write-out. -/
abbrev cAcell (d : Dev nD) (c : Fin τ.nSC) (i : Fin τ.nSub) : GSem nD τ sig := (V d c i, .dma cc1_scoped0.sem)
abbrev cGcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc1_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]

/-! ## The value: each stored group is the rating of the sixteen lanes loaded -/

/-- A cast to the same shape changes nothing. -/
theorem shapeCast_same {s : Shape} {α : Type} (v : s.Idx → α) (h : s.ShapeCasts s) : shapeCast s v h = v :=
  funext fun i => congrArg v (Shape.reshapeEquiv_self _ i)

theorem pay1_eq (v : Vec F S16 .f32) : k1_pay1 v = sigv v := by simp only [k1_pay1, sigv, shapeCast_same]
theorem pay2_eq (v : Vec F S16 .f32) : k1_pay2 v = sigv v := by simp only [k1_pay2, sigv, shapeCast_same]
theorem pay6_eq (v : Vec F S16 .f32) : k1_pay6 v = sigv v := by simp only [k1_pay6, sigv, shapeCast_same]
theorem pay7_eq (v : Vec F S16 .f32) : k1_pay7 v = sigv v := by simp only [k1_pay7, sigv, shapeCast_same]
theorem pay10_eq (v : Vec F S16 .f32) : k1_pay10 v = sigv v := by simp only [k1_pay10, sigv, shapeCast_same]
theorem pay11_eq (v : Vec F S16 .f32) : k1_pay11 v = sigv v := by simp only [k1_pay11, sigv, shapeCast_same]
theorem pay12_eq (v : Vec F S16 .f32) : k1_pay12 v = sigv v := by simp only [k1_pay12, sigv, shapeCast_same]
theorem pay13_eq (v : Vec F S16 .f32) : k1_pay13 v = sigv v := by simp only [k1_pay13, sigv, shapeCast_same]
theorem pay14_eq (v : Vec F S16 .f32) : k1_pay14 v = sigv v := by simp only [k1_pay14, sigv, shapeCast_same]
theorem pay15_eq (v : Vec F S16 .f32) : k1_pay15 v = sigv v := by simp only [k1_pay15, sigv, shapeCast_same]
theorem pay19_eq (v : Vec F S16 .f32) : k1_pay19 v = sigv v := by simp only [k1_pay19, sigv, shapeCast_same]
theorem pay20_eq (v : Vec F S16 .f32) : k1_pay20 v = sigv v := by simp only [k1_pay20, sigv, shapeCast_same]
theorem pay23_eq (v : Vec F S16 .f32) : k1_pay23 v = sigv v := by simp only [k1_pay23, sigv, shapeCast_same]
theorem pay24_eq (v : Vec F S16 .f32) : k1_pay24 v = sigv v := by simp only [k1_pay24, sigv, shapeCast_same]
theorem pay25_eq (v : Vec F S16 .f32) : k1_pay25 v = sigv v := by simp only [k1_pay25, sigv, shapeCast_same]
theorem pay26_eq (v : Vec F S16 .f32) : k1_pay26 v = sigv v := by simp only [k1_pay26, sigv, shapeCast_same]
theorem pay27_eq (v : Vec F S16 .f32) : k1_pay27 v = sigv v := by simp only [k1_pay27, sigv, shapeCast_same]
theorem pay28_eq (v : Vec F S16 .f32) : k1_pay28 v = sigv v := by simp only [k1_pay28, sigv, shapeCast_same]
theorem pay32_eq (v : Vec F S16 .f32) : k1_pay32 v = sigv v := by simp only [k1_pay32, sigv, shapeCast_same]
theorem pay33_eq (v : Vec F S16 .f32) : k1_pay33 v = sigv v := by simp only [k1_pay33, sigv, shapeCast_same]
theorem pay36_eq (v : Vec F S16 .f32) : k1_pay36 v = sigv v := by simp only [k1_pay36, sigv, shapeCast_same]
theorem pay37_eq (v : Vec F S16 .f32) : k1_pay37 v = sigv v := by simp only [k1_pay37, sigv, shapeCast_same]
theorem pay38_eq (v : Vec F S16 .f32) : k1_pay38 v = sigv v := by simp only [k1_pay38, sigv, shapeCast_same]
theorem pay39_eq (v : Vec F S16 .f32) : k1_pay39 v = sigv v := by simp only [k1_pay39, sigv, shapeCast_same]
theorem pay40_eq (v : Vec F S16 .f32) : k1_pay40 v = sigv v := by simp only [k1_pay40, sigv, shapeCast_same]
theorem pay41_eq (v : Vec F S16 .f32) : k1_pay41 v = sigv v := by simp only [k1_pay41, sigv, shapeCast_same]
theorem pay5_eq (v : Vec F S16 .f32) : k1_pay5 (k1_pay3 v) (k1_pay4 (F := F)) = sigv v := by simp only [k1_pay5, k1_pay3, k1_pay4, sigv, shapeCast_same]
theorem pay18_eq (v : Vec F S16 .f32) : k1_pay18 (k1_pay16 v) (k1_pay17 (F := F)) = sigv v := by simp only [k1_pay18, k1_pay16, k1_pay17, sigv, shapeCast_same]
theorem pay31_eq (v : Vec F S16 .f32) : k1_pay31 (k1_pay29 v) (k1_pay30 (F := F)) = sigv v := by simp only [k1_pay31, k1_pay29, k1_pay30, sigv, shapeCast_same]
theorem pay9_eq (v : Vec F S16 .f32) (cst : F .f32) (hc : cst = Scalar.ofBits .f32 0x3F800000#32) : k1_pay9 (k1_pay8 v) cst = sigv v := by subst hc; simp only [k1_pay9, k1_pay8, sigv, shapeCast_same]
theorem pay22_eq (v : Vec F S16 .f32) (cst : F .f32) (hc : cst = Scalar.ofBits .f32 0x3F800000#32) : k1_pay22 (k1_pay21 v) cst = sigv v := by subst hc; simp only [k1_pay22, k1_pay21, sigv, shapeCast_same]
theorem pay35_eq (v : Vec F S16 .f32) (cst : F .f32) (hc : cst = Scalar.ofBits .f32 0x3F800000#32) : k1_pay35 (k1_pay34 v) cst = sigv v := by subst hc; simp only [k1_pay35, k1_pay34, sigv, shapeCast_same]

variable (m : (ℓ : Loc nD τ sig) → Buf (Elt F) ℓ)

/-- Every row number is below the table's row count: an item number between 1 and 1000000, less one. -/
theorem idx_lt (hpre : PreOK m) (j : S16384.Idx) : ((idxV m d : IVec S16384 32) j).toNat < 1000000 := by
  have h := hpre d j
  have key : ∀ a : BitVec 32, 1 ≤ a.toNat → a.toNat ≤ 1000000 → (IntOp.subi a 1#32).toNat < 1000000 := by
    intro a h1 h2
    simp only [IntOp.subi, BitVec.toNat_sub, BitVec.toNat_ofNat]
    omega
  simp only [idxV, subi, broadcastInDim, constantI]
  exact key _ h.1 h.2

/-- The offsets the stream reads are in range: what the fetch landed in the list's scratch is the task's block of the
    row numbers. -/
theorem inb_of_pre (hpre : PreOK m) (fs : Buf (Elt F) ((V d (cV L) (jV L)).loc cc1_scratch0)) (pay : S512.Idx → Elt F .i32)
    (hpay : pay = (iRowK L).view.read (Elt F) (idxV m d)) :
    ∀ x, ((sV).view.read (Elt F) (View.write (Elt F) (sV).view fs pay Finset.univ) x).toNat < S1000000.size gathers_S1000000_S512.axis := by
  subst hpay; intro x
  rw [View.write_whole_univ]
  simp only [Memref.view_whole, View.read_whole]
  rw [show ∀ j, (iRowK L).view.read (Elt F) (idxV m d) j = idxV m d ((iRowK L).view.emb j) from fun j => (View.read_apply _ _).trans (cast_eq _ _)]
  exact idx_lt d m hpre _

/-- The gathered scores: entry `k` of the row buffer is the score array at the row the list's entry `k` names. -/
def gathered (hpre : PreOK m) (f4 : Buf (Elt F) (xLoc d)) (fs : Buf (Elt F) ((V d (cV L) (jV L)).loc cc1_scratch0)) : S512.Idx → Elt F .f32 :=
  SparseCore.gatherPayload gathers_S1000000_S512 (View.read (Elt F) (xAllK).view f4)
    (SparseCore.rows (View.read (Elt F) (sV).view (View.write (Elt F) (sV).view fs ((iRowK L).view.read (Elt F) (idxV m d)) Finset.univ))
      rfl (inb_of_pre d L m hpre fs _ rfl))

/-- The whole score array's index under a gathered entry is the row its list entry names. -/
theorem emb_gather_idx (r : Fin (S512.size gathers_S1000000_S512.axis') → Fin (S1000000.size gathers_S1000000_S512.axis)) (y : S512.Idx) :
    (xAllK).view.emb (gathers_S1000000_S512.idx r y) = ValueIdx.ix1 (r (y 0)) := by
  funext a
  match a with
  | ⟨0, _⟩ =>
    apply Fin.ext
    have e := congrArg Fin.val (Shape.Gathers.idx_axis gathers_S1000000_S512 r y)
    show 0 + 1 * ((gathers_S1000000_S512.idx r y) gathers_S1000000_S512.axis).val = (r (y gathers_S1000000_S512.axis')).val
    rw [e, Nat.one_mul, Nat.zero_add]

/-- Entry `k` of a rank-one shape in row-major order is index `k`. -/
theorem rowMajor_symm_val (k : Fin S512.numel) : ((S512.rowMajor.symm k) 0).val = k.val := by
  have h := Shape.rowMajor_val_one (d := ![512]) (S512.rowMajor.symm k)
  rw [Equiv.apply_symm_apply] at h
  exact h.symm

/-- Entry `k` of the gathered scores, in the arrays' own indices. -/
theorem gathered_apply (w : Fin 32) (hw : w.val = 2 * (L 1).val + (L 0).val) (hpre : PreOK m) (f4 : Buf (Elt F) (xLoc d))
    (fs : Buf (Elt F) ((V d (cV L) (jV L)).loc cc1_scratch0)) (k : Fin 512) :
    gathered d L m hpre f4 fs (ValueIdx.ix1 k)
      = (f4 : FVec F S1000000 .f32) (ValueIdx.ix1 ⟨((idxV m d : IVec S16384 32) (ValueIdx.ix1 ⟨w.val * 512 + k.val, by omega⟩)).toNat, idx_lt d m hpre _⟩) := by
  unfold gathered SparseCore.gatherPayload
  rw [View.read_apply, cast_eq, emb_gather_idx]
  congr 2
  apply Fin.ext
  unfold SparseCore.rows
  show ((View.read (Elt F) (sV).view (View.write (Elt F) (sV).view fs ((iRowK L).view.read (Elt F) (idxV m d)) Finset.univ))
      (S512.rowMajor.symm (Fin.cast _ k))).toNat = _
  rw [View.write_whole_univ]
  simp only [Memref.view_whole, View.read_whole]
  rw [View.read_apply, cast_eq]
  congr 2
  funext a
  match a with
  | ⟨0, _⟩ =>
    apply Fin.ext
    have hz := rowMajor_symm_val (Fin.cast (by rfl) k)
    show (k1_off1 L) 0 + 1 * ((S512.rowMajor.symm (Fin.cast _ k)) 0).val = w.val * 512 + k.val
    rw [k1_off1_eq, hz]
    show (1024 * (L 1).val + 512 * (L 0).val) + 1 * k.val = w.val * 512 + k.val
    omega

/-- The rating of every entry of a 512-entry buffer, sixteen lanes at a time. -/
def rate (G : S512.Idx → Elt F .f32) : S512.Idx → Elt F .f32 := fun y =>
  sigv (fun l' : S16.Idx => G (ValueIdx.ix1 ⟨(y 0).val / 16 * 16 + (l' 0).val, by
      have h1 : (y 0).val < 512 := (y 0).isLt; have h2 : (l' 0).val < 16 := (l' 0).isLt; omega⟩))
    (ValueIdx.ix1 ⟨(y 0).val % 16, Nat.mod_lt _ (by decide)⟩)

/-- A group's rating, stored through its sixteen-lane rectangle, is `rate` at the rectangle's elements. -/
theorem piece_rate (G : S512.Idx → Elt F .f32) (fr : Buf (Elt F) ((V d (cV L) (jV L)).loc cc1_scratch1)) (c : ℕ) (hc : c % 16 = 0)
    (inb : ∀ a, (![c] : Fin 1 → ℕ) a + S16.size a ≤ S512.size a)
    (v : Vec F S16 .f32) (hv : v = View.readAt (Elt F) (rV).view (Rect.unit (s := S512) ![c] S16.size inb).toLoadRect (View.write (Elt F) (rV).view fr G Finset.univ))
    (x : (Rect.unit (s := S512) ![c] S16.size inb).shape.Idx) :
    sigv v x = rate G ((Rect.unit (s := S512) ![c] S16.size inb).emb x) := by
  subst hv
  have hx : (x 0).val < 16 := (x 0).isLt
  have hcb : c + 16 ≤ 512 := inb 0
  have e0 : (((Rect.unit (s := S512) ![c] S16.size inb).emb x) 0).val = c + (x 0).val := by
    show c + 1 * (x 0).val = _; omega
  rw [View.write_whole_univ]
  have hA : View.readAt (Elt F) (rV).view (Rect.unit (s := S512) ![c] S16.size inb).toLoadRect G
      = fun l' : S16.Idx => G (ValueIdx.ix1 ⟨(((Rect.unit (s := S512) ![c] S16.size inb).emb x) 0).val / 16 * 16 + (l' 0).val, by
          have h2 : (l' 0).val < 16 := (l' 0).isLt; omega⟩) := by
    funext l'
    have h2 : (l' 0).val < 16 := (l' 0).isLt
    rw [View.readAt_apply]
    simp only [Memref.view_whole, View.read_whole]
    congr 1
    funext a
    match a with
    | ⟨0, _⟩ =>
      apply Fin.ext
      show c + 1 * (l' 0).val = (((Rect.unit (s := S512) ![c] S16.size inb).emb x) 0).val / 16 * 16 + (l' 0).val
      rw [e0]; omega
  have hX : (x : S16.Idx) = ValueIdx.ix1 ⟨(((Rect.unit (s := S512) ![c] S16.size inb).emb x) 0).val % 16, Nat.mod_lt _ (by decide)⟩ := by
    funext a
    match a with
    | ⟨0, _⟩ =>
      apply Fin.ext
      show (x 0).val = (((Rect.unit (s := S512) ![c] S16.size inb).emb x) 0).val % 16
      rw [e0]; omega
  unfold rate
  rw [hA]
  exact congrArg _ hX

/-- Entry `g * 16 + l'` of the gathered scores is the score at the task's row number `w * 512 + g * 16 + l'`. -/
theorem gathered_group (w : Fin 32) (hw : w.val = 2 * (L 1).val + (L 0).val) (hpre : PreOK m) (f4 : Buf (Elt F) (xLoc d))
    (fs : Buf (Elt F) ((V d (cV L) (jV L)).loc cc1_scratch0)) (g : Fin 32) (l' : S16.Idx) :
    gathered d L m hpre f4 fs (ValueIdx.ix1 ⟨g.val * 16 + (l' 0).val, by have h : (l' 0).val < 16 := (l' 0).isLt; omega⟩)
      = (f4 : FVec F S1000000 .f32) (ValueIdx.ix1 ⟨min ((idxV m d : IVec S16384 32) (ValueIdx.ix1 ⟨w.val * 512 + g.val * 16 + (l' 0).val, by have h : (l' 0).val < 16 := (l' 0).isLt; omega⟩)).toNat 999999, by omega⟩) := by
  have h : (l' 0).val < 16 := (l' 0).isLt
  rw [gathered_apply d L m w hw hpre f4 fs]
  congr 2
  apply Fin.ext
  have hlt := idx_lt d m hpre (ValueIdx.ix1 ⟨w.val * 512 + g.val * 16 + (l' 0).val, by omega⟩)
  show ((idxV m d : IVec S16384 32) (ValueIdx.ix1 ⟨w.val * 512 + (g.val * 16 + (l' 0).val), _⟩)).toNat
    = min ((idxV m d : IVec S16384 32) (ValueIdx.ix1 ⟨w.val * 512 + g.val * 16 + (l' 0).val, _⟩)).toNat 999999
  rw [Nat.min_eq_left (by omega)]
  congr 3
  apply Fin.ext
  show w.val * 512 + (g.val * 16 + (l' 0).val) = w.val * 512 + g.val * 16 + (l' 0).val
  omega

/-- What the write-out leaves in the task's block of the result: the ratings of the gathered scores. -/
theorem tileOK_of (w : Fin 32) (hw : w.val = 2 * (L 1).val + (L 0).val) (hpre : PreOK m) (f4 : Buf (Elt F) (xLoc d)) (hf4 : ScoreOK m d f4)
    (fs : Buf (Elt F) ((V d (cV L) (jV L)).loc cc1_scratch0)) (f5 : Buf (Elt F) (oLoc d)) (pay : S512.Idx → Elt F .f32)
    (hpay : pay = rate (gathered d L m hpre f4 fs)) :
    TileOK m d w ((oRowK L).view.writes (Elt F) f5 [⟨Rect.whole S512, pay⟩]) := by
  subst hpay
  refine ⟨f4, hf4, fun g l => ?_⟩
  have hg : g.val < 32 := g.isLt
  have hl : l.val < 16 := l.isLt
  have hidx : (ValueIdx.ix1 ⟨w.val * 512 + g.val * 16 + l.val, by omega⟩ : S16384.Idx)
      = (oRowK L).view.emb ((Rect.whole S512).emb (ValueIdx.ix1 ⟨g.val * 16 + l.val, by omega⟩)) := by
    funext a
    match a with
    | ⟨0, _⟩ =>
      apply Fin.ext
      show w.val * 512 + g.val * 16 + l.val = (k1_off1 L) 0 + 1 * (0 + 1 * (g.val * 16 + l.val))
      rw [k1_off1_eq]
      show w.val * 512 + g.val * 16 + l.val = (1024 * (L 1).val + 512 * (L 0).val) + 1 * (0 + 1 * (g.val * 16 + l.val))
      omega
  have hread := View.read_writes_cons_emb (oRowK L).view f5 (Rect.whole S512) (rate (gathered d L m hpre f4 fs)) []
    (ValueIdx.ix1 ⟨g.val * 16 + l.val, by omega⟩)
  rw [View.read_apply, cast_eq] at hread
  rw [hidx, hread]
  unfold rate
  have hA : (fun l' : S16.Idx => gathered d L m hpre f4 fs (ValueIdx.ix1 ⟨((ValueIdx.ix1 (⟨g.val * 16 + l.val, by omega⟩ : Fin 512) : S512.Idx) 0).val / 16 * 16 + (l' 0).val, by
        have h2 : (l' 0).val < 16 := (l' 0).isLt
        show (g.val * 16 + l.val) / 16 * 16 + (l' 0).val < 512
        omega⟩))
      = fun l' : S16.Idx => (f4 : FVec F S1000000 .f32) (ValueIdx.ix1 ⟨min ((idxV m d : IVec S16384 32) (ValueIdx.ix1 ⟨w.val * 512 + g.val * 16 + (l' 0).val, by have h : (l' 0).val < 16 := (l' 0).isLt; omega⟩)).toNat 999999, by omega⟩) := by
    funext l'
    have h2 : (l' 0).val < 16 := (l' 0).isLt
    rw [← gathered_group d L m w hw hpre f4 fs g l']
    congr 2
    apply Fin.ext
    show (g.val * 16 + l.val) / 16 * 16 + (l' 0).val = g.val * 16 + (l' 0).val
    omega
  have hX : (ValueIdx.ix1 ⟨((ValueIdx.ix1 (⟨g.val * 16 + l.val, by omega⟩ : Fin 512) : S512.Idx) 0).val % 16, Nat.mod_lt _ (by decide)⟩ : S16.Idx) = ValueIdx.ix1 l := by
    congr 1
    apply Fin.ext
    show (g.val * 16 + l.val) % 16 = l.val
    omega
  rw [hA, hX]

/-! ## The task's body -/

set_option maxRecDepth 16384 in
set_option maxHeartbeats 8000000 in
/-- The task on vector subcore `(L 0, L 1)` of device `d`, block `w = 2 * subcore + core`: the row numbers' fetch and its
    wait, the gather of the scores at them and its wait, thirty-two groups of sixteen lanes loaded, rated and stored back,
    the write-out and its wait. It leaves in its block of the result the ratings of the scores gathered at its row numbers. -/
theorem tile_body (w : Fin 32) (hw : w.val = 2 * (L 1).val + (L 0).val) (hF : (K (F := F)).Facts) (hpre : PreOK m)
    (O : CellTallies nD τ sig (HIx 1)) (W : Waits sig (HIx 1)) (hO : ∀ g, O g none = 0) :
    iprop(levAts (K (F := F)).L (K (F := F)).lev ∗ emp
        ∗ goOf m d (m (oLoc d)) w
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_select_k L iV (Memref.isWhole_whole _) xV (Memref.isWhole_whole _) oV (Memref.isWhole_whole _)
            sV (Memref.isWhole_whole _) rV (Memref.isWhole_whole _) cc1_scratch2 cc1_scoped0 cc1_scoped1)
          fun _ => iprop(tdOf m d w
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_select_k_eq_skeleton]; unfold cc1_select_k_skel
  rw [(K (F := F)).scopedBufs_V hF d (cV L) (jV L), SparseCore.Cfg.scopedSems0_V (Val := Elt F) d (cV L) (jV L), ownSems0_V, ownBufs_V]
  unfold goOf
  iintro ⟨#Hlv, -, ⟨Hi, ⟨%f4, Hx, %hf4⟩, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L w hw _).symm) $$ Hi
  ihave Ho' := (Entails.of_eq (pts_oRowK (F := F) d L w hw _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather, by the stream's rule: a share of the score array's elements, the row buffer, the list's buffer whole and
  -- the cell at zero go in; the list's words are in range by the precondition
  ihave Hxs := (pointsTo_split_subset (q := xq w) (f := f4) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L m) Finset.univ : sProp 𝕄)
      = (sV).view.loc (V d (cV L) (jV L)) ↦[(sV).view.set]{fullShare} View.write (Elt F) (sV).view fs (tile_body.sl.dma0 d L m) Finset.univ
      by rw [hss])) $$ Hs'
  iapply (SparseCore.wp_indirectGatherLocal countersEmb 𝒱₀ (V d (cV L) (jV L)) none (hg := gathers_S1000000_S512) (default : HIx 1)
      (rV).view.dmaCredit (SparseCore.sum_rowCredit_eq_dmaCredit rV _ (fun _ => rfl)) (by decide) (inb_of_pre d L m hpre fs _ rfl)) $$ [Hxs Hr'' Hs'' HsemG]
  · isplitl [Hxs]; · iexact Hxs
    isplitl [Hr'']; · iexact Hr''
    isplitl [Hs'']; · iexact Hs''
    iexact HsemG
  iintro Hfl
  sl_exec
  -- its wait: the row buffer written with the gathered scores, the share of the score array and the list's buffer back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemG, HO⟩
  ihave Hx' := (pointsTo_split_subset (q := xq w) (f := f4) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  -- the value: the thirty-two stores tile the row buffer, each the rating of the gathered scores under it
  have hval : tile_body.sl.dma96 d L m hpre f4 fs fr = rate (gathered d L m hpre f4 fs) := by
    have hcov := View.cover_of_tiled (tile_body.sl.Hr3_32 d L m hpre f4 fs fr) (fun _ => 16) rfl
    have hpc : ∀ p ∈ tile_body.sl.Hr3_32 d L m hpre f4 fs fr, ∀ x : p.1.shape.Idx,
        p.2 x = rate (gathered d L m hpre f4 fs) (p.1.emb x) := by
      unfold tile_body.sl.Hr3_32
      refine List.forall_mem_cons.mpr ⟨fun x => (congrFun (pay41_eq (tile_body.sl.v377 d L m hpre f4 fs fr)) x).trans
        (piece_rate d L (gathered d L m hpre f4 fs) fr 496 (by decide) inb_S512_S16_496 _ rfl x), ?_⟩
      refine List.forall_mem_cons.mpr ⟨fun x => (congrFun (pay40_eq (tile_body.sl.v365 d L m hpre f4 fs fr)) x).trans
        (piece_rate d L (gathered d L m hpre f4 fs) fr 480 (by decide) inb_S512_S16_480 _ rfl x), ?_⟩
      refine List.forall_mem_cons.mpr ⟨fun x => (congrFun (pay39_eq (tile_body.sl.v353 d L m hpre f4 fs fr)) x).trans
        (piece_rate d L (gathered d L m hpre f4 fs) fr 464 (by decide) inb_S512_S16_464 _ rfl x), ?_⟩
      refine List.forall_mem_cons.mpr ⟨fun x => (congrFun (pay38_eq (tile_body.sl.v341 d L m hpre f4 fs fr)) x).trans
        (piece_rate d L (gathered d L m hpre f4 fs) fr 448 (by decide) inb_S512_S16_448 _ rfl x), ?_⟩
      refine List.forall_mem_cons.mpr ⟨fun x => (congrFun (pay37_eq (tile_body.sl.v329 d L m hpre f4 fs fr)) x).trans
        (piece_rate d L (gathered d L m hpre f4 fs) fr 432 (by decide) inb_S512_S16_432 _ rfl x), ?_⟩
      refine List.forall_mem_cons.mpr ⟨fun x => (congrFun (pay36_eq (tile_body.sl.v317 d L m hpre f4 fs fr)) x).trans
        (piece_rate d L (gathered d L m hpre f4 fs) fr 416 (by decide) inb_S512_S16_416 _ rfl x), ?_⟩
      refine List.forall_mem_cons.mpr ⟨fun x => (congrFun (pay35_eq (tile_body.sl.v305 d L m hpre f4 fs fr) _ rfl) x).trans
        (piece_rate d L (gathered d L m hpre f4 fs) fr 400 (by decide) inb_S512_S16_400 _ rfl x), ?_⟩
      refine List.forall_mem_cons.mpr ⟨fun x => (congrFun (pay33_eq (tile_body.sl.v293 d L m hpre f4 fs fr)) x).trans
        (piece_rate d L (gathered d L m hpre f4 fs) fr 384 (by decide) inb_S512_S16_384 _ rfl x), ?_⟩
      refine List.forall_mem_cons.mpr ⟨fun x => (congrFun (pay32_eq (tile_body.sl.v281 d L m hpre f4 fs fr)) x).trans
        (piece_rate d L (gathered d L m hpre f4 fs) fr 368 (by decide) inb_S512_S16_368 _ rfl x), ?_⟩
      refine List.forall_mem_cons.mpr ⟨fun x => (congrFun (pay31_eq (tile_body.sl.v269 d L m hpre f4 fs fr)) x).trans
        (piece_rate d L (gathered d L m hpre f4 fs) fr 352 (by decide) inb_S512_S16_352 _ rfl x), ?_⟩
      refine List.forall_mem_cons.mpr ⟨fun x => (congrFun (pay28_eq (tile_body.sl.v257 d L m hpre f4 fs fr)) x).trans
        (piece_rate d L (gathered d L m hpre f4 fs) fr 336 (by decide) inb_S512_S16_336 _ rfl x), ?_⟩
      refine List.forall_mem_cons.mpr ⟨fun x => (congrFun (pay27_eq (tile_body.sl.v245 d L m hpre f4 fs fr)) x).trans
        (piece_rate d L (gathered d L m hpre f4 fs) fr 320 (by decide) inb_S512_S16_320 _ rfl x), ?_⟩
      refine List.forall_mem_cons.mpr ⟨fun x => (congrFun (pay26_eq (tile_body.sl.v233 d L m hpre f4 fs fr)) x).trans
        (piece_rate d L (gathered d L m hpre f4 fs) fr 304 (by decide) inb_S512_S16_304 _ rfl x), ?_⟩
      refine List.forall_mem_cons.mpr ⟨fun x => (congrFun (pay25_eq (tile_body.sl.v221 d L m hpre f4 fs fr)) x).trans
        (piece_rate d L (gathered d L m hpre f4 fs) fr 288 (by decide) inb_S512_S16_288 _ rfl x), ?_⟩
      refine List.forall_mem_cons.mpr ⟨fun x => (congrFun (pay24_eq (tile_body.sl.v209 d L m hpre f4 fs fr)) x).trans
        (piece_rate d L (gathered d L m hpre f4 fs) fr 272 (by decide) inb_S512_S16_272 _ rfl x), ?_⟩
      refine List.forall_mem_cons.mpr ⟨fun x => (congrFun (pay23_eq (tile_body.sl.v197 d L m hpre f4 fs fr)) x).trans
        (piece_rate d L (gathered d L m hpre f4 fs) fr 256 (by decide) inb_S512_S16_256 _ rfl x), ?_⟩
      refine List.forall_mem_cons.mpr ⟨fun x => (congrFun (pay22_eq (tile_body.sl.v185 d L m hpre f4 fs fr) _ rfl) x).trans
        (piece_rate d L (gathered d L m hpre f4 fs) fr 240 (by decide) inb_S512_S16_240 _ rfl x), ?_⟩
      refine List.forall_mem_cons.mpr ⟨fun x => (congrFun (pay20_eq (tile_body.sl.v173 d L m hpre f4 fs fr)) x).trans
        (piece_rate d L (gathered d L m hpre f4 fs) fr 224 (by decide) inb_S512_S16_224 _ rfl x), ?_⟩
      refine List.forall_mem_cons.mpr ⟨fun x => (congrFun (pay19_eq (tile_body.sl.v161 d L m hpre f4 fs fr)) x).trans
        (piece_rate d L (gathered d L m hpre f4 fs) fr 208 (by decide) inb_S512_S16_208 _ rfl x), ?_⟩
      refine List.forall_mem_cons.mpr ⟨fun x => (congrFun (pay18_eq (tile_body.sl.v149 d L m hpre f4 fs fr)) x).trans
        (piece_rate d L (gathered d L m hpre f4 fs) fr 192 (by decide) inb_S512_S16_192 _ rfl x), ?_⟩
      refine List.forall_mem_cons.mpr ⟨fun x => (congrFun (pay15_eq (tile_body.sl.v137 d L m hpre f4 fs fr)) x).trans
        (piece_rate d L (gathered d L m hpre f4 fs) fr 176 (by decide) inb_S512_S16_176 _ rfl x), ?_⟩
      refine List.forall_mem_cons.mpr ⟨fun x => (congrFun (pay14_eq (tile_body.sl.v125 d L m hpre f4 fs fr)) x).trans
        (piece_rate d L (gathered d L m hpre f4 fs) fr 160 (by decide) inb_S512_S16_160 _ rfl x), ?_⟩
      refine List.forall_mem_cons.mpr ⟨fun x => (congrFun (pay13_eq (tile_body.sl.v113 d L m hpre f4 fs fr)) x).trans
        (piece_rate d L (gathered d L m hpre f4 fs) fr 144 (by decide) inb_S512_S16_144 _ rfl x), ?_⟩
      refine List.forall_mem_cons.mpr ⟨fun x => (congrFun (pay12_eq (tile_body.sl.v101 d L m hpre f4 fs fr)) x).trans
        (piece_rate d L (gathered d L m hpre f4 fs) fr 128 (by decide) inb_S512_S16_128 _ rfl x), ?_⟩
      refine List.forall_mem_cons.mpr ⟨fun x => (congrFun (pay11_eq (tile_body.sl.v89 d L m hpre f4 fs fr)) x).trans
        (piece_rate d L (gathered d L m hpre f4 fs) fr 112 (by decide) inb_S512_S16_112 _ rfl x), ?_⟩
      refine List.forall_mem_cons.mpr ⟨fun x => (congrFun (pay10_eq (tile_body.sl.v77 d L m hpre f4 fs fr)) x).trans
        (piece_rate d L (gathered d L m hpre f4 fs) fr 96 (by decide) inb_S512_S16_96 _ rfl x), ?_⟩
      refine List.forall_mem_cons.mpr ⟨fun x => (congrFun (pay9_eq (tile_body.sl.v65 d L m hpre f4 fs fr) _ rfl) x).trans
        (piece_rate d L (gathered d L m hpre f4 fs) fr 80 (by decide) inb_S512_S16_80 _ rfl x), ?_⟩
      refine List.forall_mem_cons.mpr ⟨fun x => (congrFun (pay7_eq (tile_body.sl.v53 d L m hpre f4 fs fr)) x).trans
        (piece_rate d L (gathered d L m hpre f4 fs) fr 64 (by decide) inb_S512_S16_64 _ rfl x), ?_⟩
      refine List.forall_mem_cons.mpr ⟨fun x => (congrFun (pay6_eq (tile_body.sl.v41 d L m hpre f4 fs fr)) x).trans
        (piece_rate d L (gathered d L m hpre f4 fs) fr 48 (by decide) inb_S512_S16_48 _ rfl x), ?_⟩
      refine List.forall_mem_cons.mpr ⟨fun x => (congrFun (pay5_eq (tile_body.sl.v29 d L m hpre f4 fs fr)) x).trans
        (piece_rate d L (gathered d L m hpre f4 fs) fr 32 (by decide) inb_S512_S16_32 _ rfl x), ?_⟩
      refine List.forall_mem_cons.mpr ⟨fun x => (congrFun (pay2_eq (tile_body.sl.v17 d L m hpre f4 fs fr)) x).trans
        (piece_rate d L (gathered d L m hpre f4 fs) fr 16 (by decide) inb_S512_S16_16 _ rfl x), ?_⟩
      refine List.forall_mem_cons.mpr ⟨fun x => (congrFun (pay1_eq (tile_body.sl.v5 d L m hpre f4 fs fr)) x).trans
        (piece_rate d L (gathered d L m hpre f4 fs) fr 0 (by decide) inb_S512_S16_0 _ rfl x), ?_⟩
      exact fun _ h => absurd h List.not_mem_nil
    funext y
    exact View.read_writes_apply_of_pieces (rV).view _ (rate (gathered d L m hpre f4 fs)) _ hpc y (hcov y)
  sl_step
  isplitl [Hi' Ho']
  · unfold tdOf
    isplitl [Hi']; · iapply (Entails.of_eq (pts_iRowK (F := F) d L w hw _)); iexact Hi'
    iexists _; isplitl [Ho']
    · iapply (Entails.of_eq (pts_oRowK (F := F) d L w hw _)); iexact Ho'
    · ipureintro; exact tileOK_of d L m w hw hpre f4 hf4 fs _ _ hval
  isplitl [Hs3 Hr3 Hbufs]
  · isplitl [Hs3]; · iexists _; iexact Hs3
    isplitl [Hr3]; · iexists _; iexact Hr3
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

theorem defs₀_vector (c : Fin τ.nSC) (s : Fin τ.nSub) :
    defs₀ (F := F) (.scVector c s) 1 ()
      = SparseCore.onTile hcore1 hsub1 (fun c s => cc1_select_k (coordsV c s)
          iV (Memref.isWhole_whole _) xV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the vector-subcore kernel: every task, from what it is handed to what it hands back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m (wid (Fin.cast nCore_zero c) (Fin.cast nSub_zero i)) rfl hF hpre O W hO).trans
    (wp_mono frame _ _ fun _ => obl_post)

end Tile

end Cert.KernelIdeal.Hand

end
-- ==== Proof.KI.Split.lean ====
/-
  The launch's bookkeeping around the one SparseCore call: how the call's operands, whole, become the thirty-two tasks'
  parts (the 16384 positions cut into 32 blocks of 512; the score array's full share halved five times; the blocks dealt
  two per subcore, the SparseCore the low bit) and how the tasks' results join again into the whole result array.
-/
import proofs.«202434_g11450382811589_week1_w4_549_31_alg».proof.Proof.KI.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Regrouping: tasks, SparseCores, blocks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A block is a (SparseCore, subcore) pair: the SparseCore its low bit. -/
def widEquiv : Fin 2 × Fin 16 ≃ Fin 32 where
  toFun p := wid p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

/-- The thirty-two blocks, SparseCore by SparseCore, subcore by subcore. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

/-! ## The blocks of positions -/

theorem iRowSet_eq (w : Fin 32) : iRowSet w = (rowsOf w).set := by
  show ((View.whole (main_v1_scv : Ref sig .scVector)).slice (rowsOf w)).set = _
  rw [View.set_slice]; exact Finset.map_refl
theorem oRowSet_eq (w : Fin 32) : oRowSet w = (rowsOf w).set := by
  show ((View.whole (main_v5_scv : Ref sig .scVector)).slice (rowsOf w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint div32 h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint div32 h
theorem irows_cover : (Finset.univ : Finset (Fin 32)).biUnion iRowSet = Finset.univ :=
  (Finset.biUnion_congr rfl fun i _ => iRowSet_eq i).trans (Rect.biUnion_part div32)
theorem orows_cover : (Finset.univ : Finset (Fin 32)).biUnion oRowSet = Finset.univ :=
  (Finset.biUnion_congr rfl fun i _ => oRowSet_eq i).trans (Rect.biUnion_part div32)

/-- Position `k` lies in block `w` when `w * 512 ≤ k < w * 512 + 512`. -/
theorem mem_rowsOf (w : Fin 32) (k : ℕ) (hk : k < 16384) (h : w.val * 512 ≤ k ∧ k < w.val * 512 + 512) :
    (ValueIdx.ix1 (⟨k, hk⟩ : Fin 16384) : S16384.Idx) ∈ (rowsOf w).set := by
  refine Rect.mem_set_unit.mpr fun a => ?_
  match a with
  | ⟨0, _⟩ =>
    show w.val * (16384 / 32) ≤ k ∧ k < w.val * (16384 / 32) + 16384 / 32
    omega

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## The score array's full share is its thirty-two leaves -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

theorem xPts_shares (d : Dev nD) (f : Buf (Elt F) (xLoc d)) :
    (xLoc d ↦{fullShare} f : sProp 𝕄) = bigSep Finset.univ fun w : Fin 32 => xLoc d ↦{xq w} f :=
  pointsTo_leaves Finset.univ f 5 fullShare
variable [FloatOps F]
variable (m : (ℓ : Loc nD τ sig) → Buf (Elt F) ℓ)

/-! ## A SparseCore's operands are its sixteen tasks' -/

theorem vecSplit : (K (F := F)).VecSplit' (P m) 0 := by
  intro d c
  show (bigSep Finset.univ fun i : Fin 16 => goOf m d (m (oLoc d)) (wid (Fin.cast nCore_zero c) i)) ⊢ |={Set.univ}=> iprop(
      (bigSep Finset.univ fun i : Fin ((K (F := F)).nSub 0) => goOf m d (m (oLoc d)) (wid (Fin.cast nCore_zero c) (Fin.cast nSub_zero i)))
      ∗ ((bigSep Finset.univ fun i : Fin ((K (F := F)).nSub 0) => tdOf m d (wid (Fin.cast nCore_zero c) (Fin.cast nSub_zero i)))
          -∗ bigSep Finset.univ fun i : Fin 16 => tdOf m d (wid (Fin.cast nCore_zero c) i)))
  rw [bigSep_tasks (F := F) (fun i => goOf m d (m (oLoc d)) (wid (Fin.cast nCore_zero c) i)),
    bigSep_tasks (F := F) (fun i => tdOf m d (wid (Fin.cast nCore_zero c) i))]
  iintro H; imodintro
  isplitl [H]; · iexact H
  iintro H; iexact H

/-! ## The call's operands, whole, are the thirty-two tasks' -/

/-- A task's result is judged on its own block only. -/
theorem TileOK_congr (d : Dev nD) (w : Fin 32) (f g : Buf (Elt F) (oLoc d)) (h : ∀ i ∈ oRowSet w, g i = f i)
    (hf : TileOK m d w f) : TileOK m d w g := by
  obtain ⟨f4, h4, hv⟩ := hf
  refine ⟨f4, h4, fun gg l => ?_⟩
  refine (h _ ?_).trans (hv gg l)
  rw [oRowSet_eq]
  have hg := gg.isLt
  have hl := l.isLt
  exact mem_rowsOf w _ _ ⟨by omega, by omega⟩

theorem st_eq (d : Dev nD) : (bigSep Finset.univ fun c : Fin ((K (F := F)).nCore 0) => (P m).st 0 d c : sProp 𝕄)
    = bigSep Finset.univ fun w : Fin 32 => goOf m d (m (oLoc d)) w := by
  rw [bigSep_blocks (F := F) (fun w => goOf m d (m (oLoc d)) w)]
  exact bigSep_cores (F := F) (fun c => bigSep Finset.univ fun i : Fin 16 => goOf m d (m (oLoc d)) (wid c i))
theorem dn_eq (d : Dev nD) : (bigSep Finset.univ fun c : Fin ((K (F := F)).nCore 0) => (P m).dn 0 d c : sProp 𝕄)
    = bigSep Finset.univ fun w : Fin 32 => tdOf m d w := by
  rw [bigSep_blocks (F := F) (fun w => tdOf m d w)]
  exact bigSep_cores (F := F) (fun c => bigSep Finset.univ fun i : Fin 16 => tdOf m d (wid c i))

/-- One task's part, the admissible score array named. -/
theorem go_intro (d : Dev nD) (f4 : Buf (Elt F) (xLoc d)) (h4 : ScoreOK m d f4) (w : Fin 32) :
    iprop((iLoc d ↦[iRowSet w]{fullShare} idxV m d) ∗ (xLoc d ↦{xq w} f4) ∗ oLoc d ↦[oRowSet w]{fullShare} m (oLoc d))
      ⊢ (goOf m d (m (oLoc d)) w : sProp 𝕄) := by
  unfold goOf iRowPts xShPts oRowPts
  iintro ⟨Hi, Hx, Ho⟩
  isplitl [Hi]; · iexact Hi
  isplitl [Hx]
  · iexists f4
    isplitl [Hx]; · iexact Hx
    ipureintro; exact h4
  iexact Ho

theorem st_intro (d : Dev nD) (f4 : Buf (Elt F) (xLoc d)) (h4 : ScoreOK m d f4) :
    iprop(iPts m d ∗ (xLoc d ↦{fullShare} f4) ∗ oPts d (m (oLoc d)))
      ⊢ (bigSep Finset.univ fun c : Fin ((K (F := F)).nCore 0) => (P m).st 0 d c : sProp 𝕄) := by
  rw [st_eq]
  unfold iPts oPts
  rw [iPts_rows, xPts_shares, oPts_rows, ← bigSep_sep', ← bigSep_sep']
  exact bigSep_mono fun w _ => go_intro m d f4 h4 w

theorem td_pure_first (d : Dev nD) (w : Fin 32) (f : Buf (Elt F) (oLoc d)) :
    iprop(oRowPts d w f ∗ ⌜TileOK m d w f⌝) ⊢ (iprop(⌜TileOK m d w f⌝ ∗ oRowPts d w f) : sProp 𝕄) := by
  iintro ⟨H, %h⟩
  isplitr; · ipureintro; exact h
  iexact H

set_option maxRecDepth 4096 in
theorem oRows_join (d : Dev nD) :
    (bigSep Finset.univ fun w : Fin 32 => iprop(∃ f, oRowPts d w f ∗ ⌜TileOK m d w f⌝))
      ⊢ (iprop(∃ f5, oPts d f5 ∗ ⌜∀ w : Fin 32, TileOK m d w f5⌝) : sProp 𝕄) := by
  refine (bigSep_exists_pi Finset.univ (fun w (f : Buf (Elt F) (oLoc d)) => iprop(oRowPts d w f ∗ ⌜TileOK m d w f⌝))).trans ?_
  iintro ⟨%fs, H⟩
  have h1 : (bigSep Finset.univ fun w : Fin 32 => iprop(oRowPts d w (fs w) ∗ ⌜TileOK m d w (fs w)⌝) : sProp 𝕄)
      ⊢ iprop(⌜∀ w ∈ (Finset.univ : Finset (Fin 32)), TileOK m d w (fs w)⌝ ∗ bigSep Finset.univ fun w : Fin 32 => oRowPts d w (fs w)) :=
    (bigSep_mono fun w _ => td_pure_first m d w (fs w)).trans (bigSep_pure_sep Finset.univ (fun w => TileOK m d w (fs w)) (fun w => oRowPts d w (fs w)))
  ihave H1 := h1 $$ H
  icases H1 with ⟨%hT, Ho⟩
  have : Nonempty (Buf (Elt F) (oLoc d)) := ⟨fs 0⟩
  ihave H' := (pointsTo_biUnion_join (ℓ := oLoc d) (q := fullShare) (Val := Elt F) Finset.univ oRowSet fs (fs 0) orows_disjoint) $$ Ho
  icases H' with ⟨%g, %hg, Hg⟩
  rw [orows_cover]
  iexists g
  isplitl [Hg]; · iexact Hg
  ipureintro
  exact fun w => TileOK_congr m d w (fs w) g (fun i hi => hg w (Finset.mem_univ w) i hi) (hT w (Finset.mem_univ w))

theorem dn_elim (d : Dev nD) :
    (bigSep Finset.univ fun c : Fin ((K (F := F)).nCore 0) => (P m).dn 0 d c : sProp 𝕄)
      ⊢ iprop(iPts m d ∗ ∃ f5, oPts d f5 ∗ ⌜∀ w : Fin 32, TileOK m d w f5⌝) := by
  rw [dn_eq]
  unfold tdOf
  rw [bigSep_sep']
  unfold iPts iRowPts
  rw [iPts_rows]
  iintro ⟨Hi, Ho⟩
  isplitl [Hi]; · iexact Hi
  iapply (oRows_join m d); iexact Ho

/-! ## The launch element of the ghost state -/

/-- The handshakes' rounds at launch, the pipeline's staging cells' rounds at launch, no transfer counted. -/
def u₀ : UU :=
  (initOf (K (F := F)).hsCells (K (F := F)).hsToks,
    (initOf (Pipeline.cells (nD := nD) (τ := τ) (Pipeline.pin (pcfgs (F := F)) fun p => (cfgs p).toPCfg_adm) Gen.cellOf_inj) (Pipeline.launchToks (nD := nD) (τ := τ) (Pipeline.pin (pcfgs (F := F)) fun p => (cfgs p).toPCfg_adm) Gen.cellOf_inj), 1))

omit [FloatOps F] in
theorem bigSep_emp' {I : Type} (s : Finset I) : (bigSep s fun _ => iprop(emp)) = (iprop(emp) : sProp 𝕄) := bigSep_emp_const s

omit [FloatOps F] in
/-- One pipeline: a conjunction over the pipelines is its only member. -/
theorem bigSep_pipes (Φ : Dev nD → Fin 1 → sProp 𝕄) :
    (bigSep Finset.univ fun c : Dev nD => bigSep Finset.univ fun p : Fin 1 => Φ c p) = bigSep Finset.univ fun c : Dev nD => Φ c 0 :=
  bigSep_congr fun _ _ => bigSep_univ_of_subsingleton (0 : Fin 1)

omit [FloatOps F] in
/-- The pipeline's half of the launch element, the counters dropped. -/
theorem own_pipe_elem (x : UP) :
    (BI.own ((embR (A := UH) (B := UP × Counters)) (x, (1 : Counters))) : sProp 𝕄) ⊢ BI.own ((EP : Emb UP 𝕄) x) := by
  unfold EP
  exact (own_pair_emb (embR (A := UH) (B := UP × Counters)) x (1 : Counters)).trans sep_elim_left

theorem hu₀ : iprop(ownU (u₀ (F := F)) ∗ (P m).oxCred ∗ (K (F := F)).freeSems0)
    ⊢ |={Set.univ}=> iprop(BI.own (EH (initOf (K (F := F)).hsCells (K (F := F)).hsToks))
        ∗ (bigSep Finset.univ fun d : Dev nD =>
            iprop(Pipeline.cellsGhost (Pipeline.pin (pcfgs (F := F)) fun p => (cfgs p).toPCfg_adm) EP (0 : Fin 1) d ∗ Pipeline.toksInit (Pipeline.pin (pcfgs (F := F)) fun p => (cfgs p).toPCfg_adm) EP (0 : Fin 1) d))
        ∗ bigSep Finset.univ fun thr : Thread nD τ => bigSep Finset.univ fun q : Fin 1 => (P m).x q thr : sProp 𝕄) := by
  unfold u₀
  iintro ⟨Hu, -, -⟩
  ihave H := (ownU_pair (initOf (K (F := F)).hsCells (K (F := F)).hsToks)
    ((initOf (Pipeline.cells (nD := nD) (τ := τ) (Pipeline.pin (pcfgs (F := F)) fun p => (cfgs p).toPCfg_adm) Gen.cellOf_inj) (Pipeline.launchToks (nD := nD) (τ := τ) (Pipeline.pin (pcfgs (F := F)) fun p => (cfgs p).toPCfg_adm) Gen.cellOf_inj), (1 : Counters)) : UP × Counters)) $$ Hu
  icases H with ⟨HH, HR⟩
  ihave HP := (own_pipe_elem (F := F)
    (initOf (Pipeline.cells (nD := nD) (τ := τ) (Pipeline.pin (pcfgs (F := F)) fun p => (cfgs p).toPCfg_adm) Gen.cellOf_inj) (Pipeline.launchToks (nD := nD) (τ := τ) (Pipeline.pin (pcfgs (F := F)) fun p => (cfgs p).toPCfg_adm) Gen.cellOf_inj))) $$ HR
  imod (Pipeline.fund_ghost (Pipeline.pin (pcfgs (F := F)) fun p => (cfgs p).toPCfg_adm) EP Gen.cellOf_inj) $$ HP with ⟨Hg, Ht⟩
  imodintro
  isplitl [HH]; · iexact HH
  isplitl [Hg Ht]
  · rw [bigSep_sep', ← bigSep_pipes (F := F) (fun c p => Pipeline.cellsGhost (Pipeline.pin (pcfgs (F := F)) fun p => (cfgs p).toPCfg_adm) EP p c),
      ← bigSep_pipes (F := F) (fun c p => Pipeline.toksInit (Pipeline.pin (pcfgs (F := F)) fun p => (cfgs p).toPCfg_adm) EP p c)]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.KernelIdeal.Hand

end
-- ==== Proof.KI.PreOK.lean ====
/-
  The certificate's precondition, read back: the last conjunct of the printed predicate is the reduction by "and" of
  (n ≥ 1) and (n ≤ 1000000), both compared as signed words, over all item numbers n, and the predicate is all ones.
  So every item number, as an unsigned word, lies between 1 and 1000000.
-/
import proofs.«202434_g11450382811589_week1_w4_549_31_alg».proof.Proof.KI.Setup
import Idealize.ShloMosaic.Lib.ReduceAll

noncomputable section

namespace Cert.KernelIdeal.Hand

open Cert.KernelIdeal Cert.KernelIdeal.Gen
open Idealize.ShloMosaic

variable {F : FTy → Type} [FloatOps F]

/-- The scalar shape has one index. -/
instance subsingleton_scalar_idx : Subsingleton Cert.Pre_input_domain.S_.Idx := ⟨fun a b => funext fun d => d.elim0⟩

/-- A word that is at least 1 and at most 1000000 as a signed word is so as an unsigned one: a signed word that is at
    least 1 is nonnegative, and then it is its own unsigned value. -/
theorem range_of_cmp (v : BitVec 32)
    (e : IntOp.andi (IntOp.cmpi .sge v 1#32) (IntOp.cmpi .sle v 1000000#32) = 1#1) : 1 ≤ v.toNat ∧ v.toNat ≤ 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- The precondition, all ones on every device, gives what the proof asks of the launch memory. -/
theorem ok_of_pre [Cert.Pre_input_domain.Facts] (m : (ℓ : Loc nD τ sig) → Buf (Elt F) ℓ)
    (h : ∀ c : Dev nD, Cert.Pre_input_domain.fn (F := F) (m (a0Loc c)) (m (a1Loc c)) (m (a2Loc c)) (m (a3Loc c)) = fun _ => 1#1) :
    PreOK m := by
  intro d j
  have e := congrFun (h d) ValueIdx.ix0
  dsimp only [Cert.Pre_input_domain.fn, Cert.Pre_input_domain.fn_part1] at e
  have e2 := (IntOp.andi_eq_one.1 e).2
  have e3 := Host.reduce_andi_all _ _ _ _ _ e2 j
  exact range_of_cmp _ e3

end Cert.KernelIdeal.Hand

end
-- ==== Proof.KI.Final.lean ====
/-
  The kernel program's run with every hypothesis of the launch discharged: the pipeline's step, the task, the split of
  the call's operands and the launch element, put together.
-/
import proofs.«202434_g11450382811589_week1_w4_549_31_alg».proof.Proof.KI.Run
import proofs.«202434_g11450382811589_week1_w4_549_31_alg».proof.Proof.KI.Region
import proofs.«202434_g11450382811589_week1_w4_549_31_alg».proof.Proof.KI.Tile
import proofs.«202434_g11450382811589_week1_w4_549_31_alg».proof.Proof.KI.Split
import proofs.«202434_g11450382811589_week1_w4_549_31_alg».proof.Proof.KI.PreOK

noncomputable section

namespace Cert.KernelIdeal.Hand

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

set_option maxHeartbeats 2000000 in
theorem regionRule : RegionRule m (GG (F := F)) := by
  intro d O hO W Q
  exact region_wp m d O hO W (fun _ => .ret ⟨⟩) Q

theorem stIntro : StIntro m := fun d f4 h4 => st_intro m d f4 h4

theorem dnElim : DnElim m := fun d => dn_elim m d

theorem launchElem :
    iprop(ownU (u₀ (F := F)) ∗ (P m).oxCred ∗ (K (F := F)).freeSems0)
      ⊢ |={Set.univ}=> iprop(BI.own (EH (initOf (K (F := F)).hsCells (K (F := F)).hsToks)) ∗ (bigSep Finset.univ fun d : Dev nD => GG (F := F) d)
          ∗ bigSep Finset.univ fun thr : Thread nD τ => bigSep Finset.univ fun q : Fin 1 => (P m).x q thr : sProp 𝕄) :=
  hu₀ m

/-- Every weakly fair execution of the kernel program from a memory whose item numbers are in range terminates; the
    arguments end as launched and every block of the result at what its task leaves. -/
theorem run [∀ e, Nonempty (Elt F e)] (hpre : PreOK m) :
    θ_run (Cert.KernelIdeal.defs (F := F)) (Cert.KernelIdeal.threads (F := F)) ⟨m, fun _ => 0, ρ⟩ (QC m) :=
  run_main m ρ (GG (F := F)) (u₀ (F := F)) (regionRule m) (stIntro m) (dnElim m) (tileObl m facts hpre) (vecSplit m) (launchElem m)

end Cert.KernelIdeal.Hand

end
-- ==== Proof.KB.Setup.lean ====
/-
  The lookup kernel's program as the SparseCore launch sees it, and what the launch's handshakes carry.

  The device's TensorCore computes the score of every table row (a pipeline of 25 blocks), then starts the two
  SparseCores; each of their sixteen vector subcores takes block w = 2 * subcore + core of 512 item positions: it reads
  those 512 row numbers, gathers the scores at them, and writes 512 ratings. So a task is handed its 512 row numbers, a
  read share of the score array and its 512 entries of the result, and hands back the row numbers and the result entries.
-/
import proofs.«202434_g11450382811589_week1_w4_549_31_alg».proof.Defs
import proofs.«202434_g11450382811589_week1_w4_549_31_alg».proof.Proof.Gen.Kernel
import proofs.«202434_g11450382811589_week1_w4_549_31_alg».proof.Proof.Gen.Kernel.Skeleton
import proofs.«202434_g11450382811589_week1_w4_549_31_alg».proof.Proof.Gen.Kernel.Launch
import proofs.«202434_g11450382811589_week1_w4_549_31_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP; infer_instance

/-! ## The launch memory, the buffers, the tasks' blocks -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev iLoc (d : Dev nD) : Loc nD τ sig := (SparseCore.T d).loc main_v1
abbrev xLoc (d : Dev nD) : Loc nD τ sig := (SparseCore.T d).loc main_v4
abbrev oLoc (d : Dev nD) : Loc nD τ sig := (SparseCore.T d).loc main_v5

abbrev iV : Memref sig .scVector .hbm S16384 .i32 := Memref.whole main_v1_scv
abbrev xV : Memref sig .scVector .hbm S1000000 .f32 := Memref.whole main_v4_scv
abbrev oV : Memref sig .scVector .hbm S16384 .f32 := Memref.whole main_v5_scv
abbrev sV : Memref sig .scVector .vmem S512 .i32 := Memref.whole cc1_scratch0
abbrev rV : Memref sig .scVector .vmem S512 .f32 := Memref.whole cc1_scratch1

/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem div32 : 32 ∣ S16384.size 0 := ⟨512, rfl⟩
/-- Block `w` of 512 consecutive positions, of 32. -/
abbrev rowsOf (w : Fin 32) : Rect S16384 := Rect.part (s := S16384) (a₀ := 0) div32 w
abbrev iRowSet (w : Fin 32) : Finset S16384.Idx := ((iV).view.slice (rowsOf w)).set
abbrev oRowSet (w : Fin 32) : Finset S16384.Idx := ((oV).view.slice (rowsOf w)).set
/-- The block a task works on: two per subcore, the SparseCore the low bit. -/
def wid (c : Fin 2) (i : Fin 16) : Fin 32 := ⟨2 * i.val + c.val, by omega⟩

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩
/-- Task `w`'s read share of the score array: a thirty-second. -/
abbrev xq (w : Fin 32) : PosShare TreeShare := leaf 5 fullShare w

variable [FloatOps F]
variable (m : (ℓ : Loc nD τ sig) → Buf (Elt F) ℓ)

/-- The row numbers the SparseCores read: the item numbers less one, as @main computes them. -/
def idxV (d : Dev nD) : Buf (Elt F) (iLoc d) :=
  (subi (m (a0Loc d)) (broadcastInDim S16384 ![] Facts₀.bcast_S_S16384 (constantI S_ 32 1#32)) : IVec S16384 32)

/-- The sixteen-lane rating 1 / (1 + exp (0 - v)) as the kernel spells it. -/
def sigv (v : FVec F S16 .f32) : FVec F S16 .f32 :=
  divf (broadcast S16 (Scalar.ofBits .f32 0x3F800000#32)) (addf (broadcast S16 (Scalar.ofBits .f32 0x3F800000#32))
    (exp (subf (broadcast S16 (Scalar.ofBits .f32 0x00000000#32)) v)))

/-- What the score array may hold when the SparseCores start, entry by entry of the table's rows: the score block
    `k0_pay1` of SOME staged block of the transposed table that agrees with it on the columns inside the array (the last
    block's columns past the array's end are whatever the fetch left), the reshaped weights and the bias. -/
def ScoreOK (d : Dev nD) (f4 : Buf (Elt F) (xLoc d)) : Prop :=
  ∀ (t : Fin 25) (y : Fin 40960) (hj : t.val * 40960 + y.val < 1000000),
    ∃ blk : FVec F S64x40960 .f32,
      (∀ (k : Fin 64) (y' : Fin 40960) (hj' : t.val * 40960 + y'.val < 1000000),
        blk (ValueIdx.ix2 k y') = (m (a1Loc d) : FVec F S1000000x64 .f32) (ValueIdx.ix2 ⟨t.val * 40960 + y'.val, hj'⟩ k))
      ∧ (f4 : FVec F S1000000 .f32) (ValueIdx.ix1 ⟨t.val * 40960 + y.val, hj⟩)
          = k0_pay1 blk (shapeCast S64x1 (m (a2Loc d) : FVec F S1x64 .f32) Facts₀.shapeCasts_S1x64_S64x1)
              ((m (a3Loc d) : FVec F S1 .f32) (ValueIdx.ix1 0)) (ValueIdx.ix1 y)

/-- What a task leaves in its 512 result entries: group by group of sixteen, the rating of the scores gathered at the
    task's row numbers, for SOME admissible contents of the score array. -/
def TileOK (d : Dev nD) (w : Fin 32) (f5 : Buf (Elt F) (oLoc d)) : Prop :=
  ∃ f4 : Buf (Elt F) (xLoc d), ScoreOK m d f4 ∧
    ∀ (g : Fin 32) (l : Fin 16),
      (f5 : FVec F S16384 .f32) (ValueIdx.ix1 ⟨w.val * 512 + g.val * 16 + l.val, by omega⟩)
        = sigv (fun l' : S16.Idx => (f4 : FVec F S1000000 .f32)
            (ValueIdx.ix1 ⟨min ((idxV m d : IVec S16384 32) (ValueIdx.ix1 ⟨w.val * 512 + g.val * 16 + (l' 0).val, by have h : (l' 0).val < 16 := (l' 0).isLt; omega⟩)).toNat 999999, by omega⟩))
            (ValueIdx.ix1 l)

/-! ## What the handshakes carry -/

abbrev iPts (d : Dev nD) : sProp 𝕄 := iLoc d ↦{fullShare} idxV m d
abbrev oPts (d : Dev nD) (f : Buf (Elt F) (oLoc d)) : sProp 𝕄 := oLoc d ↦{fullShare} f
abbrev iRowPts (d : Dev nD) (w : Fin 32) : sProp 𝕄 := iLoc d ↦[iRowSet w]{fullShare} idxV m d
abbrev xShPts (d : Dev nD) (w : Fin 32) (f4 : Buf (Elt F) (xLoc d)) : sProp 𝕄 := xLoc d ↦{xq w} f4
abbrev oRowPts (d : Dev nD) (w : Fin 32) (f : Buf (Elt F) (oLoc d)) : sProp 𝕄 := oLoc d ↦[oRowSet w]{fullShare} f

/-- What one task is handed, `goOf`, and hands back, `tdOf`. `f5` is what the result array held before the call. -/
def goOf (d : Dev nD) (f5 : Buf (Elt F) (oLoc d)) (w : Fin 32) : sProp 𝕄 :=
  iprop(iRowPts m d w ∗ (∃ f4, xShPts d w f4 ∗ ⌜ScoreOK m d f4⌝) ∗ oRowPts d w f5)
def tdOf (d : Dev nD) (w : Fin 32) : sProp 𝕄 :=
  iprop(iRowPts m d w ∗ ∃ f, oRowPts d w f ∗ ⌜TileOK m d w f⌝)

/-- The one call: each SparseCore takes and brings back its sixteen tasks' parts. The result array's contents before
    the call are the launch memory's (nothing writes it earlier). -/
def P : (K (F := F)).Pay (nD := nD) (Val := Elt F) (Name := ℕ) (U := UU) where
  st := fun q d c => match q with | 0 => bigSep Finset.univ fun i : Fin 16 => goOf m d (m (oLoc d)) (wid (Fin.cast nCore_zero c) i)
  dn := fun q d c => match q with | 0 => bigSep Finset.univ fun i : Fin 16 => tdOf m d (wid (Fin.cast nCore_zero c) i)
  go := fun q d c i => match q with | 0 => goOf m d (m (oLoc d)) (wid (Fin.cast nCore_zero c) (Fin.cast nSub_zero i))
  td := fun q d c i => match q with | 0 => tdOf m d (wid (Fin.cast nCore_zero c) (Fin.cast nSub_zero i))
  x := fun _ _ => iprop(emp)

/-- What the proof asks of the launch memory: every item number is between 1 and 1000000 (the certificate's
    precondition says so), so every row number the SparseCores read names a row of the score array. -/
def PreOK : Prop := ∀ (d : Dev nD) (j : S16384.Idx), 1 ≤ ((m (a0Loc d) : IVec S16384 32) j).toNat ∧ ((m (a0Loc d) : IVec S16384 32) j).toNat ≤ 1000000

end Cert.Kernel.Hand

end
-- ==== Proof.KB.Host.lean ====
/-
  @main on the TensorCore, first stretch: the five host operations before the kernels — the constant one, its
  spread over the 16384 positions, the item numbers less one, the table transposed, the weight row as a column —
  as steps over the eleven arrays of the device held whole, and what each array holds after them.
-/
import proofs.«202434_g11450382811589_week1_w4_549_31_alg».proof.Proof.KB.Setup

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within after after_cons after_nil)

variable {F : FTy → Type}

local notation "𝕄" => MT nD τ sig (HIx 1) (Elt F) ℕ UU ℕ

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev c' : DevRef τ sig := Proc.devRef .tc (main_c : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

variable [FloatOps F]

abbrev opC : HloOp τ sig (Elt F) := StableHlo.nullary main_c (constantI S_ 32 1#32)
abbrev opB : HloOp τ sig (Elt F) := StableHlo.unary main_c main_v0 (broadcastInDim S16384 ![] Facts₀.bcast_S_S16384 : (⟨S_, .i32⟩ : BufTy).Contents (Elt F) → (⟨S16384, .i32⟩ : BufTy).Contents (Elt F))
abbrev opS : HloOp τ sig (Elt F) := StableHlo.binary main_arg0 main_v0 main_v1 (subi : (⟨S16384, .i32⟩ : BufTy).Contents (Elt F) → (⟨S16384, .i32⟩ : BufTy).Contents (Elt F) → (⟨S16384, .i32⟩ : BufTy).Contents (Elt F))
abbrev opT : HloOp τ sig (Elt F) := StableHlo.unary main_arg1 main_v2 ((transpose S64x1000000 [1, 0] · Facts₀.transposes_S1000000x64_S64x1000000_1_0) : (⟨S1000000x64, .f32⟩ : BufTy).Contents (Elt F) → (⟨S64x1000000, .f32⟩ : BufTy).Contents (Elt F))
abbrev opR : HloOp τ sig (Elt F) := StableHlo.reshape main_arg2 main_v3 rfl Facts₀.shapeCasts_S1x64_S64x1

/-- The device's eleven arrays, all unscoped. -/
abbrev S11 : Finset (DevRef τ sig) := {a0', a1', a2', a3', c', v0', v1', v2', v3', v4', v5'}

omit [FloatOps F] in
theorem held_S11 (d : Dev nD) (W : Valuation τ sig (Elt F)) :
    (held (T d) S11 W : sProp 𝕄)
      = iprop((a0Loc d ↦{fullShare} W a0') ∗ (a1Loc d ↦{fullShare} W a1') ∗ (a2Loc d ↦{fullShare} W a2') ∗ (a3Loc d ↦{fullShare} W a3')
          ∗ ((SparseCore.T d).loc main_c ↦{fullShare} W c') ∗ ((SparseCore.T d).loc main_v0 ↦{fullShare} W v0')
          ∗ (iLoc d ↦{fullShare} W v1') ∗ ((SparseCore.T d).loc main_v2 ↦{fullShare} W v2') ∗ ((SparseCore.T d).loc main_v3 ↦{fullShare} W v3')
          ∗ (xLoc d ↦{fullShare} W v4') ∗ (oLoc d ↦{fullShare} W v5')) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ (a3Loc d ↦{fullShare} W main_arg3)
          ∗ ((SparseCore.T d).loc main_c ↦{fullShare} W main_c) ∗ ((SparseCore.T d).loc main_v0 ↦{fullShare} W main_v0)
          ∗ (iLoc d ↦{fullShare} W main_v1) ∗ ((SparseCore.T d).loc main_v2 ↦{fullShare} W main_v2) ∗ ((SparseCore.T d).loc main_v3 ↦{fullShare} W main_v3)
          ∗ (xLoc d ↦{fullShare} W main_v4) ∗ (oLoc d ↦{fullShare} W main_v5)) := by
  unfold unscopedBufs
  rw [show (Finset.univ.filter fun b : Ref sig .tc => ¬ b.isScoped) = {main_arg0, main_arg1, main_arg2, main_arg3, main_c, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (m : (ℓ : Loc nD τ sig) → Buf (Elt F) ℓ)

/-- The launch valuation, and the valuation after the five operations. -/
def V0 (d : Dev nD) : Valuation τ sig (Elt F) := fun b => m (d, b)
def Vh (d : Dev nD) : Valuation τ sig (Elt F) :=
  (opR (F := F)).result ((opT (F := F)).result ((opS (F := F)).result ((opB (F := F)).result ((opC (F := F)).result (V0 m d)))))

theorem unscoped_held (d : Dev nD) : (unscopedBufs d (fun b => m ((SparseCore.T d).loc b)) : sProp 𝕄) = held (T d) S11 (V0 m d) := by
  rw [unscopedBufs_eq, held_S11]; rfl

theorem Vh_after (d : Dev nD) : Vh m d = after [opC (F := F), opB, opS, opT, opR] (V0 m d) := by
  simp only [after_cons, after_nil]; rfl

theorem Vh_a0 (d : Dev nD) : Vh m d a0' = m (a0Loc d) := by rw [Vh_after]; after_results; rfl
theorem Vh_a1 (d : Dev nD) : Vh m d a1' = m (a1Loc d) := by rw [Vh_after]; after_results; rfl
theorem Vh_a2 (d : Dev nD) : Vh m d a2' = m (a2Loc d) := by rw [Vh_after]; after_results; rfl
theorem Vh_a3 (d : Dev nD) : Vh m d a3' = m (a3Loc d) := by rw [Vh_after]; after_results; rfl
theorem Vh_v4 (d : Dev nD) : Vh m d v4' = m (xLoc d) := by rw [Vh_after]; after_results; rfl
theorem Vh_v5 (d : Dev nD) : Vh m d v5' = m (oLoc d) := by rw [Vh_after]; after_results; rfl
theorem Vh_v1 (d : Dev nD) : Vh m d v1' = idxV m d := by rw [Vh_after]; after_results; rfl
theorem Vh_v2 (d : Dev nD) :
    Vh m d v2' = (transpose S64x1000000 [1, 0] (m (a1Loc d) : FVec F S1000000x64 .f32) Facts₀.transposes_S1000000x64_S64x1000000_1_0 : FVec F S64x1000000 .f32) := by
  rw [Vh_after]; after_results; rfl
theorem Vh_v3 (d : Dev nD) :
    Vh m d v3' = (shapeCast S64x1 (m (a2Loc d) : FVec F S1x64 .f32) Facts₀.shapeCasts_S1x64_S64x1 : FVec F S64x1 .f32) := by
  rw [Vh_after]; after_results; rfl

theorem hC : (opC (F := F)).bufs ⊆ S11 := show ({c'} : Finset (DevRef τ sig)) ⊆ S11 by decide
theorem hB : (opB (F := F)).bufs ⊆ S11 := show ({c', v0'} : Finset (DevRef τ sig)) ⊆ S11 by decide
theorem hS : (opS (F := F)).bufs ⊆ S11 := show ({a0', v0', v1'} : Finset (DevRef τ sig)) ⊆ S11 by decide
theorem hT : (opT (F := F)).bufs ⊆ S11 := show ({a1', v2'} : Finset (DevRef τ sig)) ⊆ S11 by decide
theorem hR : (opR (F := F)).bufs ⊆ S11 := show ({a2', v3'} : Finset (DevRef τ sig)) ⊆ S11 by decide

end Cert.Kernel.Hand

end
-- ==== Proof.KB.Iface.lean ====
/-
  The TensorCore pipeline's step inside @main, as the rest of the proof sees it: what the step is entered with and
  what it leaves — the transposed table, the weight column and the bias untouched, the score array at SOME contents
  admissible for the launch memory (`ScoreOK`), and what the TensorCore owes unchanged, its waits in between recorded
  at the kernels' own index.
-/
import proofs.«202434_g11450382811589_week1_w4_549_31_alg».proof.Proof.KB.Setup

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

abbrev tLoc (d : Dev nD) : Loc nD τ sig := (SparseCore.T d).loc main_v2
abbrev wLoc (d : Dev nD) : Loc nD τ sig := (SparseCore.T d).loc main_v3

/-- The table transposed and the weight row as a column, as @main's host operations leave them. -/
def tblT (d : Dev nD) : Buf (Elt F) (tLoc d) :=
  (transpose S64x1000000 [1, 0] (m (a1Loc d) : FVec F S1000000x64 .f32) Facts₀.transposes_S1000000x64_S64x1000000_1_0 : FVec F S64x1000000 .f32)
def wCol (d : Dev nD) : Buf (Elt F) (wLoc d) :=
  (shapeCast S64x1 (m (a2Loc d) : FVec F S1x64 .f32) Facts₀.shapeCasts_S1x64_S64x1 : FVec F S64x1 .f32)

/-- What the pipeline's step is entered with: its four arrays whole, and what the TensorCore owes. -/
def regionPre (d : Dev nD) (O : CellTallies nD τ sig (HIx 1)) (W : Waits sig (HIx 1)) : sProp 𝕄 :=
  iprop((tLoc d ↦{fullShare} tblT m d) ∗ (wLoc d ↦{fullShare} wCol m d) ∗ (a3Loc d ↦{fullShare} m (a3Loc d))
    ∗ (xLoc d ↦{fullShare} m (xLoc d)) ∗ owes (T d) O W)

/-- What it leaves: the three inputs as they were, the score array at admissible contents, the same tallies owed. -/
def regionPost (d : Dev nD) (O : CellTallies nD τ sig (HIx 1)) (W : Waits sig (HIx 1)) : sProp 𝕄 :=
  iprop((tLoc d ↦{fullShare} tblT m d) ∗ (wLoc d ↦{fullShare} wCol m d) ∗ (a3Loc d ↦{fullShare} m (a3Loc d))
    ∗ (∃ f4 : Buf (Elt F) (xLoc d), (xLoc d ↦{fullShare} f4) ∗ ⌜ScoreOK m d f4⌝)
    ∗ ∃ W' : Waits sig (HIx 1), ⌜∀ p ∈ W', p ∈ W ∨ p.2 = none⌝ ∗ owes (T d) O W')

end Cert.Kernel.Hand

end
-- ==== Proof.KB.Main.lean ====
/-
  @main on the TensorCore: the five host operations, the pipeline's step (taken from its rule, a hypothesis here), the one
  SparseCore call, and what @main leaves the claim: the four arguments as launched and the result array at contents each
  of whose thirty-two blocks is what a task leaves (`TileOK`).
-/
import proofs.«202434_g11450382811589_week1_w4_549_31_alg».proof.Proof.KB.Host
import proofs.«202434_g11450382811589_week1_w4_549_31_alg».proof.Proof.KB.Iface

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- What @main leaves the claim. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ ∃ f5 : Buf (Elt F) (oLoc d), oPts d f5 ∗ ⌜∀ w : Fin 32, TileOK m d w f5⌝)

/-- The pipeline's step as a rule inside @main, over what it is entered with and leaves. -/
def RegionRule (GG : Dev nD → sProp 𝕄) : Prop :=
  ∀ (d : Dev nD) (O : CellTallies nD τ sig (HIx 1)) (_ : ∀ g, O g none = 0) (W : Waits sig (HIx 1)) (Q : PUnit → sProp 𝕄),
    iprop((iprop(boundary (T d) ∗ regionPost m d O W) -∗ wp frame (wpE (D (F := F)) 𝒱 (T d) none) Set.univ (.ret ⟨⟩) Q)
        ∗ boundary (T d) ∗ regionPre m d O W ∗ levAts (K (F := F)).L (K (F := F)).lev ∗ GG d)
      ⊢ wp frame (wpE (D (F := F)) 𝒱 (T d) none) Set.univ (.op (.customCall (Pipeline.entry 0) ()) fun _ => .ret ⟨⟩) Q

/-- The call's operands dealt to the two SparseCores, and their results gathered. -/
def StIntro : Prop := ∀ (d : Dev nD) (f4 : Buf (Elt F) (xLoc d)), ScoreOK m d f4 →
  iprop(iPts m d ∗ (xLoc d ↦{fullShare} f4) ∗ oPts d (m (oLoc d))) ⊢ (bigSep Finset.univ fun c : Fin ((K (F := F)).nCore 0) => (P m).st 0 d c : sProp 𝕄)
def DnElim : Prop := ∀ (d : Dev nD),
  (bigSep Finset.univ fun c : Fin ((K (F := F)).nCore 0) => (P m).dn 0 d c : sProp 𝕄) ⊢ iprop(iPts m d ∗ ∃ f5, oPts d f5 ∗ ⌜∀ w : Fin 32, TileOK m d w f5⌝)

omit [FloatOps F] in
/-- Before the call the TensorCore owes nothing at the kernels' own index. -/
theorem Otc_none (d : Dev nD) (g : GSem nD τ sig) : (K (F := F)).Otc d 0 g none = 0 := by
  unfold SparseCore.Cfg.Otc
  simp [tallyAt, Finset.sum_apply]
  constructor <;>
  · by_contra hne
    exact Option.some_ne_none _ (Pipeline.tallyAt_pos (Nat.pos_of_ne_zero hne)).2.symm

/-- The arrays after the five host operations, one by one. -/
theorem held_Vh (d : Dev nD) :
    (held (T d) S11 ((opR (F := F)).result ((opT (F := F)).result ((opS (F := F)).result ((opB (F := F)).result ((opC (F := F)).result (V0 m d)))))) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ ((SparseCore.T d).loc main_c ↦{fullShare} Vh m d c') ∗ ((SparseCore.T d).loc main_v0 ↦{fullShare} Vh m d v0')
          ∗ (iPts m d) ∗ (tLoc d ↦{fullShare} tblT m d) ∗ (wLoc d ↦{fullShare} wCol m d)
          ∗ (xLoc d ↦{fullShare} m (xLoc d)) ∗ (oPts d (m (oLoc d)))) := by
  show held (SparseCore.T d) S11 (Vh m d) = _
  rw [held_S11, Vh_a0, Vh_a1, Vh_a2, Vh_a3, Vh_v1, Vh_v2, Vh_v3, Vh_v4, Vh_v5]
  rfl

/-- The TensorCore's state before call `n`, its tallies and recorded waits apart from the rest. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_open (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

theorem hmain (GG : Dev nD → sProp 𝕄) (hreg : RegionRule m GG) (hst : StIntro m) (hdn : DnElim m) (κ : GSem nD τ sig → ℕ) (d : Dev nD) :
    iprop((K (F := F)).ctx EH (P m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hgg⟩
  iapply (wp_hlo_within 𝒱 (SparseCore.T d) none Set.univ (op := opC) (S := S11) hC (V := V0 m d)) $$ [Hb Hheld]
  · isplitl [Hb] <;> iassumption
  iintro ⟨Hb, Hheld⟩
  rw [wp_ret]; imodintro
  iapply (wp_hlo_within 𝒱 (SparseCore.T d) none Set.univ (op := opB) (S := S11) hB (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opS) (S := S11) hS (V := (opB (F := F)).result ((opC (F := F)).result (V0 m d)))) $$ [Hb Hheld]
  · isplitl [Hb] <;> iassumption
  iintro ⟨Hb, Hheld⟩
  rw [wp_ret]; imodintro
  iapply (wp_hlo_within 𝒱 (SparseCore.T d) none Set.univ (op := opT) (S := S11) hT (V := (opS (F := F)).result ((opB (F := F)).result ((opC (F := F)).result (V0 m d))))) $$ [Hb Hheld]
  · isplitl [Hb] <;> iassumption
  iintro ⟨Hb, Hheld⟩
  rw [wp_ret]; imodintro
  iapply (wp_hlo_within 𝒱 (SparseCore.T d) none Set.univ (op := opR) (S := S11) hR (V := (opT (F := F)).result ((opS (F := F)).result ((opB (F := F)).result ((opC (F := F)).result (V0 m d)))))) $$ [Hb Hheld]
  · isplitl [Hb] <;> iassumption
  iintro ⟨Hb, Hheld⟩
  rw [wp_ret]; imodintro
  ihave Hh := (Entails.of_eq (held_Vh (F := F) m d)) $$ Hheld
  icases Hh with ⟨Ha0, Ha1, Ha2, Ha3, Hc, Hv0, Hi, Ht, Hw, Hx, Ho⟩
  -- what the TensorCore owes, out of its state
  ihave Hst' := (Entails.of_eq (tcSt_open (F := F) d 0)) $$ Hst
  icases Hst' with ⟨⟨%W, %hW, HO⟩, Hrest⟩
  ihave Hlev := (SparseCore.Cfg.ctx_levAts κ) $$ Hctx
  -- the pipeline's step, a program of the kernels' own table
  rw [show (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) from rfl]
  iapply ((K (F := F)).wp_liftProg (D (F := F)) 𝒱 (SparseCore.T d) Set.univ none _ _)
  iapply (hreg d ((K (F := F)).Otc d 0) (Otc_none d) W _)
  isplitr [Hb Ht Hw Ha3 Hx HO Hlev Hgg]
  swap
  · isplitl [Hb]; · iexact Hb
    isplitl [Ht Hw Ha3 Hx HO]
    · unfold regionPre
      isplitl [Ht]; · iexact Ht
      isplitl [Hw]; · iexact Hw
      isplitl [Ha3]; · iexact Ha3
      isplitl [Hx]; · iexact Hx
      iexact HO
    isplitl [Hlev]; · iexact Hlev
    iexact Hgg
  iintro ⟨Hb, Hpost⟩
  rw [wp_ret]; imodintro
  unfold regionPost
  icases Hpost with ⟨Ht, Hw, Ha3, ⟨%f4, Hx, %h4⟩, ⟨%W', %hW', HO⟩⟩
  -- the call: the row numbers, the score array and the result array to the two SparseCores and back
  iapply ((K (F := F)).wp_run (D (F := F)) 𝒱 (EH := EH) (P := P m) κ d 0) $$ [HO Hrest Hi Hx Ho Ha0 Ha1 Ha2 Ha3]
  isplitr; · iexact Hctx
  isplitl [HO Hrest]
  · iapply (Entails.of_eq (tcSt_open (F := F) d 0).symm)
    isplitl [HO]
    · iexists W'; isplitr
      · ipureintro
        intro p hp
        rcases hW' p hp with h | h
        · exact hW p h
        · rw [h]; exact Nat.zero_le _
      · iexact HO
    · iexact Hrest
  isplitl [Hi Hx Ho]
  · iapply (hst d f4 h4)
    isplitl [Hi]; · iexact Hi
    isplitl [Hx]; · iexact Hx
    iexact Ho
  iintro ⟨Hst, Hdn⟩
  ihave Hd := (hdn d) $$ Hdn
  icases Hd with ⟨Hi, %f5, Ho, %h5⟩
  imodintro
  isplitl [Hst]; · iexact Hst
  isplitl [Ha0]; · iexact Ha0
  isplitl [Ha1]; · iexact Ha1
  isplitl [Ha2]; · iexact Ha2
  isplitl [Ha3]; · iexact Ha3
  iexists f5
  isplitl [Ho]; · iexact Ho
  ipureintro; exact h5

end Cert.Kernel.Hand

end
-- ==== Proof.KB.Run.lean ====
/-
  The kernel program's run: from any launch memory whose item numbers are in range and with every semaphore at zero,
  every weakly fair execution of the TensorCore, the two sequencers and the thirty-two vector subcores terminates,
  the four arguments end as launched, and every block of the result array ends at what its task leaves. The launch
  theorem's hypotheses that are proved elsewhere — the pipeline's step, the task, the split of the call's operands, the
  launch element — are taken as hypotheses here.
-/
import proofs.«202434_g11450382811589_week1_w4_549_31_alg».proof.Proof.KB.Main

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

instance goOf_storable (d : Dev nD) (f5 : Buf (Elt F) (oLoc d)) (w : Fin 32) : BI.Storable (upEmb : UEmb _ 𝕄) (goOf m d f5 w) := by
  unfold goOf; infer_instance
instance tdOf_storable (d : Dev nD) (w : Fin 32) : BI.Storable (upEmb : UEmb _ 𝕄) (tdOf m d w) := by
  unfold tdOf; infer_instance

instance P_storable : (P (F := F) m).IsStorable where
  st q d c := match q with
    | 0 => (inferInstance : BI.Storable (upEmb : UEmb _ 𝕄) (bigSep Finset.univ fun i : Fin 16 => goOf m d (m (oLoc d)) (wid (Fin.cast nCore_zero c) i)))
  dn q d c := match q with
    | 0 => (inferInstance : BI.Storable (upEmb : UEmb _ 𝕄) (bigSep Finset.univ fun i : Fin 16 => tdOf m d (wid (Fin.cast nCore_zero c) i)))
  go q d c i := match q with
    | 0 => (inferInstance : BI.Storable (upEmb : UEmb _ 𝕄) (goOf m d (m (oLoc d)) (wid (Fin.cast nCore_zero c) (Fin.cast nSub_zero i))))
  td q d c i := match q with
    | 0 => (inferInstance : BI.Storable (upEmb : UEmb _ 𝕄) (tdOf m d (wid (Fin.cast nCore_zero c) (Fin.cast nSub_zero i))))

/-- What the final memory is asked: the arguments as launched, every block of the result what its task leaves. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (a3Loc d) = m (a3Loc d) ∧ ∀ w : Fin 32, TileOK m d w (s'.mem.mem (oLoc d))

set_option maxRecDepth 16384 in
theorem hfin (d : Dev nD) (s' : Phys nD τ sig (Elt F)) : iprop(FIN m d ∗ SI s') ⊢ (⌜fq m d s'⌝ : sProp 𝕄) := by
  iintro ⟨⟨Ha0, Ha1, Ha2, Ha3, %f5, Ho, %h5⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI Ha3]
  · isplitl [HSI] <;> iassumption
  icases H with ⟨%h3, HSI, -⟩
  ihave H := (SI_pointsTo_agree (st := s') (ℓ := oLoc d) (I := Finset.univ) (q := fullShare) (f := f5)) $$ [HSI Ho]
  · isplitl [HSI] <;> iassumption
  icases H with %ho
  ipureintro
  have e5 : s'.mem.mem (oLoc d) = f5 := funext fun i => ho i (Finset.mem_univ i)
  exact ⟨funext fun i => h0 i (Finset.mem_univ i), funext fun i => h1 i (Finset.mem_univ i), funext fun i => h2 i (Finset.mem_univ i),
    funext fun i => h3 i (Finset.mem_univ i), e5 ▸ h5⟩

/-- The run's post. -/
def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c)
    ∧ r.2.mem (a3Loc c) = m (a3Loc c) ∧ ∀ w : Fin 32, TileOK m c w (r.2.mem (oLoc c))

theorem run_main [∀ e, Nonempty (Elt F e)] (GG : Dev nD → sProp 𝕄) (u₀ : UU)
    (hreg : RegionRule m GG) (hst : StIntro m) (hdn : DnElim m)
    (htile : (K (F := F)).TileObl (D (F := F)) 𝒱 (P m) v₀ 0) (hvec : (K (F := F)).VecSplit' (P m) 0)
    (hu : iprop(ownU u₀ ∗ (P m).oxCred ∗ (K (F := F)).freeSems0)
      ⊢ |={Set.univ}=> iprop(BI.own (EH (initOf (K (F := F)).hsCells (K (F := F)).hsToks)) ∗ (bigSep Finset.univ fun d : Dev nD => GG d)
          ∗ bigSep Finset.univ fun thr : Thread nD τ => bigSep Finset.univ fun q : Fin 1 => (P m).x q thr)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main GG (FIN m) u₀ hu (hmain m ρ GG hreg hst hdn) (fq m) (hfin m) (QC m) (fun _ h => h)

end Cert.Kernel.Hand

end
-- ==== Proof.KB.RegionAux.lean ====
/-
  The TensorCore pipeline's windows read at an index: what a fetched block of the transposed table holds at a column
  inside the table, and that the weight column's and the bias's blocks are those arrays whole.
-/
import proofs.«202434_g11450382811589_week1_w4_549_31_alg».proof.Proof.KB.Iface
import Idealize.ShloMosaic.Lib.Pipeline.Value
import Idealize.ShloMosaic.Lib.ValueLayout

noncomputable section

namespace Cert.Kernel.Hand

open Cert.Kernel Cert.Kernel.Gen

open Idealize.ShloMosaic

variable {F : FTy → Type} [FloatOps F]

/-! ## The table's blocks -/

/-- The table's block at point `t` starts at row 0, column `t * 40960`; -/
theorem index0 : ∀ t : Fin cfg0.N, win0_0.index t (0 : Fin 2) = 0 ∧ win0_0.index t (1 : Fin 2) = t.val :=
  (by decide +kernel : ∀ t : Fin grid0.N, _)
/-- it has all 64 rows and the 40960 columns from there, or as many as the table has left. -/
theorem xsize0 : ∀ t : Fin cfg0.N, win0_0.xsize (grid0.coords t) (0 : Fin 2) = 64
    ∧ win0_0.xsize (grid0.coords t) (1 : Fin 2) = min 40960 (1000000 - t.val * 40960) :=
  (by decide +kernel : ∀ t : Fin grid0.N, _)

/-- A staging buffer that has fetched the table's block at point `t` holds, at row `k` and a column `y'` whose
    table column `t * 40960 + y'` exists, the table's entry there (whatever it held before, `d0`, stays only past the
    table's end). -/
theorem fill0_apply (t : Fin cfg0.N) (f : FVec F S64x1000000 .f32) (d0 : S64x40960.Idx → Elt F .f32) (k : Fin 64) (y' : Fin 40960)
    (hj' : t.val * 40960 + y'.val < 1000000) :
    win0_0.fill (grid0.coords t) d0 ((win0_0.blk t).view.read (Elt F) f) (ValueIdx.ix2 k y')
      = f (ValueIdx.ix2 k ⟨t.val * 40960 + y'.val, hj'⟩) := by
  have hm : win0_0.moved (grid0.coords t) (ValueIdx.ix2 k y') = true := by
    rw [Pipeline.Window.moved_iff]
    intro a
    match a with
    | ⟨0, _⟩ =>
      show k.val < win0_0.xsize (grid0.coords t) (0 : Fin 2)
      rw [(xsize0 t).1]; exact k.isLt
    | ⟨1, _⟩ =>
      show y'.val < win0_0.xsize (grid0.coords t) (1 : Fin 2)
      rw [(xsize0 t).2]; exact Nat.lt_min.mpr ⟨y'.isLt, by omega⟩
  unfold Pipeline.Window.fill
  rw [dif_pos hm, View.read_apply]
  show f ((win0_0.blk t).view.emb _) = f _
  refine congrArg f (funext fun a => Fin.ext ?_)
  match a with
  | ⟨0, _⟩ =>
    show win0_0.index t (0 : Fin 2) * 64 + 1 * k.val = k.val
    rw [(index0 t).1]; omega
  | ⟨1, _⟩ =>
    show win0_0.index t (1 : Fin 2) * 40960 + 1 * y'.val = t.val * 40960 + y'.val
    rw [(index0 t).2]; omega

/-- The same of the transposed table: the table's row `t * 40960 + y'`, column `k`. -/
theorem fill0_transpose_apply (t : Fin cfg0.N) (x : FVec F S1000000x64 .f32) (d0 : S64x40960.Idx → Elt F .f32) (k : Fin 64) (y' : Fin 40960)
    (hj' : t.val * 40960 + y'.val < 1000000) :
    win0_0.fill (grid0.coords t) d0 ((win0_0.blk t).view.read (Elt F)
        (transpose S64x1000000 [1, 0] x Facts₀.transposes_S1000000x64_S64x1000000_1_0 : FVec F S64x1000000 .f32)) (ValueIdx.ix2 k y')
      = x (ValueIdx.ix2 ⟨t.val * 40960 + y'.val, hj'⟩ k) :=
  (fill0_apply t _ d0 k y' hj').trans (ValueIdx.transpose_ix2_apply x _ k ⟨t.val * 40960 + y'.val, hj'⟩)

/-! ## The weight column and the bias: one block, the whole array -/

theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 1) = 0 :=
  (by decide +kernel : ∀ t : Fin grid0.N, _)

theorem fill1_eq (t : Fin cfg0.N) (f : FVec F S64x1 .f32) (d1 : S64x1.Idx → Elt F .f32) :
    win0_1.fill (grid0.coords t) d1 ((win0_1.blk t).view.read (Elt F) f) = f := by
  funext j
  have hm : win0_1.moved (grid0.coords t) j = true := rfl
  unfold Pipeline.Window.fill
  rw [dif_pos hm, View.read_apply]
  show f ((win0_1.blk t).view.emb _) = f j
  refine congrArg f (funext fun a => Fin.ext ?_)
  match a with
  | ⟨0, _⟩ =>
    show win0_1.index t (0 : Fin 2) * 64 + 1 * (j (0 : Fin 2)).val = (j (0 : Fin 2)).val
    rw [(index1 t).1]; omega
  | ⟨1, _⟩ =>
    show win0_1.index t (1 : Fin 2) * 1 + 1 * (j (1 : Fin 2)).val = (j (1 : Fin 2)).val
    rw [(index1 t).2]; omega

theorem fill2_eq (t : Fin cfg0.N) (f : FVec F S1 .f32) (d2 : S1.Idx → Elt F .f32) :
    win0_2.fill (grid0.coords t) d2 ((win0_2.blk t).view.read (Elt F) f) = f := by
  funext j
  have hm : win0_2.moved (grid0.coords t) j = true := rfl
  unfold Pipeline.Window.fill
  rw [dif_pos hm, View.read_apply]
  show f ((win0_2.blk t).view.emb _) = f j
  refine congrArg f (funext fun a => Fin.ext ?_)
  match a with
  | ⟨0, _⟩ =>
    show win0_2.index t (0 : Fin 1) * 1 + 1 * (j (0 : Fin 1)).val = (j (0 : Fin 1)).val
    rw [index2 t]; omega

/-! ## What a staged table block and its score block are, at the launch memory -/

variable (m : (ℓ : Loc nD τ sig) → Buf (Elt F) ℓ)

/-- A staged table block agrees with the table on the columns of block `t` that lie inside the table. -/
def BlkOK (d : Dev nD) (t : ℕ) (blk : FVec F S64x40960 .f32) : Prop :=
  ∀ (k : Fin 64) (y' : Fin 40960) (hj' : t * 40960 + y'.val < 1000000),
    blk (ValueIdx.ix2 k y') = (m (a1Loc d) : FVec F S1000000x64 .f32) (ValueIdx.ix2 ⟨t * 40960 + y'.val, hj'⟩ k)
/-- The score block a staged table block gives, at the launch's weights and bias. -/
abbrev scoreOf (d : Dev nD) (blk : FVec F S64x40960 .f32) : FVec F S40960 .f32 :=
  k0_pay1 blk (shapeCast S64x1 (m (a2Loc d) : FVec F S1x64 .f32) Facts₀.shapeCasts_S1x64_S64x1)
    ((m (a3Loc d) : FVec F S1 .f32) (ValueIdx.ix1 0))

end Cert.Kernel.Hand

end
-- ==== Proof.KB.RegionAux2.lean ====
/-
  The score array's write-back, read at an index. The pipeline's fourth window cuts the score array, of 1000000
  entries, into 25 blocks of 40960, block u at point u, the last cut to the 16960 entries inside the array. Writing
  a block's payload back through the window puts entry y of the payload at array index u * 40960 + y when that index
  is inside the array, and leaves every array entry outside the block's range as it was.
-/
import proofs.«202434_g11450382811589_week1_w4_549_31_alg».proof.Proof.KB.Setup
import proofs.«202434_g11450382811589_week1_w4_549_31_alg».proof.Proof.KB.Iface
import Idealize.ShloMosaic.Lib.Pipeline.Value

noncomputable section

namespace Cert.Kernel.Hand

open Cert.Kernel Cert.Kernel.Gen Idealize.ShloMosaic

variable {F : FTy → Type} [FloatOps F]

/-- Window 3's block index at point `t` is `t`, and the block there is cut to what is left of the array. -/
theorem win3_closed : ∀ t : Fin cfg0.N, win0_3.index t 0 = t.val
    ∧ win0_3.xsize (grid0.coords t) 0 = min 40960 (1000000 - t.val * 40960) := by
  decide +kernel

/-- The array index of entry `x` of the block at point `u`: the block's start plus the entry's coordinate. -/
theorem blk3_emb_val (u : Fin cfg0.N) (x : (win0_3.xblock (grid0.coords u)).Idx) :
    (((win0_3.blk u).view.emb x : S1000000.Idx) 0).val = u.val * 40960 + (x 0).val := by
  have h := Pipeline.Window.rect_emb_val win0_3 u x 0
  rw [(win3_closed u).1] at h
  exact h

/-- Written back through the window, entry `y` of the payload lands at array index `u * 40960 + y`, when that is
    inside the array. -/
theorem write3_apply_in (u : Fin cfg0.N) (G : FVec F S1000000 .f32) (X : S40960.Idx → Elt F .f32) (y : Fin 40960)
    (hj : u.val * 40960 + y.val < 1000000) :
    ((win0_3.blk u).view.write (Elt F) G (win0_3.cut (grid0.coords u) X) Finset.univ : FVec F S1000000 .f32)
        (ValueIdx.ix1 ⟨u.val * 40960 + y.val, hj⟩) = X (ValueIdx.ix1 y) := by
  have hy : y.val < win0_3.xsize (grid0.coords u) 0 := by
    rw [(win3_closed u).2]
    have := y.isLt
    omega
  let x : (win0_3.xblock (grid0.coords u)).Idx := fun (a : Fin 1) => match a with | ⟨0, _⟩ => ⟨y.val, hy⟩
  have hemb : (win0_3.blk u).view.emb x = ValueIdx.ix1 ⟨u.val * 40960 + y.val, hj⟩ := by
    funext a
    refine Fin.ext ?_
    match a with
    | ⟨0, _⟩ => exact blk3_emb_val u x
  refine (congrArg _ hemb.symm).trans ?_
  refine (View.write_emb_of_mem _ _ (Finset.mem_univ x)).trans ?_
  refine (cast_eq _ _).trans ?_
  refine congrArg X ?_
  funext a
  refine Fin.ext ?_
  match a with
  | ⟨0, _⟩ => rfl

/-- An array entry outside the range of the block at point `u` is left as it was. -/
theorem write3_apply_out (u : Fin cfg0.N) (G : FVec F S1000000 .f32) (X : S40960.Idx → Elt F .f32) (j : Fin 1000000)
    (hj : j.val < u.val * 40960 ∨ (u.val + 1) * 40960 ≤ j.val) :
    ((win0_3.blk u).view.write (Elt F) G (win0_3.cut (grid0.coords u) X) Finset.univ : FVec F S1000000 .f32)
        (ValueIdx.ix1 j) = G (ValueIdx.ix1 j) := by
  refine View.write_of_not_mem _ _ _ ?_
  rw [View.setOn_univ]
  intro hmem
  obtain ⟨x, -, hx⟩ := Finset.mem_map.1 hmem
  have hv := blk3_emb_val u x
  have hxlt : (x 0).val < win0_3.xsize (grid0.coords u) 0 := (x 0).isLt
  rw [(win3_closed u).2] at hxlt
  have he : (((win0_3.blk u).view.emb x : S1000000.Idx) 0).val = j.val := by
    have := congrArg (fun i : S1000000.Idx => (i 0).val) hx
    exact this
  omega

end Cert.Kernel.Hand

end
-- ==== Proof.KB.RegionAux3.lean ====
/-
  From the pipeline's twenty-five write-backs to the score array: block by block, each write-back puts a score block
  over its own range of the array and leaves the earlier blocks' ranges as they were, so in the end every entry of the
  array is the block computation's entry for some staged table block that agrees with the table inside it.
-/
import proofs.«202434_g11450382811589_week1_w4_549_31_alg».proof.Proof.KB.RegionAux
import proofs.«202434_g11450382811589_week1_w4_549_31_alg».proof.Proof.KB.RegionAux2
import Idealize.ShloMosaic.Lib.Pipeline.Cells

noncomputable section

namespace Cert.Kernel.Hand

open Cert.Kernel Cert.Kernel.Gen

open Idealize.ShloMosaic
open Idealize.ShloMosaic.TcCoe

variable {F : FTy → Type} [FloatOps F]
variable (m : (ℓ : Loc nD τ sig) → Buf (Elt F) ℓ)

/-! ## From the twenty-five write-backs to the score array -/

/-- After the write-backs of the points below `n`, every score of their blocks is the block computation's entry for
    some staged block that agrees with the table inside it. -/
def ScoreInv (d : Dev nD) (n : ℕ) (G : FVec F S1000000 .f32) : Prop :=
  ∀ (t : Fin 25) (y : Fin 40960) (hj : t.val * 40960 + y.val < 1000000), t.val < n →
    ∃ blk, BlkOK m d t.val blk ∧ G (ValueIdx.ix1 ⟨t.val * 40960 + y.val, hj⟩) = scoreOf m d blk (ValueIdx.ix1 y)

theorem scoreInv_of_arrAt (d : Dev nD) (r : Pipeline.RDat τ (Elt F) (SparseCore.Cfg.HIx 1) ℕ UU ℕ cfg0 d)
    (hafter : ∀ (t : Fin cfg0.N) Y X, r.after 3 t Y X → ∃ blk, BlkOK m d t.val blk ∧ X = scoreOf m d blk)
    (hin : ∀ (u : Fin cfg0.N) (G : FVec F S1000000 .f32) (X : S40960.Idx → Elt F .f32) (y : Fin 40960) (hj : u.val * 40960 + y.val < 1000000),
      ((win0_3.blk u).view.write (Elt F) G (win0_3.cut (grid0.coords u) X) Finset.univ : FVec F S1000000 .f32) (ValueIdx.ix1 ⟨u.val * 40960 + y.val, hj⟩) = X (ValueIdx.ix1 y))
    (hout : ∀ (u : Fin cfg0.N) (G : FVec F S1000000 .f32) (X : S40960.Idx → Elt F .f32) (j : Fin 1000000) (hj : j.val < u.val * 40960 ∨ (u.val + 1) * 40960 ≤ j.val),
      ((win0_3.blk u).view.write (Elt F) G (win0_3.cut (grid0.coords u) X) Finset.univ : FVec F S1000000 .f32) (ValueIdx.ix1 j) = G (ValueIdx.ix1 j)) :
    ∀ n, n ≤ 25 → ∀ G, r.ArrAt 3 n G → ScoreInv m d n G := by
  intro n
  induction n with
  | zero => intro _ G _ t y hj ht; omega
  | succ n ih =>
    intro hn G h
    have hN : n < cfg0.N := by have e : cfg0.N = 25 := Gen.N_0; omega
    have h' : r.ArrAt 3 ((⟨n, hN⟩ : Fin cfg0.N).val + 1) G := h
    rw [r.ArrAt_succ 3 ⟨n, hN⟩, if_pos (Gen.flush0_3 ⟨n, hN⟩)] at h'
    obtain ⟨G₀, X, hG₀, ⟨Y, _, hYX⟩, rfl⟩ := h'
    obtain ⟨blk, hblk, rfl⟩ := hafter ⟨n, hN⟩ Y X hYX
    intro t y hj ht
    by_cases e : t.val = n
    · obtain ⟨tv, htv⟩ := t
      subst e
      exact ⟨blk, hblk, hin ⟨tv, hN⟩ G₀ _ y hj⟩
    · obtain ⟨blk', hb', hv'⟩ := ih (by omega) G₀ hG₀ t y hj (by omega)
      refine ⟨blk', hb', ?_⟩
      rw [← hv']
      exact hout ⟨n, hN⟩ G₀ _ ⟨t.val * 40960 + y.val, hj⟩ (Or.inl (by have := y.isLt; show t.val * 40960 + y.val < n * 40960; omega))

/-- What the score array may hold after all twenty-five write-backs is admissible for the launch memory, whenever the
    pipeline's relation for the score window gives, at every point, the score block of a staged table block that
    agrees with the table inside it. -/
theorem scoreOK_of_arrAt (d : Dev nD) (r : Pipeline.RDat τ (Elt F) (SparseCore.Cfg.HIx 1) ℕ UU ℕ cfg0 d)
    (hafter : ∀ (t : Fin cfg0.N) Y X, r.after 3 t Y X → ∃ blk, BlkOK m d t.val blk ∧ X = scoreOf m d blk)
    (F4 : Buf (Elt F) (xLoc d)) (h : r.ArrAt 3 cfg0.N F4) : ScoreOK m d F4 := by
  have e : cfg0.N = 25 := Gen.N_0
  have hinv := scoreInv_of_arrAt m d r hafter (fun u G X y hj => write3_apply_in u G X y hj)
    (fun u G X j hj => write3_apply_out u G X j hj) cfg0.N (Nat.le_of_eq e) F4 h
  intro t y hj
  obtain ⟨blk, hb, hv⟩ := hinv t y hj (by rw [e]; exact t.isLt)
  exact ⟨blk, hb, hv⟩

end Cert.Kernel.Hand

end
-- ==== Proof.KB.Region.lean ====
/-
  The score pipeline inside the lookup kernel's launch: the TensorCore's pipeline, run as one step of @main while the
  thread still owes its later start signals.

  The pipeline walks the transposed table in 25 blocks of 40960 columns (the last one reaching past the table's
  1000000 columns), multiplies each of the 64 rows by its weight, sums over the rows and adds the bias: one score per
  table row. What the last block's staging buffer holds past the table's end is whatever the fetch left, so the result
  is stated as a relation: every score is the block computation's entry at its column for SOME staged block that agrees
  with the table on the columns inside it.
-/
import proofs.«202434_g11450382811589_week1_w4_549_31_alg».proof.Proof.KB.Iface
import proofs.«202434_g11450382811589_week1_w4_549_31_alg».proof.Proof.KB.RegionAux
import proofs.«202434_g11450382811589_week1_w4_549_31_alg».proof.Proof.KB.RegionAux2
import proofs.«202434_g11450382811589_week1_w4_549_31_alg».proof.Proof.KB.RegionAux3
import Idealize.ShloMosaic.Lib.Pipeline.FrameBody
import Idealize.ShloMosaic.Lib.ValueLayout

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## The region's vocabulary -/

/-- The pipeline has no prefetched table. -/
abbrev adm : (p : Fin 1) → (pcfgs (F := F) p).Adm := fun p => (cfgs p).toPCfg_adm

/-- The rounds ghost state of the pipeline's staging cells and its transfers' duty tokens, as the launch deals them. -/
def GG (d : Dev nD) : sProp 𝕄 :=
  iprop(Pipeline.cellsGhost (Pipeline.pin (pcfgs (F := F)) adm) EP (0 : Fin 1) d
    ∗ Pipeline.toksInit (Pipeline.pin (pcfgs (F := F)) adm) EP (0 : Fin 1) d)

/-! ## The kernel body -/

omit [FloatOps F] in
/-- A whole buffer held through its memref. -/
theorem pts_whole (c : Thread nD τ) (b : Ref sig c.2.kind) (q : PosShare TreeShare) (f : Buf (Elt F) (c.loc b)) :
    ((c.loc b) ↦{q} f : sProp 𝕄) = ((Memref.whole b).view.loc c ↦{q} f) := rfl

/-- The body on whichever staging buffers the pipeline hands it: the table block, the weights and the bias are read
    and left as they are; the score block of what they hold is stored whole into the result's buffer. -/
theorem sound_body (c : Dev nD) (E : Set ℕ) (i : grid0.Coords) (s0 : Fin 2) (s1 : Fin 1) (s2 : Fin 1) (s3 : Fin 2)
    (X0 : S64x40960.Idx → Elt F .f32) (X1 : S64x1.Idx → Elt F .f32) (X2 : S1.Idx → Elt F .f32) (X3 : S40960.Idx → Elt F .f32)
    (Kp : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 (X2 (ValueIdx.ix1 0)))) -∗ Kp ⟨⟩))
      ⊢ wp frame (wpE (defs₀ (F := F)) 𝒱₀ (c : Thread nD τ) none) E
          (cc0__mv_body i (stage0_0 s0) (hstage0_0 s0) (stage0_1 s1) (hstage0_1 s1) (stage0_2 s2) (hstage0_2 s2)
            (stage0_3 s3) (hstage0_3 s3)) Kp := by
  -- every access is at offset zero and the buffer's own size: a load reads the contents, the unmasked store writes the
  -- payload, at whichever of its window's buffers each memref is
  have hz2 : (![0, 0] : Fin 2 → ℕ) = fun _ => 0 := funext fun a => by fin_cases a <;> rfl
  have hz1 : (![0] : Fin 1 → ℕ) = fun _ => 0 := funext fun a => by fin_cases a <;> rfl
  fin_cases s0 <;> fin_cases s1 <;> fin_cases s2 <;> fin_cases s3
  · -- the table block in `cc0_stg0_0`, the weights in `cc0_stg1_0`, the bias in `cc0_stg2_0`, the result's buffer `cc0_stg3_0`
    have hr0 : (Memref.whole cc0_stg0_0 : Memref sig .tc _ _ _).view.readAt (Elt F) (Rect.unit (s := S64x40960) ![0, 0] S64x40960.size
        inb_S64x40960_S64x40960_0_0).toLoadRect = id := funext (Memref.readAt_unit_zero (Elt F) cc0_stg0_0 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S40960) ![0] S40960.size inb_S40960_S40960_0)) :
        View sig .tc _ _ _).write (Elt F) f w Finset.univ = w := Memref.write_access_unit_zero_univ (Elt F) cc0_stg3_0 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)
  · -- the table block in `cc0_stg0_0`, the weights in `cc0_stg1_0`, the bias in `cc0_stg2_0`, the result's buffer `cc0_stg3_1`
    have hr0 : (Memref.whole cc0_stg0_0 : Memref sig .tc _ _ _).view.readAt (Elt F) (Rect.unit (s := S64x40960) ![0, 0] S64x40960.size
        inb_S64x40960_S64x40960_0_0).toLoadRect = id := funext (Memref.readAt_unit_zero (Elt F) cc0_stg0_0 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S40960) ![0] S40960.size inb_S40960_S40960_0)) :
        View sig .tc _ _ _).write (Elt F) f w Finset.univ = w := Memref.write_access_unit_zero_univ (Elt F) cc0_stg3_1 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)
  · -- the table block in `cc0_stg0_1`, the weights in `cc0_stg1_0`, the bias in `cc0_stg2_0`, the result's buffer `cc0_stg3_0`
    have hr0 : (Memref.whole cc0_stg0_1 : Memref sig .tc _ _ _).view.readAt (Elt F) (Rect.unit (s := S64x40960) ![0, 0] S64x40960.size
        inb_S64x40960_S64x40960_0_0).toLoadRect = id := funext (Memref.readAt_unit_zero (Elt F) cc0_stg0_1 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_0).access (Rect.unit (s := S40960) ![0] S40960.size inb_S40960_S40960_0)) :
        View sig .tc _ _ _).write (Elt F) f w Finset.univ = w := Memref.write_access_unit_zero_univ (Elt F) cc0_stg3_0 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)
  · -- the table block in `cc0_stg0_1`, the weights in `cc0_stg1_0`, the bias in `cc0_stg2_0`, the result's buffer `cc0_stg3_1`
    have hr0 : (Memref.whole cc0_stg0_1 : Memref sig .tc _ _ _).view.readAt (Elt F) (Rect.unit (s := S64x40960) ![0, 0] S64x40960.size
        inb_S64x40960_S64x40960_0_0).toLoadRect = id := funext (Memref.readAt_unit_zero (Elt F) cc0_stg0_1 hz2 _)
    have hr1 : (Memref.whole cc0_stg1_0 : Memref sig .tc _ _ _).view.readAt (Elt F) (Rect.unit (s := S64x1) ![0, 0] S64x1.size
        inb_S64x1_S64x1_0_0).toLoadRect = id := funext (Memref.readAt_unit_zero (Elt F) cc0_stg1_0 hz2 _)
    have hr2 : (Memref.whole cc0_stg2_0 : Memref sig .tc _ _ _).view.readAt (Elt F) (Rect.unit (s := S1) ![0] S1.size
        inb_S1_S1_0).toLoadRect = id := funext (Memref.readAt_unit_zero (Elt F) cc0_stg2_0 hz1 _)
    have hw3 : ∀ f w, (((Memref.whole cc0_stg3_1).access (Rect.unit (s := S40960) ![0] S40960.size inb_S40960_S40960_0)) :
        View sig .tc _ _ _).write (Elt F) f w Finset.univ = w := Memref.write_access_unit_zero_univ (Elt F) cc0_stg3_1 hz1 _
    simp only [owns_whole_eq, cc0__mv_body_eq_skeleton]; unfold cc0__mv_body_skel
    simp only [stage0_0, stage0_1, stage0_2, stage0_3]
    iintro ⟨⟨⟨%f0, %hf0, H0⟩, ⟨%f1, %hf1, H1⟩, ⟨%f2, %hf2, H2⟩, ⟨%f3, %hf3, H3⟩⟩, Hk⟩
    ihave H0' := (Entails.of_eq (pts_whole _ _ _ f0)) $$ H0
    ihave H1' := (Entails.of_eq (pts_whole _ _ _ f1)) $$ H1
    ihave H2' := (Entails.of_eq (pts_whole _ _ _ f2)) $$ H2
    ihave H3' := (Entails.of_eq (pts_whole _ _ _ f3)) $$ H3
    sl_exec
    sl_step
    iapply Hk
    isplitl [H0']
    · iexists f0; isplitr; · ipureintro; exact hf0
      iexact H0'
    isplitl [H1']
    · iexists f1; isplitr; · ipureintro; exact hf1
      iexact H1'
    isplitl [H2']
    · iexists f2; isplitr; · ipureintro; exact hf2
      iexact H2'
    iexists _; isplitr; swap; · iexact H3'
    ipureintro
    sl_unfold_run_names
    rw [hr0, hr1, hr2, View.writes_singleton]
    refine (hw3 f3 _).trans ?_
    rw [hf0, hf1, hf2]
    refine congrArg (k0_pay1 X0 X1) (congrArg X2 (funext fun a => ?_))
    first | rfl | exact Fin.ext (by have h1 := (Shape.Idx.first (s := S1) (by decide) a).isLt; have h2 := (ValueIdx.ix1 (0 : Fin 1) a).isLt; fin_cases a; simp at h1 h2 ⊢; omega)

/-! ## The proof data -/

/-- The pipeline's proof data on device `d`, for a thread that owes `O` throughout and has recorded the waits `W`:
    the arrays as the host operations left them; the three inputs' buffers left as found; the result's buffer left at
    the score block of SOME table block that agrees with the table inside it; no invariant; the waits recorded
    meanwhile are the staging cells', at the kernels' own index. -/
def rd (d : Dev nD) (O : CellTallies nD τ sig (HIx 1)) (W : Waits sig (HIx 1)) :
    Pipeline.RDat τ (Elt F) (HIx 1) ℕ UU ℕ cfg0 d where
  A w := match w with
    | ⟨0, _⟩ => tblT m d
    | ⟨1, _⟩ => wCol m d
    | ⟨2, _⟩ => m (a3Loc d)
    | ⟨3, _⟩ => m (xLoc d)
  after w t Y X := match w with
    | ⟨0, _⟩ => X = Y
    | ⟨1, _⟩ => X = Y
    | ⟨2, _⟩ => X = Y
    | ⟨3, _⟩ => ∃ blk : FVec F S64x40960 .f32, BlkOK m d t.val blk ∧ X = scoreOf m d blk
  Φ _ := iprop(emp)
  q _ := fullShare
  owed _ := O
  recorded _ := {p | p ∈ W ∨ p.2 = none}

variable (d : Dev nD) (O : CellTallies nD τ sig (HIx 1)) (W : Waits sig (HIx 1))

/-- A window's cuts are a function of its block index. -/
theorem hclip0 (t t' : Fin cfg0.N) (h : (cfg0.win 0).index t = (cfg0.win 0).index t') :
    (cfg0.win 0).clip (grid0.coords t) = (cfg0.win 0).clip (grid0.coords t') := by
  funext a
  show Pipeline.Clip.of (win0_0.index t a) _ _ = Pipeline.Clip.of (win0_0.index t' a) _ _
  rw [show win0_0.index t = win0_0.index t' from h]

/-- What the body finds in the inputs' buffers: the table's block filled out with anything past the table's end, -/
theorem finds0 (t : Fin cfg0.N) (Y) (h : (rd m d O W).Finds 0 t Y) : ∃ d0, Y = (rd m d O W).fetched 0 t d0 :=
  Pipeline.RDat.finds_in_eq_fetched (rd m d O W) 0 rfl (hclip0) (fun _ _ _ h => h) t Y h
/-- the weights, -/
theorem finds1 (t : Fin cfg0.N) (Y) (h : (rd m d O W).Finds 1 t Y) : ∃ d0, Y = (rd m d O W).fetched 1 t d0 :=
  Pipeline.RDat.finds_in_eq_fetched (rd m d O W) 1 rfl (fun _ _ _ => rfl) (fun _ _ _ h => h) t Y h
/-- the bias. -/
theorem finds2 (t : Fin cfg0.N) (Y) (h : (rd m d O W).Finds 2 t Y) : ∃ d0, Y = (rd m d O W).fetched 2 t d0 :=
  Pipeline.RDat.finds_in_eq_fetched (rd m d O W) 2 rfl (fun _ _ _ => rfl) (fun _ _ _ h => h) t Y h

theorem fetched0_ok (t : Fin cfg0.N) (d0) : BlkOK m d t.val ((rd m d O W).fetched 0 t d0) := by
  intro k y' hj'
  exact fill0_transpose_apply t (m (a1Loc d)) d0 k y' hj'
theorem fetched1_eq (t : Fin cfg0.N) (d0) : (rd m d O W).fetched 1 t d0
    = (shapeCast S64x1 (m (a2Loc d) : FVec F S1x64 .f32) Facts₀.shapeCasts_S1x64_S64x1 : FVec F S64x1 .f32) :=
  fill1_eq t (wCol m d) d0
theorem fetched2_eq (t : Fin cfg0.N) (d0) : (rd m d O W).fetched 2 t d0 = (m (a3Loc d) : FVec F S1 .f32) :=
  fill2_eq t (m (a3Loc d)) d0

/-! ## The body obligation -/

/-- At every point: the body is handed the table's block (anything past the table's end), the weights and the bias,
    leaves them as found and leaves the result's buffer at their score block. It owes and records nothing itself. -/
theorem body_obligation : (rd m d O W).BodyObligation (defs₀ (F := F)) 𝒱₀ (none : HIx 1) Set.univ := fun t Y hY => by
  rw [bigSep_W0, bigSep_W0]
  obtain ⟨d0, h0⟩ := finds0 m d O W t (Y 0) (hY 0)
  obtain ⟨d1, h1⟩ := finds1 m d O W t (Y 1) (hY 1)
  obtain ⟨d2, h2⟩ := finds2 m d O W t (Y 2) (hY 2)
  rw [fetched1_eq] at h1; rw [fetched2_eq] at h2
  rw [show (rd m d O W).Φ t.succ = (rd m d O W).Φ t.castSucc from rfl,
    show (rd m d O W).owesAt (none : HIx 1) t.succ = (rd m d O W).owesAt (none : HIx 1) t.castSucc from rfl]
  iintro ⟨HΦ, Ho, H0, H1, H2, H3⟩
  iapply (sound_body (F := F) d Set.univ (grid0.coords t) (cfg0.slots t 0) (cfg0.slots t 1) (cfg0.slots t 2) (cfg0.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists _; isplitr; swap; · iexact H3
  ipureintro
  refine ⟨Y 0, ?_, ?_⟩
  · rw [h0]; exact fetched0_ok m d O W t d0
  · rw [h1, h2]

/-! ## The region -/

/-- The thread may wait on the staging cells while it owes `O`: their waits are at the kernels' own index, below every
    call's. -/
theorem hwaits_reg (hO : ∀ g, O g none = 0) (c : Dev nD) :
    (levAts (K (F := F)).L (K (F := F)).lev : sProp 𝕄)
      ⊢ Pipeline.RDat.cellsWaits (Pipeline.pin (pcfgs (F := F)) adm) (fun _ c => rd m c O W) (none : HIx 1) 0 c :=
  Pipeline.RDat.cellsWaits_intro (Pipeline.pin (pcfgs (F := F)) adm) (fun _ c => rd m c O W) (none : HIx 1) 0 c fun w s t =>
    (K (F := F)).mayWait_none (thr := (c.tc : Thread nD τ)) _ hO

/-- The arrays are held whole at the full share. -/
theorem share_rd (w : Fin cfg0.W) : (rd m d O W).share w = fullShare := by
  unfold Pipeline.RDat.share; split <;> rfl
theorem pts_arr (w : Fin cfg0.W) (G : Buf (Elt F) ((cfg0.win w).arr.view.loc (d.tc : Thread nD τ))) :
    ((cfg0.win w).arr.view.loc (d.tc : Thread nD τ) ↦[(cfg0.win w).arr.view.set]{(rd m d O W).share w} G : sProp 𝕄)
      = ((d.tc : Thread nD τ).loc (Pipeline.arrRef spec0 w) ↦{fullShare} G) := by
  rw [(launch0.arr_whole w).set_eq_univ, share_rd]

/-- The four arrays at the proof data's entry contents are the four buffers the region is entered with. -/
theorem arrays_A : (rd m d O W).arrays (rd m d O W).A
    = iprop((tLoc d ↦{fullShare} tblT m d) ∗ (wLoc d ↦{fullShare} wCol m d) ∗ (a3Loc d ↦{fullShare} m (a3Loc d))
        ∗ (xLoc d ↦{fullShare} m (xLoc d))) := by
  unfold Pipeline.RDat.arrays
  rw [bigSep_W0, pts_arr, pts_arr, pts_arr, pts_arr]
  rfl

/-- Each window's array, held through the window, is the buffer behind it held whole. -/
theorem arr0_eq : ((cfg0.win 0).arr.view.loc (d.tc : Thread nD τ) ↦[(cfg0.win 0).arr.view.set]{(rd m d O W).share 0} (rd m d O W).A 0 : sProp 𝕄)
    = (tLoc d ↦{fullShare} tblT m d) := by
  rw [pts_arr]; rfl
theorem arr1_eq : ((cfg0.win 1).arr.view.loc (d.tc : Thread nD τ) ↦[(cfg0.win 1).arr.view.set]{(rd m d O W).share 1} (rd m d O W).A 1 : sProp 𝕄)
    = (wLoc d ↦{fullShare} wCol m d) := by
  rw [pts_arr]; rfl
theorem arr2_eq : ((cfg0.win 2).arr.view.loc (d.tc : Thread nD τ) ↦[(cfg0.win 2).arr.view.set]{(rd m d O W).share 2} (rd m d O W).A 2 : sProp 𝕄)
    = (a3Loc d ↦{fullShare} m (a3Loc d)) := by
  rw [pts_arr]; rfl
theorem arr3_eq (G : Buf (Elt F) ((cfg0.win 3).arr.view.loc (d.tc : Thread nD τ))) :
    ((cfg0.win 3).arr.view.loc (d.tc : Thread nD τ) ↦[(cfg0.win 3).arr.view.set]{(rd m d O W).share 3} G : sProp 𝕄)
      = (xLoc d ↦{fullShare} G) := by
  rw [pts_arr]

/-- An input's array is never written: after any number of write-backs it holds what it held. -/
theorem arrAt_in0 (n : ℕ) :
    iprop(∃ F, ⌜(rd m d O W).ArrAt 0 n F⌝
        ∗ ((cfg0.win 0).arr.view.loc (d.tc : Thread nD τ) ↦[(cfg0.win 0).arr.view.set]{(rd m d O W).share 0} F))
      ⊢ (tLoc d ↦{fullShare} tblT m d : sProp 𝕄) := by
  rw [Pipeline.RDat.ArrAt_in (rd m d O W) 0 rfl]
  iintro ⟨%F0, %h0, H0⟩
  subst h0
  iapply (Entails.of_eq (arr0_eq m d O W))
  iexact H0
theorem arrAt_in1 (n : ℕ) :
    iprop(∃ F, ⌜(rd m d O W).ArrAt 1 n F⌝
        ∗ ((cfg0.win 1).arr.view.loc (d.tc : Thread nD τ) ↦[(cfg0.win 1).arr.view.set]{(rd m d O W).share 1} F))
      ⊢ (wLoc d ↦{fullShare} wCol m d : sProp 𝕄) := by
  rw [Pipeline.RDat.ArrAt_in (rd m d O W) 1 rfl]
  iintro ⟨%F0, %h0, H0⟩
  subst h0
  iapply (Entails.of_eq (arr1_eq m d O W))
  iexact H0
theorem arrAt_in2 (n : ℕ) :
    iprop(∃ F, ⌜(rd m d O W).ArrAt 2 n F⌝
        ∗ ((cfg0.win 2).arr.view.loc (d.tc : Thread nD τ) ↦[(cfg0.win 2).arr.view.set]{(rd m d O W).share 2} F))
      ⊢ (a3Loc d ↦{fullShare} m (a3Loc d) : sProp 𝕄) := by
  rw [Pipeline.RDat.ArrAt_in (rd m d O W) 2 rfl]
  iintro ⟨%F0, %h0, H0⟩
  subst h0
  iapply (Entails.of_eq (arr2_eq m d O W))
  iexact H0
/-- The result's array: at something the write-backs may leave. -/
theorem arrAt_out3 (n : ℕ) :
    iprop(∃ F, ⌜(rd m d O W).ArrAt 3 n F⌝
        ∗ ((cfg0.win 3).arr.view.loc (d.tc : Thread nD τ) ↦[(cfg0.win 3).arr.view.set]{(rd m d O W).share 3} F))
      ⊢ iprop(∃ F4 : Buf (Elt F) (xLoc d), ⌜(rd m d O W).ArrAt 3 n F4⌝ ∗ (xLoc d ↦{fullShare} F4) : sProp 𝕄) := by
  iintro ⟨%F3, %h3, H3⟩
  iexists F3; isplitr; · ipureintro; exact h3
  iapply (Entails.of_eq (arr3_eq m d O W F3))
  iexact H3

/-- After the last write-back: the three inputs as at entry, the score array at something the write-backs may leave. -/
theorem arraysAt_N : (rd m d O W).arraysAt cfg0.N
    ⊢ iprop((tLoc d ↦{fullShare} tblT m d) ∗ (wLoc d ↦{fullShare} wCol m d) ∗ (a3Loc d ↦{fullShare} m (a3Loc d))
        ∗ ∃ F4 : Buf (Elt F) (xLoc d), ⌜(rd m d O W).ArrAt 3 cfg0.N F4⌝ ∗ (xLoc d ↦{fullShare} F4)) := by
  unfold Pipeline.RDat.arraysAt
  rw [bigSep_W0]
  exact BI.sep_mono (arrAt_in0 m d O W _) (BI.sep_mono (arrAt_in1 m d O W _) (BI.sep_mono (arrAt_in2 m d O W _) (arrAt_out3 m d O W _)))

/-- The region's record: the launch's layout, no semaphore of the kernel's own, the body obligation and the wait
    evidence; entered from the four arrays and the debts, left with the score array at admissible contents. -/
def reg (hO : ∀ g, O g none = 0) :
    Pipeline.RDat.RegionSeg (pcfgs (F := F)) adm (fun _ c => rd m c O W) (none : HIx 1) defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := body_obligation m c O W
  hwaits c := hwaits_reg m O W hO c
  pre c := regionPre m c O W
  post c := regionPost m c O W
  X _ := iprop(emp)
  Y _ := iprop(emp)
  Z _ := iprop(emp)
  hentry c := by
    rw [arrays_A]; unfold regionPre
    iintro ⟨⟨Ht, Hw, Hb, Hx, HO⟩, -, -⟩
    imodintro
    isplitl [Ht Hw Hb Hx]
    · isplitl [Ht]; · iexact Ht
      isplitl [Hw]; · iexact Hw
      isplitl [Hb]; · iexact Hb
      iexact Hx
    isplitr
    · unfold Pipeline.prefHeld; rw [show (Finset.univ : Finset (Fin 0)) = ∅ from rfl, BI.bigSep_empty]; iempintro
    isplitl [HO]
    · iexists W; isplitr; · ipureintro; exact fun p hp => Or.inl (Or.inl hp)
      iexact HO
    isplitr <;> iempintro
  hin c := by
    show _ ⊢ (BI.emp : sProp 𝕄)
    iintro -; iempintro
  hout c := by
    rw [scopedRest0_eq, Pipeline.ownSems0_none]
    iintro -
    isplitr; · iempintro
    isplitr <;> iempintro
  hexit c := by
    iintro ⟨Ha, HO, -, -⟩
    ihave Ha' := (arraysAt_N m c O W) $$ Ha
    icases Ha' with ⟨Ht, Hw, Hb, ⟨%F4, %hF4, Hx⟩⟩
    icases HO with ⟨%W', %hW', HO⟩
    imodintro; unfold regionPost
    isplitl [Ht]; · iexact Ht
    isplitl [Hw]; · iexact Hw
    isplitl [Hb]; · iexact Hb
    isplitl [Hx]
    · iexists F4; isplitl [Hx]; · iexact Hx
      ipureintro; exact scoreOK_of_arrAt m c (rd m c O W) (fun _ _ _ h => h) F4 hF4
    iexists W'; isplitr
    · ipureintro; intro p hp
      rcases hW' (Finset.mem_coe.mpr hp) with h | ⟨w, s, rfl⟩
      · exact h
      · exact Or.inr rfl
    iexact HO

/-! ## The region's step inside @main -/

/-- From the region boundary, the four arrays, the debts `O` (none at the kernels' own index), the level facts and the
    pipeline's launch ghost state, the pipeline's call runs to the boundary and `regionPost` for any continuation. -/
theorem region_wp (d : Dev nD) (O : CellTallies nD τ sig (HIx 1)) (hO : ∀ g, O g none = 0) (W : Waits sig (HIx 1)) {α : Type}
    (k : PUnit → Prog (TpuEff nD τ sig (Elt F) (ΛP (F := F)) .tc) α) (Q : α → sProp 𝕄) :
    iprop((iprop(boundary (SparseCore.T d) ∗ regionPost m d O W) -∗ wp frame (wpE (D (F := F)) 𝒱 (SparseCore.T d) none) Set.univ (k ⟨⟩) Q)
        ∗ boundary (SparseCore.T d) ∗ regionPre m d O W ∗ levAts (K (F := F)).L (K (F := F)).lev ∗ GG d)
      ⊢ wp frame (wpE (D (F := F)) 𝒱 (SparseCore.T d) none) Set.univ (.op (.customCall (Pipeline.entry 0) ()) k) Q := by
  unfold GG
  exact Pipeline.RDat.RegionSeg.wp (pcfgs (F := F)) adm (fun _ c => rd m c O W) (none : HIx 1) cellOf_inj EP defs₀ 𝒱₀
    (K (F := F)).L (K (F := F)).lev (reg m O W hO) d none (fun u hu => by cases hu) k Q

end Cert.Kernel.Hand

end
-- ==== Proof.KB.Tile.lean ====
/-
  One vector subcore's task of the lookup kernel, from what the launch hands it to what it hands back.

  The task of SparseCore `c`, vector subcore `s` works on block `w = 2 * s + c` of 512 item positions. It copies its 512
  row numbers into its index scratch, gathers the scores at those rows into its row scratch (entry `k` of the scratch is
  the score array at the row that entry `k` of the list names; every row number is in range because every item number is
  between 1 and 1000000), replaces each of the thirty-two groups of sixteen lanes by its rating `1 / (1 + exp (0 - v))`,
  and copies the row scratch out to its block of the result.

  The value: the thirty-two stores tile the row scratch, and each stores the rating of the sixteen gathered lanes under it
  (the printed payloads are that rating up to casts to the same shape), so the scratch ends as `rate` of the gathered
  scores; read through the arrays' own indices, entry `g * 16 + l` of the task's block of the result is the rating of the
  scores at the task's row numbers `w * 512 + g * 16 + ·`, lane `l`.
-/
import proofs.«202434_g11450382811589_week1_w4_549_31_alg».proof.Proof.KB.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One task's views of the three arrays and of its scratch -/

section Tile

variable (d : Dev nD) (L : grid1.Coords)

abbrev cV (L : grid1.Coords) : Fin τ.nSC := (L 0).castLE hcore1
abbrev jV (L : grid1.Coords) : Fin τ.nSub := (L 1).castLE hsub1

/-- The 512 positions the task at `L` addresses, as the program slices them. -/
abbrev rowK (L : grid1.Coords) : Rect S16384 := Rect.unit (s := S16384) (k1_off1 L) S512.size (k1_off1_inb L)
abbrev iRowK (L : grid1.Coords) : Memref sig .scVector .hbm S512 .i32 := (iV).slice (rowK L) (fun _ => rfl)
abbrev oRowK (L : grid1.Coords) : Memref sig .scVector .hbm S512 .f32 := (oV).slice (rowK L) (fun _ => rfl)
abbrev xAllK : Memref sig .scVector .hbm S1000000 .f32 :=
  (xV).slice (Rect.unit (s := S1000000) ![0] S1000000.size inb_S1000000_S1000000_0) (fun _ => rfl)

/-- The program's slice at `L` is block `2 * subcore + core` of the cut into thirty-two. -/
theorem rowK_eq (w : Fin 32) (hw : w.val = 2 * (L 1).val + (L 0).val) : rowK L = rowsOf w := by
  unfold rowK rowsOf Rect.part Rect.block
  congr 1 <;> funext a
  · rw [k1_off1_eq]
    match a with
    | 0 => simp [Shape.partIx, Shape.partSize, hw]; omega
  · match a with
    | 0 => simp [Shape.partSize]

theorem set_iRowK (w : Fin 32) (hw : w.val = 2 * (L 1).val + (L 0).val) : (iRowK L).view.set = iRowSet w := by
  show ((iV).view.slice (rowK L)).set = ((iV).view.slice (rowsOf w)).set
  rw [rowK_eq L w hw]
theorem set_oRowK (w : Fin 32) (hw : w.val = 2 * (L 1).val + (L 0).val) : (oRowK L).view.set = oRowSet w := by
  show ((oV).view.slice (rowK L)).set = ((oV).view.slice (rowsOf w)).set
  rw [rowK_eq L w hw]

theorem pts_iRowK (w : Fin 32) (hw : w.val = 2 * (L 1).val + (L 0).val) (f : Buf (Elt F) (iLoc d)) :
    ((iRowK L).view.loc (V d (cV L) (jV L)) ↦[(iRowK L).view.set]{fullShare} f : sProp 𝕄) = iLoc d ↦[iRowSet w]{fullShare} f := by
  rw [set_iRowK L w hw]
theorem pts_oRowK (w : Fin 32) (hw : w.val = 2 * (L 1).val + (L 0).val) (f : Buf (Elt F) (oLoc d)) :
    ((oRowK L).view.loc (V d (cV L) (jV L)) ↦[(oRowK L).view.set]{fullShare} f : sProp 𝕄) = oLoc d ↦[oRowSet w]{fullShare} f := by
  rw [set_oRowK L w hw]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- The three cells the task's transfers land on: the row numbers' fetch, the gather, the write-out. -/
abbrev cAcell (d : Dev nD) (c : Fin τ.nSC) (i : Fin τ.nSub) : GSem nD τ sig := (V d c i, .dma cc1_scoped0.sem)
abbrev cGcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc1_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]

/-! ## The value: each stored group is the rating of the sixteen lanes loaded -/

/-- A cast to the same shape changes nothing. -/
theorem shapeCast_same {s : Shape} {α : Type} (v : s.Idx → α) (h : s.ShapeCasts s) : shapeCast s v h = v :=
  funext fun i => congrArg v (Shape.reshapeEquiv_self _ i)

theorem pay1_eq (v : Vec F S16 .f32) : k1_pay1 v = sigv v := by simp only [k1_pay1, sigv, shapeCast_same]
theorem pay2_eq (v : Vec F S16 .f32) : k1_pay2 v = sigv v := by simp only [k1_pay2, sigv, shapeCast_same]
theorem pay6_eq (v : Vec F S16 .f32) : k1_pay6 v = sigv v := by simp only [k1_pay6, sigv, shapeCast_same]
theorem pay7_eq (v : Vec F S16 .f32) : k1_pay7 v = sigv v := by simp only [k1_pay7, sigv, shapeCast_same]
theorem pay10_eq (v : Vec F S16 .f32) : k1_pay10 v = sigv v := by simp only [k1_pay10, sigv, shapeCast_same]
theorem pay11_eq (v : Vec F S16 .f32) : k1_pay11 v = sigv v := by simp only [k1_pay11, sigv, shapeCast_same]
theorem pay12_eq (v : Vec F S16 .f32) : k1_pay12 v = sigv v := by simp only [k1_pay12, sigv, shapeCast_same]
theorem pay13_eq (v : Vec F S16 .f32) : k1_pay13 v = sigv v := by simp only [k1_pay13, sigv, shapeCast_same]
theorem pay14_eq (v : Vec F S16 .f32) : k1_pay14 v = sigv v := by simp only [k1_pay14, sigv, shapeCast_same]
theorem pay15_eq (v : Vec F S16 .f32) : k1_pay15 v = sigv v := by simp only [k1_pay15, sigv, shapeCast_same]
theorem pay19_eq (v : Vec F S16 .f32) : k1_pay19 v = sigv v := by simp only [k1_pay19, sigv, shapeCast_same]
theorem pay20_eq (v : Vec F S16 .f32) : k1_pay20 v = sigv v := by simp only [k1_pay20, sigv, shapeCast_same]
theorem pay23_eq (v : Vec F S16 .f32) : k1_pay23 v = sigv v := by simp only [k1_pay23, sigv, shapeCast_same]
theorem pay24_eq (v : Vec F S16 .f32) : k1_pay24 v = sigv v := by simp only [k1_pay24, sigv, shapeCast_same]
theorem pay25_eq (v : Vec F S16 .f32) : k1_pay25 v = sigv v := by simp only [k1_pay25, sigv, shapeCast_same]
theorem pay26_eq (v : Vec F S16 .f32) : k1_pay26 v = sigv v := by simp only [k1_pay26, sigv, shapeCast_same]
theorem pay27_eq (v : Vec F S16 .f32) : k1_pay27 v = sigv v := by simp only [k1_pay27, sigv, shapeCast_same]
theorem pay28_eq (v : Vec F S16 .f32) : k1_pay28 v = sigv v := by simp only [k1_pay28, sigv, shapeCast_same]
theorem pay32_eq (v : Vec F S16 .f32) : k1_pay32 v = sigv v := by simp only [k1_pay32, sigv, shapeCast_same]
theorem pay33_eq (v : Vec F S16 .f32) : k1_pay33 v = sigv v := by simp only [k1_pay33, sigv, shapeCast_same]
theorem pay36_eq (v : Vec F S16 .f32) : k1_pay36 v = sigv v := by simp only [k1_pay36, sigv, shapeCast_same]
theorem pay37_eq (v : Vec F S16 .f32) : k1_pay37 v = sigv v := by simp only [k1_pay37, sigv, shapeCast_same]
theorem pay38_eq (v : Vec F S16 .f32) : k1_pay38 v = sigv v := by simp only [k1_pay38, sigv, shapeCast_same]
theorem pay39_eq (v : Vec F S16 .f32) : k1_pay39 v = sigv v := by simp only [k1_pay39, sigv, shapeCast_same]
theorem pay40_eq (v : Vec F S16 .f32) : k1_pay40 v = sigv v := by simp only [k1_pay40, sigv, shapeCast_same]
theorem pay41_eq (v : Vec F S16 .f32) : k1_pay41 v = sigv v := by simp only [k1_pay41, sigv, shapeCast_same]
theorem pay5_eq (v : Vec F S16 .f32) : k1_pay5 (k1_pay3 v) (k1_pay4 (F := F)) = sigv v := by simp only [k1_pay5, k1_pay3, k1_pay4, sigv, shapeCast_same]
theorem pay18_eq (v : Vec F S16 .f32) : k1_pay18 (k1_pay16 v) (k1_pay17 (F := F)) = sigv v := by simp only [k1_pay18, k1_pay16, k1_pay17, sigv, shapeCast_same]
theorem pay31_eq (v : Vec F S16 .f32) : k1_pay31 (k1_pay29 v) (k1_pay30 (F := F)) = sigv v := by simp only [k1_pay31, k1_pay29, k1_pay30, sigv, shapeCast_same]
theorem pay9_eq (v : Vec F S16 .f32) (cst : F .f32) (hc : cst = Scalar.ofBits .f32 0x3F800000#32) : k1_pay9 (k1_pay8 v) cst = sigv v := by subst hc; simp only [k1_pay9, k1_pay8, sigv, shapeCast_same]
theorem pay22_eq (v : Vec F S16 .f32) (cst : F .f32) (hc : cst = Scalar.ofBits .f32 0x3F800000#32) : k1_pay22 (k1_pay21 v) cst = sigv v := by subst hc; simp only [k1_pay22, k1_pay21, sigv, shapeCast_same]
theorem pay35_eq (v : Vec F S16 .f32) (cst : F .f32) (hc : cst = Scalar.ofBits .f32 0x3F800000#32) : k1_pay35 (k1_pay34 v) cst = sigv v := by subst hc; simp only [k1_pay35, k1_pay34, sigv, shapeCast_same]

variable (m : (ℓ : Loc nD τ sig) → Buf (Elt F) ℓ)

/-- Every row number is below the table's row count: an item number between 1 and 1000000, less one. -/
theorem idx_lt (hpre : PreOK m) (j : S16384.Idx) : ((idxV m d : IVec S16384 32) j).toNat < 1000000 := by
  have h := hpre d j
  have key : ∀ a : BitVec 32, 1 ≤ a.toNat → a.toNat ≤ 1000000 → (IntOp.subi a 1#32).toNat < 1000000 := by
    intro a h1 h2
    simp only [IntOp.subi, BitVec.toNat_sub, BitVec.toNat_ofNat]
    omega
  simp only [idxV, subi, broadcastInDim, constantI]
  exact key _ h.1 h.2

/-- The offsets the stream reads are in range: what the fetch landed in the list's scratch is the task's block of the
    row numbers. -/
theorem inb_of_pre (hpre : PreOK m) (fs : Buf (Elt F) ((V d (cV L) (jV L)).loc cc1_scratch0)) (pay : S512.Idx → Elt F .i32)
    (hpay : pay = (iRowK L).view.read (Elt F) (idxV m d)) :
    ∀ x, ((sV).view.read (Elt F) (View.write (Elt F) (sV).view fs pay Finset.univ) x).toNat < S1000000.size gathers_S1000000_S512.axis := by
  subst hpay; intro x
  rw [View.write_whole_univ]
  simp only [Memref.view_whole, View.read_whole]
  rw [show ∀ j, (iRowK L).view.read (Elt F) (idxV m d) j = idxV m d ((iRowK L).view.emb j) from fun j => (View.read_apply _ _).trans (cast_eq _ _)]
  exact idx_lt d m hpre _

/-- The gathered scores: entry `k` of the row buffer is the score array at the row the list's entry `k` names. -/
def gathered (hpre : PreOK m) (f4 : Buf (Elt F) (xLoc d)) (fs : Buf (Elt F) ((V d (cV L) (jV L)).loc cc1_scratch0)) : S512.Idx → Elt F .f32 :=
  SparseCore.gatherPayload gathers_S1000000_S512 (View.read (Elt F) (xAllK).view f4)
    (SparseCore.rows (View.read (Elt F) (sV).view (View.write (Elt F) (sV).view fs ((iRowK L).view.read (Elt F) (idxV m d)) Finset.univ))
      rfl (inb_of_pre d L m hpre fs _ rfl))

/-- The whole score array's index under a gathered entry is the row its list entry names. -/
theorem emb_gather_idx (r : Fin (S512.size gathers_S1000000_S512.axis') → Fin (S1000000.size gathers_S1000000_S512.axis)) (y : S512.Idx) :
    (xAllK).view.emb (gathers_S1000000_S512.idx r y) = ValueIdx.ix1 (r (y 0)) := by
  funext a
  match a with
  | ⟨0, _⟩ =>
    apply Fin.ext
    have e := congrArg Fin.val (Shape.Gathers.idx_axis gathers_S1000000_S512 r y)
    show 0 + 1 * ((gathers_S1000000_S512.idx r y) gathers_S1000000_S512.axis).val = (r (y gathers_S1000000_S512.axis')).val
    rw [e, Nat.one_mul, Nat.zero_add]

/-- Entry `k` of a rank-one shape in row-major order is index `k`. -/
theorem rowMajor_symm_val (k : Fin S512.numel) : ((S512.rowMajor.symm k) 0).val = k.val := by
  have h := Shape.rowMajor_val_one (d := ![512]) (S512.rowMajor.symm k)
  rw [Equiv.apply_symm_apply] at h
  exact h.symm

/-- Entry `k` of the gathered scores, in the arrays' own indices. -/
theorem gathered_apply (w : Fin 32) (hw : w.val = 2 * (L 1).val + (L 0).val) (hpre : PreOK m) (f4 : Buf (Elt F) (xLoc d))
    (fs : Buf (Elt F) ((V d (cV L) (jV L)).loc cc1_scratch0)) (k : Fin 512) :
    gathered d L m hpre f4 fs (ValueIdx.ix1 k)
      = (f4 : FVec F S1000000 .f32) (ValueIdx.ix1 ⟨((idxV m d : IVec S16384 32) (ValueIdx.ix1 ⟨w.val * 512 + k.val, by omega⟩)).toNat, idx_lt d m hpre _⟩) := by
  unfold gathered SparseCore.gatherPayload
  rw [View.read_apply, cast_eq, emb_gather_idx]
  congr 2
  apply Fin.ext
  unfold SparseCore.rows
  show ((View.read (Elt F) (sV).view (View.write (Elt F) (sV).view fs ((iRowK L).view.read (Elt F) (idxV m d)) Finset.univ))
      (S512.rowMajor.symm (Fin.cast _ k))).toNat = _
  rw [View.write_whole_univ]
  simp only [Memref.view_whole, View.read_whole]
  rw [View.read_apply, cast_eq]
  congr 2
  funext a
  match a with
  | ⟨0, _⟩ =>
    apply Fin.ext
    have hz := rowMajor_symm_val (Fin.cast (by rfl) k)
    show (k1_off1 L) 0 + 1 * ((S512.rowMajor.symm (Fin.cast _ k)) 0).val = w.val * 512 + k.val
    rw [k1_off1_eq, hz]
    show (1024 * (L 1).val + 512 * (L 0).val) + 1 * k.val = w.val * 512 + k.val
    omega

/-- The rating of every entry of a 512-entry buffer, sixteen lanes at a time. -/
def rate (G : S512.Idx → Elt F .f32) : S512.Idx → Elt F .f32 := fun y =>
  sigv (fun l' : S16.Idx => G (ValueIdx.ix1 ⟨(y 0).val / 16 * 16 + (l' 0).val, by
      have h1 : (y 0).val < 512 := (y 0).isLt; have h2 : (l' 0).val < 16 := (l' 0).isLt; omega⟩))
    (ValueIdx.ix1 ⟨(y 0).val % 16, Nat.mod_lt _ (by decide)⟩)

/-- A group's rating, stored through its sixteen-lane rectangle, is `rate` at the rectangle's elements. -/
theorem piece_rate (G : S512.Idx → Elt F .f32) (fr : Buf (Elt F) ((V d (cV L) (jV L)).loc cc1_scratch1)) (c : ℕ) (hc : c % 16 = 0)
    (inb : ∀ a, (![c] : Fin 1 → ℕ) a + S16.size a ≤ S512.size a)
    (v : Vec F S16 .f32) (hv : v = View.readAt (Elt F) (rV).view (Rect.unit (s := S512) ![c] S16.size inb).toLoadRect (View.write (Elt F) (rV).view fr G Finset.univ))
    (x : (Rect.unit (s := S512) ![c] S16.size inb).shape.Idx) :
    sigv v x = rate G ((Rect.unit (s := S512) ![c] S16.size inb).emb x) := by
  subst hv
  have hx : (x 0).val < 16 := (x 0).isLt
  have hcb : c + 16 ≤ 512 := inb 0
  have e0 : (((Rect.unit (s := S512) ![c] S16.size inb).emb x) 0).val = c + (x 0).val := by
    show c + 1 * (x 0).val = _; omega
  rw [View.write_whole_univ]
  have hA : View.readAt (Elt F) (rV).view (Rect.unit (s := S512) ![c] S16.size inb).toLoadRect G
      = fun l' : S16.Idx => G (ValueIdx.ix1 ⟨(((Rect.unit (s := S512) ![c] S16.size inb).emb x) 0).val / 16 * 16 + (l' 0).val, by
          have h2 : (l' 0).val < 16 := (l' 0).isLt; omega⟩) := by
    funext l'
    have h2 : (l' 0).val < 16 := (l' 0).isLt
    rw [View.readAt_apply]
    simp only [Memref.view_whole, View.read_whole]
    congr 1
    funext a
    match a with
    | ⟨0, _⟩ =>
      apply Fin.ext
      show c + 1 * (l' 0).val = (((Rect.unit (s := S512) ![c] S16.size inb).emb x) 0).val / 16 * 16 + (l' 0).val
      rw [e0]; omega
  have hX : (x : S16.Idx) = ValueIdx.ix1 ⟨(((Rect.unit (s := S512) ![c] S16.size inb).emb x) 0).val % 16, Nat.mod_lt _ (by decide)⟩ := by
    funext a
    match a with
    | ⟨0, _⟩ =>
      apply Fin.ext
      show (x 0).val = (((Rect.unit (s := S512) ![c] S16.size inb).emb x) 0).val % 16
      rw [e0]; omega
  unfold rate
  rw [hA]
  exact congrArg _ hX

/-- Entry `g * 16 + l'` of the gathered scores is the score at the task's row number `w * 512 + g * 16 + l'`. -/
theorem gathered_group (w : Fin 32) (hw : w.val = 2 * (L 1).val + (L 0).val) (hpre : PreOK m) (f4 : Buf (Elt F) (xLoc d))
    (fs : Buf (Elt F) ((V d (cV L) (jV L)).loc cc1_scratch0)) (g : Fin 32) (l' : S16.Idx) :
    gathered d L m hpre f4 fs (ValueIdx.ix1 ⟨g.val * 16 + (l' 0).val, by have h : (l' 0).val < 16 := (l' 0).isLt; omega⟩)
      = (f4 : FVec F S1000000 .f32) (ValueIdx.ix1 ⟨min ((idxV m d : IVec S16384 32) (ValueIdx.ix1 ⟨w.val * 512 + g.val * 16 + (l' 0).val, by have h : (l' 0).val < 16 := (l' 0).isLt; omega⟩)).toNat 999999, by omega⟩) := by
  have h : (l' 0).val < 16 := (l' 0).isLt
  rw [gathered_apply d L m w hw hpre f4 fs]
  congr 2
  apply Fin.ext
  have hlt := idx_lt d m hpre (ValueIdx.ix1 ⟨w.val * 512 + g.val * 16 + (l' 0).val, by omega⟩)
  show ((idxV m d : IVec S16384 32) (ValueIdx.ix1 ⟨w.val * 512 + (g.val * 16 + (l' 0).val), _⟩)).toNat
    = min ((idxV m d : IVec S16384 32) (ValueIdx.ix1 ⟨w.val * 512 + g.val * 16 + (l' 0).val, _⟩)).toNat 999999
  rw [Nat.min_eq_left (by omega)]
  congr 3
  apply Fin.ext
  show w.val * 512 + (g.val * 16 + (l' 0).val) = w.val * 512 + g.val * 16 + (l' 0).val
  omega

/-- What the write-out leaves in the task's block of the result: the ratings of the gathered scores. -/
theorem tileOK_of (w : Fin 32) (hw : w.val = 2 * (L 1).val + (L 0).val) (hpre : PreOK m) (f4 : Buf (Elt F) (xLoc d)) (hf4 : ScoreOK m d f4)
    (fs : Buf (Elt F) ((V d (cV L) (jV L)).loc cc1_scratch0)) (f5 : Buf (Elt F) (oLoc d)) (pay : S512.Idx → Elt F .f32)
    (hpay : pay = rate (gathered d L m hpre f4 fs)) :
    TileOK m d w ((oRowK L).view.writes (Elt F) f5 [⟨Rect.whole S512, pay⟩]) := by
  subst hpay
  refine ⟨f4, hf4, fun g l => ?_⟩
  have hg : g.val < 32 := g.isLt
  have hl : l.val < 16 := l.isLt
  have hidx : (ValueIdx.ix1 ⟨w.val * 512 + g.val * 16 + l.val, by omega⟩ : S16384.Idx)
      = (oRowK L).view.emb ((Rect.whole S512).emb (ValueIdx.ix1 ⟨g.val * 16 + l.val, by omega⟩)) := by
    funext a
    match a with
    | ⟨0, _⟩ =>
      apply Fin.ext
      show w.val * 512 + g.val * 16 + l.val = (k1_off1 L) 0 + 1 * (0 + 1 * (g.val * 16 + l.val))
      rw [k1_off1_eq]
      show w.val * 512 + g.val * 16 + l.val = (1024 * (L 1).val + 512 * (L 0).val) + 1 * (0 + 1 * (g.val * 16 + l.val))
      omega
  have hread := View.read_writes_cons_emb (oRowK L).view f5 (Rect.whole S512) (rate (gathered d L m hpre f4 fs)) []
    (ValueIdx.ix1 ⟨g.val * 16 + l.val, by omega⟩)
  rw [View.read_apply, cast_eq] at hread
  rw [hidx, hread]
  unfold rate
  have hA : (fun l' : S16.Idx => gathered d L m hpre f4 fs (ValueIdx.ix1 ⟨((ValueIdx.ix1 (⟨g.val * 16 + l.val, by omega⟩ : Fin 512) : S512.Idx) 0).val / 16 * 16 + (l' 0).val, by
        have h2 : (l' 0).val < 16 := (l' 0).isLt
        show (g.val * 16 + l.val) / 16 * 16 + (l' 0).val < 512
        omega⟩))
      = fun l' : S16.Idx => (f4 : FVec F S1000000 .f32) (ValueIdx.ix1 ⟨min ((idxV m d : IVec S16384 32) (ValueIdx.ix1 ⟨w.val * 512 + g.val * 16 + (l' 0).val, by have h : (l' 0).val < 16 := (l' 0).isLt; omega⟩)).toNat 999999, by omega⟩) := by
    funext l'
    have h2 : (l' 0).val < 16 := (l' 0).isLt
    rw [← gathered_group d L m w hw hpre f4 fs g l']
    congr 2
    apply Fin.ext
    show (g.val * 16 + l.val) / 16 * 16 + (l' 0).val = g.val * 16 + (l' 0).val
    omega
  have hX : (ValueIdx.ix1 ⟨((ValueIdx.ix1 (⟨g.val * 16 + l.val, by omega⟩ : Fin 512) : S512.Idx) 0).val % 16, Nat.mod_lt _ (by decide)⟩ : S16.Idx) = ValueIdx.ix1 l := by
    congr 1
    apply Fin.ext
    show (g.val * 16 + l.val) % 16 = l.val
    omega
  rw [hA, hX]

/-! ## The task's body -/

set_option maxRecDepth 16384 in
set_option maxHeartbeats 8000000 in
/-- The task on vector subcore `(L 0, L 1)` of device `d`, block `w = 2 * subcore + core`: the row numbers' fetch and its
    wait, the gather of the scores at them and its wait, thirty-two groups of sixteen lanes loaded, rated and stored back,
    the write-out and its wait. It leaves in its block of the result the ratings of the scores gathered at its row numbers. -/
theorem tile_body (w : Fin 32) (hw : w.val = 2 * (L 1).val + (L 0).val) (hF : (K (F := F)).Facts) (hpre : PreOK m)
    (O : CellTallies nD τ sig (HIx 1)) (W : Waits sig (HIx 1)) (hO : ∀ g, O g none = 0) :
    iprop(levAts (K (F := F)).L (K (F := F)).lev ∗ emp
        ∗ goOf m d (m (oLoc d)) w
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_select_k L iV (Memref.isWhole_whole _) xV (Memref.isWhole_whole _) oV (Memref.isWhole_whole _)
            sV (Memref.isWhole_whole _) rV (Memref.isWhole_whole _) cc1_scratch2 cc1_scoped0 cc1_scoped1)
          fun _ => iprop(tdOf m d w
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_select_k_eq_skeleton]; unfold cc1_select_k_skel
  rw [(K (F := F)).scopedBufs_V hF d (cV L) (jV L), SparseCore.Cfg.scopedSems0_V (Val := Elt F) d (cV L) (jV L), ownSems0_V, ownBufs_V]
  unfold goOf
  iintro ⟨#Hlv, -, ⟨Hi, ⟨%f4, Hx, %hf4⟩, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L w hw _).symm) $$ Hi
  ihave Ho' := (Entails.of_eq (pts_oRowK (F := F) d L w hw _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather, by the stream's rule: a share of the score array's elements, the row buffer, the list's buffer whole and
  -- the cell at zero go in; the list's words are in range by the precondition
  ihave Hxs := (pointsTo_split_subset (q := xq w) (f := f4) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L m) Finset.univ : sProp 𝕄)
      = (sV).view.loc (V d (cV L) (jV L)) ↦[(sV).view.set]{fullShare} View.write (Elt F) (sV).view fs (tile_body.sl.dma0 d L m) Finset.univ
      by rw [hss])) $$ Hs'
  iapply (SparseCore.wp_indirectGatherLocal countersEmb 𝒱₀ (V d (cV L) (jV L)) none (hg := gathers_S1000000_S512) (default : HIx 1)
      (rV).view.dmaCredit (SparseCore.sum_rowCredit_eq_dmaCredit rV _ (fun _ => rfl)) (by decide) (inb_of_pre d L m hpre fs _ rfl)) $$ [Hxs Hr'' Hs'' HsemG]
  · isplitl [Hxs]; · iexact Hxs
    isplitl [Hr'']; · iexact Hr''
    isplitl [Hs'']; · iexact Hs''
    iexact HsemG
  iintro Hfl
  sl_exec
  -- its wait: the row buffer written with the gathered scores, the share of the score array and the list's buffer back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemG, HO⟩
  ihave Hx' := (pointsTo_split_subset (q := xq w) (f := f4) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  -- the value: the thirty-two stores tile the row buffer, each the rating of the gathered scores under it
  have hval : tile_body.sl.dma96 d L m hpre f4 fs fr = rate (gathered d L m hpre f4 fs) := by
    have hcov := View.cover_of_tiled (tile_body.sl.Hr3_32 d L m hpre f4 fs fr) (fun _ => 16) rfl
    have hpc : ∀ p ∈ tile_body.sl.Hr3_32 d L m hpre f4 fs fr, ∀ x : p.1.shape.Idx,
        p.2 x = rate (gathered d L m hpre f4 fs) (p.1.emb x) := by
      unfold tile_body.sl.Hr3_32
      refine List.forall_mem_cons.mpr ⟨fun x => (congrFun (pay41_eq (tile_body.sl.v377 d L m hpre f4 fs fr)) x).trans
        (piece_rate d L (gathered d L m hpre f4 fs) fr 496 (by decide) inb_S512_S16_496 _ rfl x), ?_⟩
      refine List.forall_mem_cons.mpr ⟨fun x => (congrFun (pay40_eq (tile_body.sl.v365 d L m hpre f4 fs fr)) x).trans
        (piece_rate d L (gathered d L m hpre f4 fs) fr 480 (by decide) inb_S512_S16_480 _ rfl x), ?_⟩
      refine List.forall_mem_cons.mpr ⟨fun x => (congrFun (pay39_eq (tile_body.sl.v353 d L m hpre f4 fs fr)) x).trans
        (piece_rate d L (gathered d L m hpre f4 fs) fr 464 (by decide) inb_S512_S16_464 _ rfl x), ?_⟩
      refine List.forall_mem_cons.mpr ⟨fun x => (congrFun (pay38_eq (tile_body.sl.v341 d L m hpre f4 fs fr)) x).trans
        (piece_rate d L (gathered d L m hpre f4 fs) fr 448 (by decide) inb_S512_S16_448 _ rfl x), ?_⟩
      refine List.forall_mem_cons.mpr ⟨fun x => (congrFun (pay37_eq (tile_body.sl.v329 d L m hpre f4 fs fr)) x).trans
        (piece_rate d L (gathered d L m hpre f4 fs) fr 432 (by decide) inb_S512_S16_432 _ rfl x), ?_⟩
      refine List.forall_mem_cons.mpr ⟨fun x => (congrFun (pay36_eq (tile_body.sl.v317 d L m hpre f4 fs fr)) x).trans
        (piece_rate d L (gathered d L m hpre f4 fs) fr 416 (by decide) inb_S512_S16_416 _ rfl x), ?_⟩
      refine List.forall_mem_cons.mpr ⟨fun x => (congrFun (pay35_eq (tile_body.sl.v305 d L m hpre f4 fs fr) _ rfl) x).trans
        (piece_rate d L (gathered d L m hpre f4 fs) fr 400 (by decide) inb_S512_S16_400 _ rfl x), ?_⟩
      refine List.forall_mem_cons.mpr ⟨fun x => (congrFun (pay33_eq (tile_body.sl.v293 d L m hpre f4 fs fr)) x).trans
        (piece_rate d L (gathered d L m hpre f4 fs) fr 384 (by decide) inb_S512_S16_384 _ rfl x), ?_⟩
      refine List.forall_mem_cons.mpr ⟨fun x => (congrFun (pay32_eq (tile_body.sl.v281 d L m hpre f4 fs fr)) x).trans
        (piece_rate d L (gathered d L m hpre f4 fs) fr 368 (by decide) inb_S512_S16_368 _ rfl x), ?_⟩
      refine List.forall_mem_cons.mpr ⟨fun x => (congrFun (pay31_eq (tile_body.sl.v269 d L m hpre f4 fs fr)) x).trans
        (piece_rate d L (gathered d L m hpre f4 fs) fr 352 (by decide) inb_S512_S16_352 _ rfl x), ?_⟩
      refine List.forall_mem_cons.mpr ⟨fun x => (congrFun (pay28_eq (tile_body.sl.v257 d L m hpre f4 fs fr)) x).trans
        (piece_rate d L (gathered d L m hpre f4 fs) fr 336 (by decide) inb_S512_S16_336 _ rfl x), ?_⟩
      refine List.forall_mem_cons.mpr ⟨fun x => (congrFun (pay27_eq (tile_body.sl.v245 d L m hpre f4 fs fr)) x).trans
        (piece_rate d L (gathered d L m hpre f4 fs) fr 320 (by decide) inb_S512_S16_320 _ rfl x), ?_⟩
      refine List.forall_mem_cons.mpr ⟨fun x => (congrFun (pay26_eq (tile_body.sl.v233 d L m hpre f4 fs fr)) x).trans
        (piece_rate d L (gathered d L m hpre f4 fs) fr 304 (by decide) inb_S512_S16_304 _ rfl x), ?_⟩
      refine List.forall_mem_cons.mpr ⟨fun x => (congrFun (pay25_eq (tile_body.sl.v221 d L m hpre f4 fs fr)) x).trans
        (piece_rate d L (gathered d L m hpre f4 fs) fr 288 (by decide) inb_S512_S16_288 _ rfl x), ?_⟩
      refine List.forall_mem_cons.mpr ⟨fun x => (congrFun (pay24_eq (tile_body.sl.v209 d L m hpre f4 fs fr)) x).trans
        (piece_rate d L (gathered d L m hpre f4 fs) fr 272 (by decide) inb_S512_S16_272 _ rfl x), ?_⟩
      refine List.forall_mem_cons.mpr ⟨fun x => (congrFun (pay23_eq (tile_body.sl.v197 d L m hpre f4 fs fr)) x).trans
        (piece_rate d L (gathered d L m hpre f4 fs) fr 256 (by decide) inb_S512_S16_256 _ rfl x), ?_⟩
      refine List.forall_mem_cons.mpr ⟨fun x => (congrFun (pay22_eq (tile_body.sl.v185 d L m hpre f4 fs fr) _ rfl) x).trans
        (piece_rate d L (gathered d L m hpre f4 fs) fr 240 (by decide) inb_S512_S16_240 _ rfl x), ?_⟩
      refine List.forall_mem_cons.mpr ⟨fun x => (congrFun (pay20_eq (tile_body.sl.v173 d L m hpre f4 fs fr)) x).trans
        (piece_rate d L (gathered d L m hpre f4 fs) fr 224 (by decide) inb_S512_S16_224 _ rfl x), ?_⟩
      refine List.forall_mem_cons.mpr ⟨fun x => (congrFun (pay19_eq (tile_body.sl.v161 d L m hpre f4 fs fr)) x).trans
        (piece_rate d L (gathered d L m hpre f4 fs) fr 208 (by decide) inb_S512_S16_208 _ rfl x), ?_⟩
      refine List.forall_mem_cons.mpr ⟨fun x => (congrFun (pay18_eq (tile_body.sl.v149 d L m hpre f4 fs fr)) x).trans
        (piece_rate d L (gathered d L m hpre f4 fs) fr 192 (by decide) inb_S512_S16_192 _ rfl x), ?_⟩
      refine List.forall_mem_cons.mpr ⟨fun x => (congrFun (pay15_eq (tile_body.sl.v137 d L m hpre f4 fs fr)) x).trans
        (piece_rate d L (gathered d L m hpre f4 fs) fr 176 (by decide) inb_S512_S16_176 _ rfl x), ?_⟩
      refine List.forall_mem_cons.mpr ⟨fun x => (congrFun (pay14_eq (tile_body.sl.v125 d L m hpre f4 fs fr)) x).trans
        (piece_rate d L (gathered d L m hpre f4 fs) fr 160 (by decide) inb_S512_S16_160 _ rfl x), ?_⟩
      refine List.forall_mem_cons.mpr ⟨fun x => (congrFun (pay13_eq (tile_body.sl.v113 d L m hpre f4 fs fr)) x).trans
        (piece_rate d L (gathered d L m hpre f4 fs) fr 144 (by decide) inb_S512_S16_144 _ rfl x), ?_⟩
      refine List.forall_mem_cons.mpr ⟨fun x => (congrFun (pay12_eq (tile_body.sl.v101 d L m hpre f4 fs fr)) x).trans
        (piece_rate d L (gathered d L m hpre f4 fs) fr 128 (by decide) inb_S512_S16_128 _ rfl x), ?_⟩
      refine List.forall_mem_cons.mpr ⟨fun x => (congrFun (pay11_eq (tile_body.sl.v89 d L m hpre f4 fs fr)) x).trans
        (piece_rate d L (gathered d L m hpre f4 fs) fr 112 (by decide) inb_S512_S16_112 _ rfl x), ?_⟩
      refine List.forall_mem_cons.mpr ⟨fun x => (congrFun (pay10_eq (tile_body.sl.v77 d L m hpre f4 fs fr)) x).trans
        (piece_rate d L (gathered d L m hpre f4 fs) fr 96 (by decide) inb_S512_S16_96 _ rfl x), ?_⟩
      refine List.forall_mem_cons.mpr ⟨fun x => (congrFun (pay9_eq (tile_body.sl.v65 d L m hpre f4 fs fr) _ rfl) x).trans
        (piece_rate d L (gathered d L m hpre f4 fs) fr 80 (by decide) inb_S512_S16_80 _ rfl x), ?_⟩
      refine List.forall_mem_cons.mpr ⟨fun x => (congrFun (pay7_eq (tile_body.sl.v53 d L m hpre f4 fs fr)) x).trans
        (piece_rate d L (gathered d L m hpre f4 fs) fr 64 (by decide) inb_S512_S16_64 _ rfl x), ?_⟩
      refine List.forall_mem_cons.mpr ⟨fun x => (congrFun (pay6_eq (tile_body.sl.v41 d L m hpre f4 fs fr)) x).trans
        (piece_rate d L (gathered d L m hpre f4 fs) fr 48 (by decide) inb_S512_S16_48 _ rfl x), ?_⟩
      refine List.forall_mem_cons.mpr ⟨fun x => (congrFun (pay5_eq (tile_body.sl.v29 d L m hpre f4 fs fr)) x).trans
        (piece_rate d L (gathered d L m hpre f4 fs) fr 32 (by decide) inb_S512_S16_32 _ rfl x), ?_⟩
      refine List.forall_mem_cons.mpr ⟨fun x => (congrFun (pay2_eq (tile_body.sl.v17 d L m hpre f4 fs fr)) x).trans
        (piece_rate d L (gathered d L m hpre f4 fs) fr 16 (by decide) inb_S512_S16_16 _ rfl x), ?_⟩
      refine List.forall_mem_cons.mpr ⟨fun x => (congrFun (pay1_eq (tile_body.sl.v5 d L m hpre f4 fs fr)) x).trans
        (piece_rate d L (gathered d L m hpre f4 fs) fr 0 (by decide) inb_S512_S16_0 _ rfl x), ?_⟩
      exact fun _ h => absurd h List.not_mem_nil
    funext y
    exact View.read_writes_apply_of_pieces (rV).view _ (rate (gathered d L m hpre f4 fs)) _ hpc y (hcov y)
  sl_step
  isplitl [Hi' Ho']
  · unfold tdOf
    isplitl [Hi']; · iapply (Entails.of_eq (pts_iRowK (F := F) d L w hw _)); iexact Hi'
    iexists _; isplitl [Ho']
    · iapply (Entails.of_eq (pts_oRowK (F := F) d L w hw _)); iexact Ho'
    · ipureintro; exact tileOK_of d L m w hw hpre f4 hf4 fs _ _ hval
  isplitl [Hs3 Hr3 Hbufs]
  · isplitl [Hs3]; · iexists _; iexact Hs3
    isplitl [Hr3]; · iexists _; iexact Hr3
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

theorem defs₀_vector (c : Fin τ.nSC) (s : Fin τ.nSub) :
    defs₀ (F := F) (.scVector c s) 1 ()
      = SparseCore.onTile hcore1 hsub1 (fun c s => cc1_select_k (coordsV c s)
          iV (Memref.isWhole_whole _) xV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the vector-subcore kernel: every task, from what it is handed to what it hands back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m (wid (Fin.cast nCore_zero c) (Fin.cast nSub_zero i)) rfl hF hpre O W hO).trans
    (wp_mono frame _ _ fun _ => obl_post)

end Tile

end Cert.Kernel.Hand

end
-- ==== Proof.KB.Split.lean ====
/-
  The launch's bookkeeping around the one SparseCore call: how the call's operands, whole, become the thirty-two tasks'
  parts (the 16384 positions cut into 32 blocks of 512; the score array's full share halved five times; the blocks dealt
  two per subcore, the SparseCore the low bit) and how the tasks' results join again into the whole result array.
-/
import proofs.«202434_g11450382811589_week1_w4_549_31_alg».proof.Proof.KB.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Regrouping: tasks, SparseCores, blocks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A block is a (SparseCore, subcore) pair: the SparseCore its low bit. -/
def widEquiv : Fin 2 × Fin 16 ≃ Fin 32 where
  toFun p := wid p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

/-- The thirty-two blocks, SparseCore by SparseCore, subcore by subcore. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

/-! ## The blocks of positions -/

theorem iRowSet_eq (w : Fin 32) : iRowSet w = (rowsOf w).set := by
  show ((View.whole (main_v1_scv : Ref sig .scVector)).slice (rowsOf w)).set = _
  rw [View.set_slice]; exact Finset.map_refl
theorem oRowSet_eq (w : Fin 32) : oRowSet w = (rowsOf w).set := by
  show ((View.whole (main_v5_scv : Ref sig .scVector)).slice (rowsOf w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint div32 h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint div32 h
theorem irows_cover : (Finset.univ : Finset (Fin 32)).biUnion iRowSet = Finset.univ :=
  (Finset.biUnion_congr rfl fun i _ => iRowSet_eq i).trans (Rect.biUnion_part div32)
theorem orows_cover : (Finset.univ : Finset (Fin 32)).biUnion oRowSet = Finset.univ :=
  (Finset.biUnion_congr rfl fun i _ => oRowSet_eq i).trans (Rect.biUnion_part div32)

/-- Position `k` lies in block `w` when `w * 512 ≤ k < w * 512 + 512`. -/
theorem mem_rowsOf (w : Fin 32) (k : ℕ) (hk : k < 16384) (h : w.val * 512 ≤ k ∧ k < w.val * 512 + 512) :
    (ValueIdx.ix1 (⟨k, hk⟩ : Fin 16384) : S16384.Idx) ∈ (rowsOf w).set := by
  refine Rect.mem_set_unit.mpr fun a => ?_
  match a with
  | ⟨0, _⟩ =>
    show w.val * (16384 / 32) ≤ k ∧ k < w.val * (16384 / 32) + 16384 / 32
    omega

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## The score array's full share is its thirty-two leaves -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

theorem xPts_shares (d : Dev nD) (f : Buf (Elt F) (xLoc d)) :
    (xLoc d ↦{fullShare} f : sProp 𝕄) = bigSep Finset.univ fun w : Fin 32 => xLoc d ↦{xq w} f :=
  pointsTo_leaves Finset.univ f 5 fullShare
variable [FloatOps F]
variable (m : (ℓ : Loc nD τ sig) → Buf (Elt F) ℓ)

/-! ## A SparseCore's operands are its sixteen tasks' -/

theorem vecSplit : (K (F := F)).VecSplit' (P m) 0 := by
  intro d c
  show (bigSep Finset.univ fun i : Fin 16 => goOf m d (m (oLoc d)) (wid (Fin.cast nCore_zero c) i)) ⊢ |={Set.univ}=> iprop(
      (bigSep Finset.univ fun i : Fin ((K (F := F)).nSub 0) => goOf m d (m (oLoc d)) (wid (Fin.cast nCore_zero c) (Fin.cast nSub_zero i)))
      ∗ ((bigSep Finset.univ fun i : Fin ((K (F := F)).nSub 0) => tdOf m d (wid (Fin.cast nCore_zero c) (Fin.cast nSub_zero i)))
          -∗ bigSep Finset.univ fun i : Fin 16 => tdOf m d (wid (Fin.cast nCore_zero c) i)))
  rw [bigSep_tasks (F := F) (fun i => goOf m d (m (oLoc d)) (wid (Fin.cast nCore_zero c) i)),
    bigSep_tasks (F := F) (fun i => tdOf m d (wid (Fin.cast nCore_zero c) i))]
  iintro H; imodintro
  isplitl [H]; · iexact H
  iintro H; iexact H

/-! ## The call's operands, whole, are the thirty-two tasks' -/

/-- A task's result is judged on its own block only. -/
theorem TileOK_congr (d : Dev nD) (w : Fin 32) (f g : Buf (Elt F) (oLoc d)) (h : ∀ i ∈ oRowSet w, g i = f i)
    (hf : TileOK m d w f) : TileOK m d w g := by
  obtain ⟨f4, h4, hv⟩ := hf
  refine ⟨f4, h4, fun gg l => ?_⟩
  refine (h _ ?_).trans (hv gg l)
  rw [oRowSet_eq]
  have hg := gg.isLt
  have hl := l.isLt
  exact mem_rowsOf w _ _ ⟨by omega, by omega⟩

theorem st_eq (d : Dev nD) : (bigSep Finset.univ fun c : Fin ((K (F := F)).nCore 0) => (P m).st 0 d c : sProp 𝕄)
    = bigSep Finset.univ fun w : Fin 32 => goOf m d (m (oLoc d)) w := by
  rw [bigSep_blocks (F := F) (fun w => goOf m d (m (oLoc d)) w)]
  exact bigSep_cores (F := F) (fun c => bigSep Finset.univ fun i : Fin 16 => goOf m d (m (oLoc d)) (wid c i))
theorem dn_eq (d : Dev nD) : (bigSep Finset.univ fun c : Fin ((K (F := F)).nCore 0) => (P m).dn 0 d c : sProp 𝕄)
    = bigSep Finset.univ fun w : Fin 32 => tdOf m d w := by
  rw [bigSep_blocks (F := F) (fun w => tdOf m d w)]
  exact bigSep_cores (F := F) (fun c => bigSep Finset.univ fun i : Fin 16 => tdOf m d (wid c i))

/-- One task's part, the admissible score array named. -/
theorem go_intro (d : Dev nD) (f4 : Buf (Elt F) (xLoc d)) (h4 : ScoreOK m d f4) (w : Fin 32) :
    iprop((iLoc d ↦[iRowSet w]{fullShare} idxV m d) ∗ (xLoc d ↦{xq w} f4) ∗ oLoc d ↦[oRowSet w]{fullShare} m (oLoc d))
      ⊢ (goOf m d (m (oLoc d)) w : sProp 𝕄) := by
  unfold goOf iRowPts xShPts oRowPts
  iintro ⟨Hi, Hx, Ho⟩
  isplitl [Hi]; · iexact Hi
  isplitl [Hx]
  · iexists f4
    isplitl [Hx]; · iexact Hx
    ipureintro; exact h4
  iexact Ho

theorem st_intro (d : Dev nD) (f4 : Buf (Elt F) (xLoc d)) (h4 : ScoreOK m d f4) :
    iprop(iPts m d ∗ (xLoc d ↦{fullShare} f4) ∗ oPts d (m (oLoc d)))
      ⊢ (bigSep Finset.univ fun c : Fin ((K (F := F)).nCore 0) => (P m).st 0 d c : sProp 𝕄) := by
  rw [st_eq]
  unfold iPts oPts
  rw [iPts_rows, xPts_shares, oPts_rows, ← bigSep_sep', ← bigSep_sep']
  exact bigSep_mono fun w _ => go_intro m d f4 h4 w

theorem td_pure_first (d : Dev nD) (w : Fin 32) (f : Buf (Elt F) (oLoc d)) :
    iprop(oRowPts d w f ∗ ⌜TileOK m d w f⌝) ⊢ (iprop(⌜TileOK m d w f⌝ ∗ oRowPts d w f) : sProp 𝕄) := by
  iintro ⟨H, %h⟩
  isplitr; · ipureintro; exact h
  iexact H

set_option maxRecDepth 4096 in
theorem oRows_join (d : Dev nD) :
    (bigSep Finset.univ fun w : Fin 32 => iprop(∃ f, oRowPts d w f ∗ ⌜TileOK m d w f⌝))
      ⊢ (iprop(∃ f5, oPts d f5 ∗ ⌜∀ w : Fin 32, TileOK m d w f5⌝) : sProp 𝕄) := by
  refine (bigSep_exists_pi Finset.univ (fun w (f : Buf (Elt F) (oLoc d)) => iprop(oRowPts d w f ∗ ⌜TileOK m d w f⌝))).trans ?_
  iintro ⟨%fs, H⟩
  have h1 : (bigSep Finset.univ fun w : Fin 32 => iprop(oRowPts d w (fs w) ∗ ⌜TileOK m d w (fs w)⌝) : sProp 𝕄)
      ⊢ iprop(⌜∀ w ∈ (Finset.univ : Finset (Fin 32)), TileOK m d w (fs w)⌝ ∗ bigSep Finset.univ fun w : Fin 32 => oRowPts d w (fs w)) :=
    (bigSep_mono fun w _ => td_pure_first m d w (fs w)).trans (bigSep_pure_sep Finset.univ (fun w => TileOK m d w (fs w)) (fun w => oRowPts d w (fs w)))
  ihave H1 := h1 $$ H
  icases H1 with ⟨%hT, Ho⟩
  have : Nonempty (Buf (Elt F) (oLoc d)) := ⟨fs 0⟩
  ihave H' := (pointsTo_biUnion_join (ℓ := oLoc d) (q := fullShare) (Val := Elt F) Finset.univ oRowSet fs (fs 0) orows_disjoint) $$ Ho
  icases H' with ⟨%g, %hg, Hg⟩
  rw [orows_cover]
  iexists g
  isplitl [Hg]; · iexact Hg
  ipureintro
  exact fun w => TileOK_congr m d w (fs w) g (fun i hi => hg w (Finset.mem_univ w) i hi) (hT w (Finset.mem_univ w))

theorem dn_elim (d : Dev nD) :
    (bigSep Finset.univ fun c : Fin ((K (F := F)).nCore 0) => (P m).dn 0 d c : sProp 𝕄)
      ⊢ iprop(iPts m d ∗ ∃ f5, oPts d f5 ∗ ⌜∀ w : Fin 32, TileOK m d w f5⌝) := by
  rw [dn_eq]
  unfold tdOf
  rw [bigSep_sep']
  unfold iPts iRowPts
  rw [iPts_rows]
  iintro ⟨Hi, Ho⟩
  isplitl [Hi]; · iexact Hi
  iapply (oRows_join m d); iexact Ho

/-! ## The launch element of the ghost state -/

/-- The handshakes' rounds at launch, the pipeline's staging cells' rounds at launch, no transfer counted. -/
def u₀ : UU :=
  (initOf (K (F := F)).hsCells (K (F := F)).hsToks,
    (initOf (Pipeline.cells (nD := nD) (τ := τ) (Pipeline.pin (pcfgs (F := F)) fun p => (cfgs p).toPCfg_adm) Gen.cellOf_inj) (Pipeline.launchToks (nD := nD) (τ := τ) (Pipeline.pin (pcfgs (F := F)) fun p => (cfgs p).toPCfg_adm) Gen.cellOf_inj), 1))

omit [FloatOps F] in
theorem bigSep_emp' {I : Type} (s : Finset I) : (bigSep s fun _ => iprop(emp)) = (iprop(emp) : sProp 𝕄) := bigSep_emp_const s

omit [FloatOps F] in
/-- One pipeline: a conjunction over the pipelines is its only member. -/
theorem bigSep_pipes (Φ : Dev nD → Fin 1 → sProp 𝕄) :
    (bigSep Finset.univ fun c : Dev nD => bigSep Finset.univ fun p : Fin 1 => Φ c p) = bigSep Finset.univ fun c : Dev nD => Φ c 0 :=
  bigSep_congr fun _ _ => bigSep_univ_of_subsingleton (0 : Fin 1)

omit [FloatOps F] in
/-- The pipeline's half of the launch element, the counters dropped. -/
theorem own_pipe_elem (x : UP) :
    (BI.own ((embR (A := UH) (B := UP × Counters)) (x, (1 : Counters))) : sProp 𝕄) ⊢ BI.own ((EP : Emb UP 𝕄) x) := by
  unfold EP
  exact (own_pair_emb (embR (A := UH) (B := UP × Counters)) x (1 : Counters)).trans sep_elim_left

theorem hu₀ : iprop(ownU (u₀ (F := F)) ∗ (P m).oxCred ∗ (K (F := F)).freeSems0)
    ⊢ |={Set.univ}=> iprop(BI.own (EH (initOf (K (F := F)).hsCells (K (F := F)).hsToks))
        ∗ (bigSep Finset.univ fun d : Dev nD =>
            iprop(Pipeline.cellsGhost (Pipeline.pin (pcfgs (F := F)) fun p => (cfgs p).toPCfg_adm) EP (0 : Fin 1) d ∗ Pipeline.toksInit (Pipeline.pin (pcfgs (F := F)) fun p => (cfgs p).toPCfg_adm) EP (0 : Fin 1) d))
        ∗ bigSep Finset.univ fun thr : Thread nD τ => bigSep Finset.univ fun q : Fin 1 => (P m).x q thr : sProp 𝕄) := by
  unfold u₀
  iintro ⟨Hu, -, -⟩
  ihave H := (ownU_pair (initOf (K (F := F)).hsCells (K (F := F)).hsToks)
    ((initOf (Pipeline.cells (nD := nD) (τ := τ) (Pipeline.pin (pcfgs (F := F)) fun p => (cfgs p).toPCfg_adm) Gen.cellOf_inj) (Pipeline.launchToks (nD := nD) (τ := τ) (Pipeline.pin (pcfgs (F := F)) fun p => (cfgs p).toPCfg_adm) Gen.cellOf_inj), (1 : Counters)) : UP × Counters)) $$ Hu
  icases H with ⟨HH, HR⟩
  ihave HP := (own_pipe_elem (F := F)
    (initOf (Pipeline.cells (nD := nD) (τ := τ) (Pipeline.pin (pcfgs (F := F)) fun p => (cfgs p).toPCfg_adm) Gen.cellOf_inj) (Pipeline.launchToks (nD := nD) (τ := τ) (Pipeline.pin (pcfgs (F := F)) fun p => (cfgs p).toPCfg_adm) Gen.cellOf_inj))) $$ HR
  imod (Pipeline.fund_ghost (Pipeline.pin (pcfgs (F := F)) fun p => (cfgs p).toPCfg_adm) EP Gen.cellOf_inj) $$ HP with ⟨Hg, Ht⟩
  imodintro
  isplitl [HH]; · iexact HH
  isplitl [Hg Ht]
  · rw [bigSep_sep', ← bigSep_pipes (F := F) (fun c p => Pipeline.cellsGhost (Pipeline.pin (pcfgs (F := F)) fun p => (cfgs p).toPCfg_adm) EP p c),
      ← bigSep_pipes (F := F) (fun c p => Pipeline.toksInit (Pipeline.pin (pcfgs (F := F)) fun p => (cfgs p).toPCfg_adm) EP p c)]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Kernel.Hand

end
-- ==== Proof.KB.PreOK.lean ====
/-
  The certificate's precondition, read back: the last conjunct of the printed predicate is the reduction by "and" of
  (n ≥ 1) and (n ≤ 1000000), both compared as signed words, over all item numbers n, and the predicate is all ones.
  So every item number, as an unsigned word, lies between 1 and 1000000.
-/
import proofs.«202434_g11450382811589_week1_w4_549_31_alg».proof.Proof.KB.Setup
import Idealize.ShloMosaic.Lib.ReduceAll

noncomputable section

namespace Cert.Kernel.Hand

open Cert.Kernel Cert.Kernel.Gen
open Idealize.ShloMosaic

variable {F : FTy → Type} [FloatOps F]

/-- The scalar shape has one index. -/
instance subsingleton_scalar_idx : Subsingleton Cert.Pre_input_domain.S_.Idx := ⟨fun a b => funext fun d => d.elim0⟩

/-- A word that is at least 1 and at most 1000000 as a signed word is so as an unsigned one: a signed word that is at
    least 1 is nonnegative, and then it is its own unsigned value. -/
theorem range_of_cmp (v : BitVec 32)
    (e : IntOp.andi (IntOp.cmpi .sge v 1#32) (IntOp.cmpi .sle v 1000000#32) = 1#1) : 1 ≤ v.toNat ∧ v.toNat ≤ 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- The precondition, all ones on every device, gives what the proof asks of the launch memory. -/
theorem ok_of_pre [Cert.Pre_input_domain.Facts] (m : (ℓ : Loc nD τ sig) → Buf (Elt F) ℓ)
    (h : ∀ c : Dev nD, Cert.Pre_input_domain.fn (F := F) (m (a0Loc c)) (m (a1Loc c)) (m (a2Loc c)) (m (a3Loc c)) = fun _ => 1#1) :
    PreOK m := by
  intro d j
  have e := congrFun (h d) ValueIdx.ix0
  dsimp only [Cert.Pre_input_domain.fn, Cert.Pre_input_domain.fn_part1] at e
  have e2 := (IntOp.andi_eq_one.1 e).2
  have e3 := Host.reduce_andi_all _ _ _ _ _ e2 j
  exact range_of_cmp _ e3

end Cert.Kernel.Hand

end
-- ==== Proof.KB.Final.lean ====
/-
  The kernel program's run with every hypothesis of the launch discharged: the pipeline's step, the task, the split of
  the call's operands and the launch element, put together.
-/
import proofs.«202434_g11450382811589_week1_w4_549_31_alg».proof.Proof.KB.Run
import proofs.«202434_g11450382811589_week1_w4_549_31_alg».proof.Proof.KB.Region
import proofs.«202434_g11450382811589_week1_w4_549_31_alg».proof.Proof.KB.Tile
import proofs.«202434_g11450382811589_week1_w4_549_31_alg».proof.Proof.KB.Split
import proofs.«202434_g11450382811589_week1_w4_549_31_alg».proof.Proof.KB.PreOK

noncomputable section

namespace Cert.Kernel.Hand

open Cert.Kernel Cert.Kernel.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

set_option maxHeartbeats 2000000 in
theorem regionRule : RegionRule m (GG (F := F)) := by
  intro d O hO W Q
  exact region_wp m d O hO W (fun _ => .ret ⟨⟩) Q

theorem stIntro : StIntro m := fun d f4 h4 => st_intro m d f4 h4

theorem dnElim : DnElim m := fun d => dn_elim m d

theorem launchElem :
    iprop(ownU (u₀ (F := F)) ∗ (P m).oxCred ∗ (K (F := F)).freeSems0)
      ⊢ |={Set.univ}=> iprop(BI.own (EH (initOf (K (F := F)).hsCells (K (F := F)).hsToks)) ∗ (bigSep Finset.univ fun d : Dev nD => GG (F := F) d)
          ∗ bigSep Finset.univ fun thr : Thread nD τ => bigSep Finset.univ fun q : Fin 1 => (P m).x q thr : sProp 𝕄) :=
  hu₀ m

/-- Every weakly fair execution of the kernel program from a memory whose item numbers are in range terminates; the
    arguments end as launched and every block of the result at what its task leaves. -/
theorem run [∀ e, Nonempty (Elt F e)] (hpre : PreOK m) :
    θ_run (Cert.Kernel.defs (F := F)) (Cert.Kernel.threads (F := F)) ⟨m, fun _ => 0, ρ⟩ (QC m) :=
  run_main m ρ (GG (F := F)) (u₀ (F := F)) (regionRule m) (stIntro m) (dnElim m) (tileObl m facts hpre) (vecSplit m) (launchElem m)

end Cert.Kernel.Hand

end
-- ==== Proof.lean ====
/-
  The claim's five parts for the item-rating lookup. The kernel computes, for every table row j, the score
  s(j) = sum over k of table(j, k) * w(0, k) + b(0) in blocks of 40960 rows on the TensorCore, and then each of the
  32 vector subcores fetches its 512 item numbers (less one), gathers s at them, applies 1 / (1 + exp (0 - x)) and
  writes its 512 results; the reference gathers the rows first and scores only those. With every item number between 1
  and 1000000 both are 1 / (1 + exp (-(sum over k of table(n - 1, k) * w(0, k) + b(0)))) at each item number n.

  The kernel's run (at the word-level values and at the extended reals, the same text twice) ends with the arguments as
  launched and every block of the result what its task leaves; at the extended reals that is the reference's result
  (Proof/Val.lean). The reference's run is its forty host operations in a line (Proof/RefRun.lean).
-/
import proofs.«202434_g11450382811589_week1_w4_549_31_alg».proof.Defs
import proofs.«202434_g11450382811589_week1_w4_549_31_alg».proof.Proof.RefRun
import proofs.«202434_g11450382811589_week1_w4_549_31_alg».proof.Proof.Val
import proofs.«202434_g11450382811589_week1_w4_549_31_alg».proof.Proof.KI.Final
import proofs.«202434_g11450382811589_week1_w4_549_31_alg».proof.Proof.KB.Final
import proofs.«202434_g11450382811589_week1_w4_549_31_alg».proof.Proof.Gen.Pre_input_domain
import Idealize.ShloMosaic.Adequacy
import Idealize.ShloMosaic.Init

noncomputable section

namespace Cert.Proof

open Idealize.ShloMosaic Idealize.SL.Sem

/-- The reference runs to its end and leaves its four arguments as they were: its straight-line run with the result
    dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation of the kernel: nothing to state. -/
theorem preserves : Cert.preserves_Kernel_KernelIdeal := trivial

/-- The kernel at the word-level values: its run, the result's description dropped. -/
theorem frame_k : Cert.frame_Kernel := fun m ρ hpre =>
  (θ_run (Cert.Kernel.defs (F := Bits)) _ _).mono (fun _ h c => ⟨(h c).1, (h c).2.1, (h c).2.2.1, (h c).2.2.2.1⟩)
    (Cert.Kernel.Hand.run (F := Bits) m ρ (Cert.Kernel.Hand.ok_of_pre m hpre))

/-- The kernel at the extended reals: the same run. -/
theorem run_ki (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (Cert.KernelIdeal.threads (F := Ideal)) ⟨m, fun _ => 0, ρ⟩ (Cert.KernelIdeal.Hand.QC m) :=
  Cert.KernelIdeal.Hand.run (F := Ideal) m ρ (Cert.KernelIdeal.Hand.ok_of_pre m hpre)

theorem frame_ki : Cert.frame_KernelIdeal := fun m ρ hpre =>
  (θ_run (Cert.KernelIdeal.defs (F := Ideal)) _ _).mono (fun _ h c => ⟨(h c).1, (h c).2.1, (h c).2.2.1, (h c).2.2.2.1⟩) (run_ki m ρ hpre)

/-- At the extended reals the kernel's result is the reference's: every block of it is what its task leaves, which is
    the rating of the scores at the block's item numbers; the reference's run ends at the same term of arguments that
    agree. -/
theorem algebraic : Cert.algebraic_KernelIdeal_ReferenceIdeal := by
  intro m ρ m' ρ' hpre hagree
  have hok := Cert.KernelIdeal.Hand.ok_of_pre m hpre
  refine ⟨fun c => Cert.ReferenceIdeal.RefRun.out (F := Ideal) (m (Cert.KernelIdeal.Hand.a0Loc c)) (m (Cert.KernelIdeal.Hand.a1Loc c))
    (m (Cert.KernelIdeal.Hand.a2Loc c)) (m (Cert.KernelIdeal.Hand.a3Loc c)), ?_, ?_⟩
  · refine (θ_run (Cert.KernelIdeal.defs (F := Ideal)) _ _).mono
      (fun r h c => ⟨Val.result_eq m hok c _ (h c).2.2.2.2, (h c).1, (h c).2.1, (h c).2.2.1, (h c).2.2.2.1⟩) (run_ki m ρ hpre)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
